-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v138) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x7 : Shape := ⟨2, ![256, 7]⟩
abbrev S7 : Shape := ⟨1, ![7]⟩
abbrev S512x512 : Shape := ⟨2, ![512, 512]⟩
abbrev S512 : Shape := ⟨1, ![512]⟩
abbrev S512x64 : Shape := ⟨2, ![512, 64]⟩
abbrev S64 : Shape := ⟨1, ![64]⟩
abbrev S64x7 : Shape := ⟨2, ![64, 7]⟩
abbrev S7x7 : Shape := ⟨2, ![7, 7]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x7 : S_.BroadcastsInDim S256x7 (![] : Fin 0 → Fin S256x7.rank)
  reducesTo_S256x7_S_d0_1 : S256x7.ReducesTo [0, 1] S_
  bcast_S_S7 : S_.BroadcastsInDim S7 (![] : Fin 0 → Fin S7.rank)
  reducesTo_S7_S_d0 : S7.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x7 : S_.BroadcastsInDim S64x7 (![] : Fin 0 → Fin S64x7.rank)
  reducesTo_S64x7_S_d0_1 : S64x7.ReducesTo [0, 1] S_
  bcast_S_S7x7 : S_.BroadcastsInDim S7x7 (![] : Fin 0 → Fin S7x7.rank)
  reducesTo_S7x7_S_d0_1 : S7x7.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64x7 .f32) (main_arg13 : FVec F S7 .f32) (main_arg14 : FVec F S7x7 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x7 .f32 := Host.absf main_arg12
  let main_cst_20 : FVec F S_ .f32 := constant S_ .f32 0x7F800000#32
  let main_v55 : FVec F S64x7 .f32 := broadcastInDim S64x7 ![] bcast_S_S64x7 main_cst_20
  let main_v56 : IVec S64x7 1 := cmpf .olt main_v54 main_v55
  let main_c_21 : IVec S_ 1 := constantI S_ 1 1#1
  let main_v57 : IVec S_ 1 := (fun x v => Host.reduce IntOp.andi x v reducesTo_S64x7_S_d0_1 h_S_) main_v56 main_c_21
  let main_v58 : IVec S_ 1 := andi main_v53 main_v57
  let main_v59 : FVec F S7 .f32 := Host.absf main_arg13
  let main_cst_22 : FVec F S_ .f32 := constant S_ .f32 0x7F800000#32
  let main_v60 : FVec F S7 .f32 := broadcastInDim S7 ![] bcast_S_S7 main_cst_22
  let main_v61 : IVec S7 1 := cmpf .olt main_v59 main_v60
  let main_c_23 : IVec S_ 1 := constantI S_ 1 1#1
  let main_v62 : IVec S_ 1 := (fun x v => Host.reduce IntOp.andi x v reducesTo_S7_S_d0 h_S_) main_v61 main_c_23
  let main_v63 : IVec S_ 1 := andi main_v58 main_v62
  let main_v64 : FVec F S7x7 .f32 := Host.absf main_arg14
  let main_cst_24 : FVec F S_ .f32 := constant S_ .f32 0x7F800000#32
  let main_v65 : FVec F S7x7 .f32 := broadcastInDim S7x7 ![] bcast_S_S7x7 main_cst_24
  let main_v66 : IVec S7x7 1 := cmpf .olt main_v64 main_v65
  let main_c_25 : IVec S_ 1 := constantI S_ 1 1#1
  let main_v67 : IVec S_ 1 := (fun x v => Host.reduce IntOp.andi x v reducesTo_S7x7_S_d0_1 h_S_) main_v66 main_c_25
  fn_part4 (F := F) main_v63 main_v67

def fn_part2 {F : FTy → Type} [FloatOps F] (main_arg8 : FVec F S512x512 .f32) (main_arg9 : FVec F S512 .f32) (main_arg10 : FVec F S512x64 .f32) (main_arg11 : FVec F S64 .f32) (main_arg12 : FVec F S64x7 .f32) (main_arg13 : FVec F S7 .f32) (main_arg14 : FVec F S7x7 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x64 .f32 := Host.absf main_arg10
  let main_cst_16 : FVec F S_ .f32 := constant S_ .f32 0x7F800000#32
  let main_v45 : FVec F S512x64 .f32 := broadcastInDim S512x64 ![] bcast_S_S512x64 main_cst_16
  let main_v46 : IVec S512x64 1 := cmpf .olt main_v44 main_v45
  let main_c_17 : IVec S_ 1 := constantI S_ 1 1#1
  let main_v47 : IVec S_ 1 := (fun x v => Host.reduce IntOp.andi x v reducesTo_S512x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_v48 main_v49 main_v50

def fn_part1 {F : FTy → Type} [FloatOps F] (main_arg5 : FVec F S256 .f32) (main_arg6 : FVec F S256x7 .f32) (main_arg7 : FVec F S7 .f32) (main_arg8 : FVec F S512x512 .f32) (main_arg9 : FVec F S512 .f32) (main_arg10 : FVec F S512x64 .f32) (main_arg11 : FVec F S64 .f32) (main_arg12 : FVec F S64x7 .f32) (main_arg13 : FVec F S7 .f32) (main_arg14 : FVec F S7x7 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x7 .f32 := Host.absf main_arg6
  let main_cst_8 : FVec F S_ .f32 := constant S_ .f32 0x7F800000#32
  let main_v25 : FVec F S256x7 .f32 := broadcastInDim S256x7 ![] bcast_S_S256x7 main_cst_8
  let main_v26 : IVec S256x7 1 := cmpf .olt main_v24 main_v25
  let main_c_9 : IVec S_ 1 := constantI S_ 1 1#1
  let main_v27 : IVec S_ 1 := (fun x v => Host.reduce IntOp.andi x v reducesTo_S256x7_S_d0_1 h_S_) main_v26 main_c_9
  let main_v28 : IVec S_ 1 := andi main_v23 main_v27
  let main_v29 : FVec F S7 .f32 := Host.absf main_arg7
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x512 .f32) (main_arg1 : IVec S2x800000 32) (main_arg2 : FVec F S512x256 .f32) (main_arg3 : FVec F S256 .f32) (main_arg4 : FVec F S256x256 .f32) (main_arg5 : FVec F S256 .f32) (main_arg6 : FVec F S256x7 .f32) (main_arg7 : FVec F S7 .f32) (main_arg8 : FVec F S512x512 .f32) (main_arg9 : FVec F S512 .f32) (main_arg10 : FVec F S512x64 .f32) (main_arg11 : FVec F S64 .f32) (main_arg12 : FVec F S64x7 .f32) (main_arg13 : FVec F S7 .f32) (main_arg14 : FVec F S7x7 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x7 : Shape := ⟨2, ![256, 7]⟩
abbrev S7 : Shape := ⟨1, ![7]⟩
abbrev S512x512 : Shape := ⟨2, ![512, 512]⟩
abbrev S512 : Shape := ⟨1, ![512]⟩
abbrev S512x64 : Shape := ⟨2, ![512, 64]⟩
abbrev S64 : Shape := ⟨1, ![64]⟩
abbrev S64x7 : Shape := ⟨2, ![64, 7]⟩
abbrev S7x7 : Shape := ⟨2, ![7, 7]⟩
abbrev S1x800000 : Shape := ⟨2, ![1, 800000]⟩
abbrev S800000 : Shape := ⟨1, ![800000]⟩
abbrev S1x512 : Shape := ⟨2, ![1, 512]⟩
abbrev S2000x512 : Shape := ⟨2, ![2000, 512]⟩
abbrev S1x64 : Shape := ⟨2, ![1, 64]⟩
abbrev S50000x64 : Shape := ⟨2, ![50000, 64]⟩
abbrev S2000x64 : Shape := ⟨2, ![2000, 64]⟩
abbrev S1x7 : Shape := ⟨2, ![1, 7]⟩
abbrev S50000x7 : Shape := ⟨2, ![50000, 7]⟩
abbrev S10000x64 : Shape := ⟨2, ![10000, 64]⟩
abbrev S10000x7 : Shape := ⟨2, ![10000, 7]⟩
abbrev S_ : Shape := ⟨0, ![]⟩
abbrev S7x50000 : Shape := ⟨2, ![7, 50000]⟩
abbrev S800000x1 : Shape := ⟨2, ![800000, 1]⟩
abbrev S7x800000 : Shape := ⟨2, ![7, 800000]⟩
abbrev S7x80000 : Shape := ⟨2, ![7, 80000]⟩
abbrev S1x80000 : Shape := ⟨2, ![1, 80000]⟩
abbrev S80000 : Shape := ⟨1, ![80000]⟩
abbrev S1 : Shape := ⟨1, ![1]⟩
abbrev S50000 : Shape := ⟨1, ![50000]⟩
abbrev S850000 : Shape := ⟨1, ![850000]⟩
abbrev S850000x1 : Shape := ⟨2, ![850000, 1]⟩
abbrev S1x256 : Shape := ⟨2, ![1, 256]⟩
abbrev S50000x256 : Shape := ⟨2, ![50000, 256]⟩
abbrev S2000x256 : Shape := ⟨2, ![2000, 256]⟩
abbrev S850000x256 : Shape := ⟨2, ![850000, 256]⟩
abbrev S5000x256 : Shape := ⟨2, ![5000, 256]⟩
abbrev S5000x7 : Shape := ⟨2, ![5000, 7]⟩
abbrev S850000x7 : Shape := ⟨2, ![850000, 7]⟩

abbrev nBuf : Space → Nat
  | .hbm => 209
  | .vmem => 54
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S256x256, .f32⟩
  | 5 => ⟨S256, .f32⟩
  | 6 => ⟨S256x7, .f32⟩
  | 7 => ⟨S7, .f32⟩
  | 8 => ⟨S512x512, .f32⟩
  | 9 => ⟨S512, .f32⟩
  | 10 => ⟨S512x64, .f32⟩
  | 11 => ⟨S64, .f32⟩
  | 12 => ⟨S64x7, .f32⟩
  | 13 => ⟨S7, .f32⟩
  | 14 => ⟨S7x7, .f32⟩
  | 15 => ⟨S1x800000, .i32⟩
  | 16 => ⟨S800000, .i32⟩
  | 17 => ⟨S1x800000, .i32⟩
  | 18 => ⟨S800000, .i32⟩
  | 19 => ⟨S1x512, .f32⟩
  | 20 => ⟨S50000x512, .f32⟩
  | 21 => ⟨S1x64, .f32⟩
  | 22 => ⟨S50000x64, .f32⟩
  | 23 => ⟨S1x7, .f32⟩
  | 24 => ⟨S50000x7, .f32⟩
  | 25 => ⟨S_, .f32⟩
  | 26 => ⟨S7x7, .f32⟩
  | 27 => ⟨S7x7, .f32⟩
  | 28 => ⟨S_, .f32⟩
  | 29 => ⟨S7x7, .f32⟩
  | 30 => ⟨S7x7, .f32⟩
  | 31 => ⟨S_, .f32⟩
  | 32 => ⟨S7, .f32⟩
  | 33 => ⟨S1x7, .f32⟩
  | 34 => ⟨S50000x7, .f32⟩
  | 35 => ⟨S7x50000, .f32⟩
  | 36 => ⟨S7x50000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S7x800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S7x800000, .f32⟩
  | 55 => ⟨S1x800000, .f32⟩
  | 56 => ⟨S800000, .f32⟩
  | 57 => ⟨S_, .f32⟩
  | 58 => ⟨S_, .f32⟩
  | 59 => ⟨S_, .f32⟩
  | 60 => ⟨S_, .f32⟩
  | 61 => ⟨S_, .i32⟩
  | 62 => ⟨S_, .f32⟩
  | 63 => ⟨S_, .f32⟩
  | 64 => ⟨S1, .f32⟩
  | 65 => ⟨S_, .f32⟩
  | 66 => ⟨S1, .f32⟩
  | 67 => ⟨S1, .f32⟩
  | 68 => ⟨S800000, .f32⟩
  | 69 => ⟨S800000, .f32⟩
  | 70 => ⟨S800000, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .i1⟩
  | 79 => ⟨S_, .f32⟩
  | 80 => ⟨S_, .f32⟩
  | 81 => ⟨S_, .f32⟩
  | 82 => ⟨S800000, .f32⟩
  | 83 => ⟨S800000, .f32⟩
  | 84 => ⟨S_, .f32⟩
  | 85 => ⟨S_, .f32⟩
  | 86 => ⟨S_, .f32⟩
  | 87 => ⟨S800000, .f32⟩
  | 88 => ⟨S800000, .f32⟩
  | 89 => ⟨S_, .f32⟩
  | 90 => ⟨S800000, .f32⟩
  | 91 => ⟨S800000, .f32⟩
  | 92 => ⟨S50000, .i32⟩
  | 93 => ⟨S850000, .i32⟩
  | 94 => ⟨S850000, .i32⟩
  | 95 => ⟨S_, .f32⟩
  | 96 => ⟨S50000, .f32⟩
  | 97 => ⟨S850000, .f32⟩
  | 98 => ⟨S_, .f32⟩
  | 99 => ⟨S50000, .f32⟩
  | 100 => ⟨S850000x1, .i32⟩
  | 101 => ⟨S50000, .f32⟩
  | 102 => ⟨S_, .f32⟩
  | 103 => ⟨S50000, .f32⟩
  | 104 => ⟨S50000, .i1⟩
  | 105 => ⟨S_, .f32⟩
  | 106 => ⟨S50000, .f32⟩
  | 107 => ⟨S50000, .f32⟩
  | 108 => ⟨S50000, .f32⟩
  | 109 => ⟨S_, .f32⟩
  | 110 => ⟨S_, .f32⟩
  | 111 => ⟨S50000, .f32⟩
  | 112 => ⟨S50000, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000, .f32⟩
  | 122 => ⟨S850000, .f32⟩
  | 123 => ⟨S_, .i32⟩
  | 124 => ⟨S850000, .i32⟩
  | 125 => ⟨S850000, .i1⟩
  | 126 => ⟨S_, .i32⟩
  | 127 => ⟨S850000, .i32⟩
  | _ => ⟨S50000x512, .f32⟩

abbrev hbmTy0_1 (i : Nat) : BufTy := match i % 128 with
  | 0 => ⟨S850000, .i32⟩
  | 1 => ⟨S850000, .i32⟩
  | 2 => ⟨S850000x1, .i32⟩
  | 3 => ⟨S850000, .f32⟩
  | 4 => ⟨S850000, .f32⟩
  | 5 => ⟨S_, .f32⟩
  | 6 => ⟨S256, .f32⟩
  | 7 => ⟨S1x256, .f32⟩
  | 8 => ⟨S50000x256, .f32⟩
  | 9 => ⟨S50000x256, .bf16⟩
  | 10 => ⟨S_, .i32⟩
  | 11 => ⟨S850000, .i32⟩
  | 12 => ⟨S850000, .i1⟩
  | 13 => ⟨S_, .i32⟩
  | 14 => ⟨S850000, .i32⟩
  | 15 => ⟨S850000, .i32⟩
  | 16 => ⟨S850000, .i32⟩
  | 17 => ⟨S850000x1, .i32⟩
  | 18 => ⟨S850000x256, .bf16⟩
  | 19 => ⟨S850000x256, .f32⟩
  | 20 => ⟨S850000x1, .f32⟩
  | 21 => ⟨S850000x256, .f32⟩
  | 22 => ⟨S850000x256, .f32⟩
  | 23 => ⟨S_, .f32⟩
  | 24 => ⟨S50000x256, .f32⟩
  | 25 => ⟨S850000x1, .i32⟩
  | 26 => ⟨S50000x256, .f32⟩
  | 27 => ⟨S1x256, .f32⟩
  | 28 => ⟨S50000x256, .f32⟩
  | 29 => ⟨S50000x256, .f32⟩
  | 30 => ⟨S_, .f32⟩
  | 31 => ⟨S256, .f32⟩
  | 32 => ⟨S1x256, .f32⟩
  | 33 => ⟨S50000x256, .f32⟩
  | 34 => ⟨S50000x256, .bf16⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000x256, .bf16⟩
  | 44 => ⟨S850000x256, .f32⟩
  | 45 => ⟨S850000x1, .f32⟩
  | 46 => ⟨S850000x256, .f32⟩
  | 47 => ⟨S850000x256, .f32⟩
  | 48 => ⟨S_, .f32⟩
  | 49 => ⟨S50000x256, .f32⟩
  | 50 => ⟨S850000x1, .i32⟩
  | 51 => ⟨S50000x256, .f32⟩
  | 52 => ⟨S1x256, .f32⟩
  | 53 => ⟨S50000x256, .f32⟩
  | 54 => ⟨S50000x256, .f32⟩
  | 55 => ⟨S50000x256, .f32⟩
  | 56 => ⟨S_, .f32⟩
  | 57 => ⟨S7, .f32⟩
  | 58 => ⟨S1x7, .f32⟩
  | 59 => ⟨S50000x7, .f32⟩
  | 60 => ⟨S50000x7, .bf16⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x7, .bf16⟩
  | 70 => ⟨S850000x7, .f32⟩
  | 71 => ⟨S850000x1, .f32⟩
  | 72 => ⟨S850000x7, .f32⟩
  | 73 => ⟨S850000x7, .f32⟩
  | 74 => ⟨S_, .f32⟩
  | 75 => ⟨S50000x7, .f32⟩
  | 76 => ⟨S850000x1, .i32⟩
  | 77 => ⟨S50000x7, .f32⟩
  | 78 => ⟨S1x7, .f32⟩
  | 79 => ⟨S50000x7, .f32⟩
  | 80 => ⟨S50000x7, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S2000x512, .f32⟩
  | .local _ .vmem, ⟨8, _⟩ => ⟨S512x64, .f32⟩
  | .local _ .vmem, ⟨9, _⟩ => ⟨S1x64, .f32⟩
  | .local _ .vmem, ⟨10, _⟩ => ⟨S2000x64, .f32⟩
  | .local _ .vmem, ⟨11, _⟩ => ⟨S2000x64, .f32⟩
  | .local _ .vmem, ⟨12, _⟩ => ⟨S10000x64, .f32⟩
  | .local _ .vmem, ⟨13, _⟩ => ⟨S10000x64, .f32⟩
  | .local _ .vmem, ⟨14, _⟩ => ⟨S64x7, .f32⟩
  | .local _ .vmem, ⟨15, _⟩ => ⟨S1x7, .f32⟩
  | .local _ .vmem, ⟨16, _⟩ => ⟨S10000x7, .f32⟩
  | .local _ .vmem, ⟨17, _⟩ => ⟨S10000x7, .f32⟩
  | .local _ .vmem, ⟨18, _⟩ => ⟨S10000x7, .f32⟩
  | .local _ .vmem, ⟨19, _⟩ => ⟨S10000x7, .f32⟩
  | .local _ .vmem, ⟨20, _⟩ => ⟨S7x7, .f32⟩
  | .local _ .vmem, ⟨21, _⟩ => ⟨S1x7, .f32⟩
  | .local _ .vmem, ⟨22, _⟩ => ⟨S10000x7, .f32⟩
  | .local _ .vmem, ⟨23, _⟩ => ⟨S10000x7, .f32⟩
  | .local _ .vmem, ⟨24, _⟩ => ⟨S7x80000, .f32⟩
  | .local _ .vmem, ⟨25, _⟩ => ⟨S7x80000, .f32⟩
  | .local _ .vmem, ⟨26, _⟩ => ⟨S7x80000, .f32⟩
  | .local _ .vmem, ⟨27, _⟩ => ⟨S7x80000, .f32⟩
  | .local _ .vmem, ⟨28, _⟩ => ⟨S1x80000, .f32⟩
  | .local _ .vmem, ⟨29, _⟩ => ⟨S1x80000, .f32⟩
  | .local _ .vmem, ⟨30, _⟩ => ⟨S2000x512, .f32⟩
  | .local _ .vmem, ⟨31, _⟩ => ⟨S2000x512, .f32⟩
  | .local _ .vmem, ⟨32, _⟩ => ⟨S512x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S5000x256, .f32⟩
  | .local _ .vmem, ⟨37, _⟩ => ⟨S5000x256, .f32⟩
  | .local _ .vmem, ⟨38, _⟩ => ⟨S256x256, .f32⟩
  | .local _ .vmem, ⟨39, _⟩ => ⟨S1x256, .f32⟩
  | .local _ .vmem, ⟨40, _⟩ => ⟨S5000x256, .f32⟩
  | .local _ .vmem, ⟨41, _⟩ => ⟨S5000x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S5000x256, .f32⟩
  | .local _ .vmem, ⟨49, _⟩ => ⟨S5000x256, .f32⟩
  | .local _ .vmem, ⟨50, _⟩ => ⟨S256x7, .f32⟩
  | .local _ .vmem, ⟨51, _⟩ => ⟨S1x7, .f32⟩
  | .local _ .vmem, ⟨52, _⟩ => ⟨S5000x7, .f32⟩
  | .local _ .vmem, ⟨53, _⟩ => ⟨S5000x7, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_call0_cst : Ref sig .tc := ⟨.hbm, 28, rfl⟩
abbrev main_call0_v0 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_1 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_2 : Ref sig .tc := ⟨.hbm, 46, rfl⟩
abbrev main_v25 : Ref sig .tc := ⟨.hbm, 47, rfl⟩
abbrev main_v26 : Ref sig .tc := ⟨.hbm, 48, rfl⟩
abbrev main_c_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_c_6 : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_cst_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_cst_1 : Ref sig .tc := ⟨.hbm, 72, rfl⟩
abbrev main_call1_v8 : Ref sig .tc := ⟨.hbm, 73, rfl⟩
abbrev main_call1_cst_2 : Ref sig .tc := ⟨.hbm, 74, rfl⟩
abbrev main_call1_v9 : Ref sig .tc := ⟨.hbm, 75, rfl⟩
abbrev main_call1_v10 : Ref sig .tc := ⟨.hbm, 76, rfl⟩
abbrev main_call1_cst_3 : Ref sig .tc := ⟨.hbm, 77, rfl⟩
abbrev main_call1_v11 : Ref sig .tc := ⟨.hbm, 78, rfl⟩
abbrev main_call1_cst_4 : Ref sig .tc := ⟨.hbm, 79, rfl⟩
abbrev main_call1_call0_v0 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_7 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_8 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_cst_9 : Ref sig .tc := ⟨.hbm, 95, rfl⟩
abbrev main_v48 : Ref sig .tc := ⟨.hbm, 96, rfl⟩
abbrev main_v49 : Ref sig .tc := ⟨.hbm, 97, rfl⟩
abbrev main_cst_10 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_11 : Ref sig .tc := ⟨.hbm, 102, rfl⟩
abbrev main_v53 : Ref sig .tc := ⟨.hbm, 103, rfl⟩
abbrev main_v54 : Ref sig .tc := ⟨.hbm, 104, rfl⟩
abbrev main_cst_12 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_13 : Ref sig .tc := ⟨.hbm, 109, rfl⟩
abbrev main_call2_v0 : Ref sig .tc := ⟨.hbm, 110, rfl⟩
abbrev main_call2_v1 : Ref sig .tc := ⟨.hbm, 111, rfl⟩
abbrev main_v58 : Ref sig .tc := ⟨.hbm, 112, rfl⟩
abbrev main_c_14 : Ref sig .tc := ⟨.hbm, 113, rfl⟩
abbrev main_v59 : Ref sig .tc := ⟨.hbm, 114, rfl⟩
abbrev main_v60 : Ref sig .tc := ⟨.hbm, 115, rfl⟩
abbrev main_c_15 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_c_16 : Ref sig .tc := ⟨.hbm, 123, rfl⟩
abbrev main_v67 : Ref sig .tc := ⟨.hbm, 124, rfl⟩
abbrev main_v68 : Ref sig .tc := ⟨.hbm, 125, rfl⟩
abbrev main_c_17 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_cst_18 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_c_19 : Ref sig .tc := ⟨.hbm, 138, rfl⟩
abbrev main_v79 : Ref sig .tc := ⟨.hbm, 139, rfl⟩
abbrev main_v80 : Ref sig .tc := ⟨.hbm, 140, rfl⟩
abbrev main_c_20 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_cst_21 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_cst_22 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_c_23 : Ref sig .tc := ⟨.hbm, 163, rfl⟩
abbrev main_v100 : Ref sig .tc := ⟨.hbm, 164, rfl⟩
abbrev main_v101 : Ref sig .tc := ⟨.hbm, 165, rfl⟩
abbrev main_c_24 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_cst_25 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_cst_26 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_c_27 : Ref sig .tc := ⟨.hbm, 189, rfl⟩
abbrev main_v122 : Ref sig .tc := ⟨.hbm, 190, rfl⟩
abbrev main_v123 : Ref sig .tc := ⟨.hbm, 191, rfl⟩
abbrev main_c_28 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_cst_29 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem3_1 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S7x7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x7 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x7 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S7x80000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S7x80000 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x80000 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x7 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x7 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x7 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  shapeCasts_S64_S1x64 : S64.ShapeCasts S1x64
  shapeCasts_S2000x512_S2000x512 : S2000x512.ShapeCasts S2000x512
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  shapeCasts_S7_S1x7 : S7.ShapeCasts S1x7
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x7_S64x7_0_0 : ∀ a, (![0, 0] : Fin 2 → Nat) a + S64x7.size a ≤ S64x7.size a
  h_S64x7 : 0 < S64x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S10000x7 : S1x7.Broadcasts S10000x7
  inb_S10000x7_S10000x7_0_0 : ∀ a, (![0, 0] : Fin 2 → Nat) a + S10000x7.size a ≤ S10000x7.size a
  h_S10000x7 : 0 < S10000x7.numel
  bcast_S_S7x7 : S_.BroadcastsInDim S7x7 (![] : Fin 0 → Fin S7x7.rank)
  bcast_S_S7 : S_.BroadcastsInDim S7 (![] : Fin 0 → Fin S7.rank)
  shapeCasts_S10000x7_S10000x7 : S10000x7.ShapeCasts S10000x7
  inb_S7x7_S7x7_0_0 : ∀ a, (![0, 0] : Fin 2 → Nat) a + S7x7.size a ≤ S7x7.size a
  h_S7x7 : 0 < S7x7.numel
  shapeCasts_S7x7_S7x7 : S7x7.ShapeCasts S7x7
  transposes_S50000x7_S7x50000_1_0 : S50000x7.Transposes [1, 0] S7x50000
  bcast_S_S800000 : S_.BroadcastsInDim S800000 (![] : Fin 0 → Fin S800000.rank)
  bcast_S800000_S800000x1_0 : S800000.BroadcastsInDim S800000x1 (![0] : Fin 1 → Fin S800000x1.rank)
  inb_S7x80000_S7x80000_0_0 : ∀ a, (![0, 0] : Fin 2 → Nat) a + S7x80000.size a ≤ S7x80000.size a
  h_S7x80000 : 0 < S7x80000.numel
  shapeCasts_S7x80000_S7x80000 : S7x80000.ShapeCasts S7x80000
  reduces_S7x80000_S80000 : S7x80000.Reduces [0] S80000
  shapeCasts_S80000_S1x80000 : S80000.ShapeCasts S1x80000
  inb_S1x80000_S1x80000_0_0 : ∀ a, (![0, 0] : Fin 2 → Nat) a + S1x80000.size a ≤ S1x80000.size a
  h_S1x80000 : 0 < S1x80000.numel
  reducesTo_S800000_S_d0 : S800000.ReducesTo [0] S_
  h_S_ : 0 < S_.numel
  bcast_S_S1 : S_.BroadcastsInDim S1 (![] : Fin 0 → Fin S1.rank)
  bcast_S1_S800000_0 : S1.BroadcastsInDim S800000 (![0] : Fin 1 → Fin S800000.rank)
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S_S256 : S_.BroadcastsInDim S256 (![] : Fin 0 → Fin S256.rank)
  shapeCasts_S256_S1x256 : S256.ShapeCasts S1x256
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  broadcasts_S1x256_S5000x256 : S1x256.Broadcasts S5000x256
  shapeCasts_S2000x256_S2000x256 : S2000x256.ShapeCasts S2000x256
  inb_S256x7_S256x7_0_0 : ∀ a, (![0, 0] : Fin 2 → Nat) a + S256x7.size a ≤ S256x7.size a
  h_S256x7 : 0 < S256x7.numel
  broadcasts_S1x7_S5000x7 : S1x7.Broadcasts S5000x7
  inb_S5000x7_S5000x7_0_0 : ∀ a, (![0, 0] : Fin 2 → Nat) a + S5000x7.size a ≤ S5000x7.size a
  h_S5000x7 : 0 < S5000x7.numel
  bcast_S850000x1_S850000x7_0_1 : S850000x1.BroadcastsInDim S850000x7 (![0, 1] : Fin 2 → Fin S850000x7.rank)
  bcast_S_S50000x7 : S_.BroadcastsInDim S50000x7 (![] : Fin 0 → Fin S50000x7.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  dot_S2000x512_S512x512_S2000x512_1_0_0_1_n_n_wf : DotDims.WF S2000x512 S512x512 S2000x512 [1] [0] [0] [1] [] []
  dot_S2000x512_S512x64_S2000x64_1_0_0_1_n_n_wf : DotDims.WF S2000x512 S512x64 S2000x64 [1] [0] [0] [1] [] []
  dot_S10000x64_S64x7_S10000x7_1_0_0_1_n_n_wf : DotDims.WF S10000x64 S64x7 S10000x7 [1] [0] [0] [1] [] []
  dot_S10000x7_S7x7_S10000x7_1_0_0_1_n_n_wf : DotDims.WF S10000x7 S7x7 S10000x7 [1] [0] [0] [1] [] []
  gather_S7x50000_S800000x1_S7x800000_0_1_n_n_1_1_71_wf : GatherDims.WF S7x50000 S800000x1 S7x800000 [0] [1] [] [1] [] 1 ![7, 1]
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x256_S5000x256_1_0_0_1_n_n_wf : DotDims.WF S5000x256 S256x256 S5000x256 [1] [0] [0] [1] [] []
  dot_S5000x256_S256x7_S5000x7_1_0_0_1_n_n_wf : DotDims.WF S5000x256 S256x7 S5000x7 [1] [0] [0] [1] [] []
  gather_S50000x7_S850000x1_S850000x7_1_0_n_n_0_1_17_wf : GatherDims.WF S50000x7 S850000x1 S850000x7 [1] [0] [] [0] [] 1 ![1, 7]
  scatter_S50000x7_S850000x1_S850000x7_1_0_0_1_wf : ScatterDims.WF S50000x7 S850000x1 S850000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S512x64.size a
  hwx1_1 : ∀ i : grid1.Coords, EltTy.bits .f32 = 32 ∨ (Rect.block (s := S512x64) S512x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x7.size a ≤ S64x7.size a
  hwx2_1 : ∀ i : grid2.Coords, EltTy.bits .f32 = 32 ∨ (Rect.block (s := S64x7) S64x7.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x7.size a ≤ S1x7.size a
  hwx2_2 : ∀ i : grid2.Coords, EltTy.bits .f32 = 32 ∨ (Rect.block (s := S1x7) S1x7.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x7.size a ≤ S50000x7.size a
  hwx2_3 : ∀ i : grid2.Coords, EltTy.bits .f32 = 32 ∨ (Rect.block (s := S50000x7) S10000x7.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x7.size a ≤ S50000x7.size a
  hwx3_0 : ∀ i : grid3.Coords, EltTy.bits .f32 = 32 ∨ (Rect.block (s := S50000x7) S10000x7.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S7x7.size a ≤ S7x7.size a
  hwx3_1 : ∀ i : grid3.Coords, EltTy.bits .f32 = 32 ∨ (Rect.block (s := S7x7) S7x7.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x7.size a ≤ S1x7.size a
  hwx3_2 : ∀ i : grid3.Coords, EltTy.bits .f32 = 32 ∨ (Rect.block (s := S1x7) S1x7.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x7.size a ≤ S50000x7.size a
  hwx3_3 : ∀ i : grid3.Coords, EltTy.bits .f32 = 32 ∨ (Rect.block (s := S50000x7) S10000x7.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S7x80000.size a ≤ S7x800000.size a
  hwx4_0 : ∀ i : grid4.Coords, EltTy.bits .f32 = 32 ∨ (Rect.block (s := S7x800000) S7x80000.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S7x80000.size a ≤ S7x800000.size a
  hwx4_1 : ∀ i : grid4.Coords, EltTy.bits .f32 = 32 ∨ (Rect.block (s := S7x800000) S7x80000.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x80000.size a ≤ S1x800000.size a
  hwx4_2 : ∀ i : grid4.Coords, EltTy.bits .f32 = 32 ∨ (Rect.block (s := S1x800000) S1x80000.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S50000x512.size a
  hwx5_0 : ∀ i : grid5.Coords, EltTy.bits .f32 = 32 ∨ (Rect.block (s := S50000x512) S2000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x256.size a ≤ S512x256.size a
  hwx5_1 : ∀ i : grid5.Coords, EltTy.bits .f32 = 32 ∨ (Rect.block (s := S512x256) S512x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x256.size a ≤ S50000x256.size a
  hwx5_3 : ∀ i : grid5.Coords, EltTy.bits .f32 = 32 ∨ (Rect.block (s := S50000x256) S2000x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x256.size a ≤ S50000x256.size a
  hwx6_0 : ∀ i : grid6.Coords, EltTy.bits .f32 = 32 ∨ (Rect.block (s := S50000x256) S5000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x256.size a ≤ S50000x256.size a
  hwx6_3 : ∀ i : grid6.Coords, EltTy.bits .f32 = 32 ∨ (Rect.block (s := S50000x256) S5000x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S50000x256.size a
  hwx7_1 : ∀ i : grid7.Coords, EltTy.bits .f32 = 32 ∨ (Rect.block (s := S50000x256) S2000x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x256.size a ≤ S50000x256.size a
  hwx7_2 : ∀ i : grid7.Coords, EltTy.bits .f32 = 32 ∨ (Rect.block (s := S50000x256) S2000x256.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x256.size a ≤ S50000x256.size a
  hwx8_0 : ∀ i : grid8.Coords, EltTy.bits .f32 = 32 ∨ (Rect.block (s := S50000x256) S5000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x7.size a ≤ S256x7.size a
  hwx8_1 : ∀ i : grid8.Coords, EltTy.bits .f32 = 32 ∨ (Rect.block (s := S256x7) S256x7.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x7.size a ≤ S1x7.size a
  hwx8_2 : ∀ i : grid8.Coords, EltTy.bits .f32 = 32 ∨ (Rect.block (s := S1x7) S1x7.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x7.size a ≤ S50000x7.size a
  hwx8_3 : ∀ i : grid8.Coords, EltTy.bits .f32 = 32 ∨ (Rect.block (s := S50000x7) S5000x7.size (cc8_transform_3 i) (hinb8_3 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def dot_S10000x64_S64x7_S10000x7_1_0_0_1_n_n : DotDims S10000x64 S64x7 S10000x7 where
  lhsContracting := [1]
  rhsContracting := [0]
  lhsNonContracting := [0]
  rhsNonContracting := [1]
  lhsBatch := []
  rhsBatch := []
  wf := dot_S10000x64_S64x7_S10000x7_1_0_0_1_n_n_wf
def dot_S10000x7_S7x7_S10000x7_1_0_0_1_n_n : DotDims S10000x7 S7x7 S10000x7 where
  lhsContracting := [1]
  rhsContracting := [0]
  lhsNonContracting := [0]
  rhsNonContracting := [1]
  lhsBatch := []
  rhsBatch := []
  wf := dot_S10000x7_S7x7_S10000x7_1_0_0_1_n_n_wf
def gather_S7x50000_S800000x1_S7x800000_0_1_n_n_1_1_71 : GatherDims S7x50000 S800000x1 S7x800000 where
  offsetDims := [0]
  collapsedSliceDims := [1]
  operandBatchingDims := []
  startIndicesBatchingDims := []
  startIndexMap := [1]
  indexVectorDim := 1
  sliceSizes := ![7, 1]
  wf := gather_S7x50000_S800000x1_S7x800000_0_1_n_n_1_1_71_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x7_S5000x7_1_0_0_1_n_n : DotDims S5000x256 S256x7 S5000x7 where
  lhsContracting := [1]
  rhsContracting := [0]
  lhsNonContracting := [0]
  rhsNonContracting := [1]
  lhsBatch := []
  rhsBatch := []
  wf := dot_S5000x256_S256x7_S5000x7_1_0_0_1_n_n_wf
def gather_S50000x7_S850000x1_S850000x7_1_0_n_n_0_1_17 : GatherDims S50000x7 S850000x1 S850000x7 where
  offsetDims := [1]
  collapsedSliceDims := [0]
  operandBatchingDims := []
  startIndicesBatchingDims := []
  startIndexMap := [0]
  indexVectorDim := 1
  sliceSizes := ![1, 7]
  wf := gather_S50000x7_S850000x1_S850000x7_1_0_n_n_0_1_17_wf
def scatter_S50000x7_S850000x1_S850000x7_1_0_0_1 : ScatterDims S50000x7 S850000x1 S850000x7 where
  updateWindowDims := [1]
  insertedWindowDims := [0]
  scatterDimsToOperandDims := [0]
  indexVectorDim := 1
  wf := scatter_S50000x7_S850000x1_S850000x7_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S512x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S64x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x7.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S10000x7.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v9) S10000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S7x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x7.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v15) S10000x7.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v24) S7x80000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S7x80000.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v32) S1x80000.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg0) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg2) S512x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v77) S2000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v95) S5000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg4) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v97) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v98) S5000x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v116) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v95) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v117) S2000x256.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v117) S5000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg6) S256x7.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v119) S1x7.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v120) S5000x7.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x7 : Shape := ⟨2, ![256, 7]⟩
abbrev S7 : Shape := ⟨1, ![7]⟩
abbrev S512x512 : Shape := ⟨2, ![512, 512]⟩
abbrev S512 : Shape := ⟨1, ![512]⟩
abbrev S512x64 : Shape := ⟨2, ![512, 64]⟩
abbrev S64 : Shape := ⟨1, ![64]⟩
abbrev S64x7 : Shape := ⟨2, ![64, 7]⟩
abbrev S7x7 : Shape := ⟨2, ![7, 7]⟩
abbrev S1x800000 : Shape := ⟨2, ![1, 800000]⟩
abbrev S800000 : Shape := ⟨1, ![800000]⟩
abbrev S1x512 : Shape := ⟨2, ![1, 512]⟩
abbrev S_ : Shape := ⟨0, ![]⟩
abbrev S50000x64 : Shape := ⟨2, ![50000, 64]⟩
abbrev S1x64 : Shape := ⟨2, ![1, 64]⟩
abbrev S50000x7 : Shape := ⟨2, ![50000, 7]⟩
abbrev S1x7 : Shape := ⟨2, ![1, 7]⟩
abbrev S800000x1 : Shape := ⟨2, ![800000, 1]⟩
abbrev S800000x7 : Shape := ⟨2, ![800000, 7]⟩
abbrev S1 : Shape := ⟨1, ![1]⟩
abbrev S50000x256 : Shape := ⟨2, ![50000, 256]⟩
abbrev S50000 : Shape := ⟨1, ![50000]⟩
abbrev S850000 : Shape := ⟨1, ![850000]⟩
abbrev S850000x1 : Shape := ⟨2, ![850000, 1]⟩
abbrev S850000x256 : Shape := ⟨2, ![850000, 256]⟩
abbrev S1x256 : Shape := ⟨2, ![1, 256]⟩
abbrev S850000x7 : Shape := ⟨2, ![850000, 7]⟩

abbrev nBuf : Space → Nat
  | .hbm => 290
  | .vmem => 0
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S256x256, .f32⟩
  | 5 => ⟨S256, .f32⟩
  | 6 => ⟨S256x7, .f32⟩
  | 7 => ⟨S7, .f32⟩
  | 8 => ⟨S512x512, .f32⟩
  | 9 => ⟨S512, .f32⟩
  | 10 => ⟨S512x64, .f32⟩
  | 11 => ⟨S64, .f32⟩
  | 12 => ⟨S64x7, .f32⟩
  | 13 => ⟨S7, .f32⟩
  | 14 => ⟨S7x7, .f32⟩
  | 15 => ⟨S1x800000, .i32⟩
  | 16 => ⟨S800000, .i32⟩
  | 17 => ⟨S1x800000, .i32⟩
  | 18 => ⟨S800000, .i32⟩
  | 19 => ⟨S50000x512, .f32⟩
  | 20 => ⟨S1x512, .f32⟩
  | 21 => ⟨S50000x512, .f32⟩
  | 22 => ⟨S50000x512, .f32⟩
  | 23 => ⟨S_, .f32⟩
  | 24 => ⟨S50000x512, .f32⟩
  | 25 => ⟨S50000x512, .f32⟩
  | 26 => ⟨S50000x64, .f32⟩
  | 27 => ⟨S1x64, .f32⟩
  | 28 => ⟨S50000x64, .f32⟩
  | 29 => ⟨S50000x64, .f32⟩
  | 30 => ⟨S_, .f32⟩
  | 31 => ⟨S50000x64, .f32⟩
  | 32 => ⟨S50000x64, .f32⟩
  | 33 => ⟨S50000x7, .f32⟩
  | 34 => ⟨S1x7, .f32⟩
  | 35 => ⟨S50000x7, .f32⟩
  | 36 => ⟨S50000x7, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x7, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x7, .f32⟩
  | 55 => ⟨S_, .f32⟩
  | 56 => ⟨S7x7, .f32⟩
  | 57 => ⟨S7x7, .f32⟩
  | 58 => ⟨S_, .f32⟩
  | 59 => ⟨S7x7, .f32⟩
  | 60 => ⟨S7x7, .f32⟩
  | 61 => ⟨S800000x7, .f32⟩
  | 62 => ⟨S800000x7, .f32⟩
  | 63 => ⟨S_, .f32⟩
  | 64 => ⟨S800000, .f32⟩
  | 65 => ⟨S_, .f32⟩
  | 66 => ⟨S_, .f32⟩
  | 67 => ⟨S_, .f32⟩
  | 68 => ⟨S_, .f32⟩
  | 69 => ⟨S_, .i32⟩
  | 70 => ⟨S_, .f32⟩
  | 71 => ⟨S_, .f32⟩
  | 72 => ⟨S1, .f32⟩
  | 73 => ⟨S_, .f32⟩
  | 74 => ⟨S1, .f32⟩
  | 75 => ⟨S1, .f32⟩
  | 76 => ⟨S800000, .f32⟩
  | 77 => ⟨S800000, .f32⟩
  | 78 => ⟨S800000, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .i1⟩
  | 87 => ⟨S_, .f32⟩
  | 88 => ⟨S_, .f32⟩
  | 89 => ⟨S_, .f32⟩
  | 90 => ⟨S800000, .f32⟩
  | 91 => ⟨S800000, .f32⟩
  | 92 => ⟨S_, .f32⟩
  | 93 => ⟨S_, .f32⟩
  | 94 => ⟨S_, .f32⟩
  | 95 => ⟨S800000, .f32⟩
  | 96 => ⟨S800000, .f32⟩
  | 97 => ⟨S_, .f32⟩
  | 98 => ⟨S800000, .f32⟩
  | 99 => ⟨S800000, .f32⟩
  | 100 => ⟨S50000x256, .f32⟩
  | 101 => ⟨S50000, .i32⟩
  | 102 => ⟨S850000, .i32⟩
  | 103 => ⟨S850000, .i32⟩
  | 104 => ⟨S_, .f32⟩
  | 105 => ⟨S50000, .f32⟩
  | 106 => ⟨S850000, .f32⟩
  | 107 => ⟨S_, .f32⟩
  | 108 => ⟨S50000, .f32⟩
  | 109 => ⟨S850000x1, .i32⟩
  | 110 => ⟨S50000, .f32⟩
  | 111 => ⟨S_, .f32⟩
  | 112 => ⟨S50000, .f32⟩
  | 113 => ⟨S50000, .i1⟩
  | 114 => ⟨S_, .f32⟩
  | 115 => ⟨S50000, .f32⟩
  | 116 => ⟨S50000, .f32⟩
  | 117 => ⟨S50000, .f32⟩
  | 118 => ⟨S_, .f32⟩
  | 119 => ⟨S_, .f32⟩
  | 120 => ⟨S50000, .f32⟩
  | 121 => ⟨S50000, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x512, .f32⟩

abbrev hbmTy0_1 (i : Nat) : BufTy := match i % 128 with
  | 0 => ⟨S850000, .i32⟩
  | 1 => ⟨S850000x1, .i32⟩
  | 2 => ⟨S850000, .f32⟩
  | 3 => ⟨S850000, .f32⟩
  | 4 => ⟨S_, .i32⟩
  | 5 => ⟨S850000, .i32⟩
  | 6 => ⟨S850000, .i1⟩
  | 7 => ⟨S_, .i32⟩
  | 8 => ⟨S850000, .i32⟩
  | 9 => ⟨S850000, .i32⟩
  | 10 => ⟨S850000, .i32⟩
  | 11 => ⟨S850000x1, .i32⟩
  | 12 => ⟨S850000, .f32⟩
  | 13 => ⟨S850000, .f32⟩
  | 14 => ⟨S_, .i32⟩
  | 15 => ⟨S850000, .i32⟩
  | 16 => ⟨S850000, .i1⟩
  | 17 => ⟨S_, .i32⟩
  | 18 => ⟨S850000, .i32⟩
  | 19 => ⟨S850000, .i32⟩
  | 20 => ⟨S850000, .i32⟩
  | 21 => ⟨S850000x1, .i32⟩
  | 22 => ⟨S850000x256, .f32⟩
  | 23 => ⟨S850000x1, .f32⟩
  | 24 => ⟨S850000x256, .f32⟩
  | 25 => ⟨S850000x256, .f32⟩
  | 26 => ⟨S_, .f32⟩
  | 27 => ⟨S50000x256, .f32⟩
  | 28 => ⟨S850000x1, .i32⟩
  | 29 => ⟨S50000x256, .f32⟩
  | 30 => ⟨S1x256, .f32⟩
  | 31 => ⟨S50000x256, .f32⟩
  | 32 => ⟨S50000x256, .f32⟩
  | 33 => ⟨S_, .f32⟩
  | 34 => ⟨S50000x256, .f32⟩
  | 35 => ⟨S50000x256, .f32⟩
  | 36 => ⟨S50000x256, .f32⟩
  | 37 => ⟨S50000, .i32⟩
  | 38 => ⟨S850000, .i32⟩
  | 39 => ⟨S850000, .i32⟩
  | 40 => ⟨S_, .f32⟩
  | 41 => ⟨S50000, .f32⟩
  | 42 => ⟨S850000, .f32⟩
  | 43 => ⟨S_, .f32⟩
  | 44 => ⟨S50000, .f32⟩
  | 45 => ⟨S850000x1, .i32⟩
  | 46 => ⟨S50000, .f32⟩
  | 47 => ⟨S_, .f32⟩
  | 48 => ⟨S50000, .f32⟩
  | 49 => ⟨S50000, .i1⟩
  | 50 => ⟨S_, .f32⟩
  | 51 => ⟨S50000, .f32⟩
  | 52 => ⟨S50000, .f32⟩
  | 53 => ⟨S50000, .f32⟩
  | 54 => ⟨S_, .f32⟩
  | 55 => ⟨S_, .f32⟩
  | 56 => ⟨S50000, .f32⟩
  | 57 => ⟨S50000, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000, .f32⟩
  | 67 => ⟨S850000, .f32⟩
  | 68 => ⟨S_, .i32⟩
  | 69 => ⟨S850000, .i32⟩
  | 70 => ⟨S850000, .i1⟩
  | 71 => ⟨S_, .i32⟩
  | 72 => ⟨S850000, .i32⟩
  | 73 => ⟨S850000, .i32⟩
  | 74 => ⟨S850000, .i32⟩
  | 75 => ⟨S850000x1, .i32⟩
  | 76 => ⟨S850000, .f32⟩
  | 77 => ⟨S850000, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000x256, .f32⟩
  | 87 => ⟨S850000x1, .f32⟩
  | 88 => ⟨S850000x256, .f32⟩
  | 89 => ⟨S850000x256, .f32⟩
  | 90 => ⟨S_, .f32⟩
  | 91 => ⟨S50000x256, .f32⟩
  | 92 => ⟨S850000x1, .i32⟩
  | 93 => ⟨S50000x256, .f32⟩
  | 94 => ⟨S1x256, .f32⟩
  | 95 => ⟨S50000x256, .f32⟩
  | 96 => ⟨S50000x256, .f32⟩
  | 97 => ⟨S_, .f32⟩
  | 98 => ⟨S50000x256, .f32⟩
  | 99 => ⟨S50000x256, .f32⟩
  | 100 => ⟨S50000x256, .f32⟩
  | 101 => ⟨S50000x7, .f32⟩
  | 102 => ⟨S50000, .i32⟩
  | 103 => ⟨S850000, .i32⟩
  | 104 => ⟨S850000, .i32⟩
  | 105 => ⟨S_, .f32⟩
  | 106 => ⟨S50000, .f32⟩
  | 107 => ⟨S850000, .f32⟩
  | 108 => ⟨S_, .f32⟩
  | 109 => ⟨S50000, .f32⟩
  | 110 => ⟨S850000x1, .i32⟩
  | 111 => ⟨S50000, .f32⟩
  | 112 => ⟨S_, .f32⟩
  | 113 => ⟨S50000, .f32⟩
  | 114 => ⟨S50000, .i1⟩
  | 115 => ⟨S_, .f32⟩
  | 116 => ⟨S50000, .f32⟩
  | 117 => ⟨S50000, .f32⟩
  | 118 => ⟨S50000, .f32⟩
  | 119 => ⟨S_, .f32⟩
  | 120 => ⟨S_, .f32⟩
  | 121 => ⟨S50000, .f32⟩
  | 122 => ⟨S50000, .f32⟩
  | 123 => ⟨S_, .i32⟩
  | 124 => ⟨S850000, .i32⟩
  | 125 => ⟨S850000, .i1⟩
  | 126 => ⟨S_, .i32⟩
  | 127 => ⟨S850000, .i32⟩
  | _ => ⟨S50000x512, .f32⟩

abbrev hbmTy0_2 (i : Nat) : BufTy := match i % 128 with
  | 0 => ⟨S850000, .i32⟩
  | 1 => ⟨S850000, .i32⟩
  | 2 => ⟨S850000x1, .i32⟩
  | 3 => ⟨S850000, .f32⟩
  | 4 => ⟨S850000, .f32⟩
  | 5 => ⟨S_, .i32⟩
  | 6 => ⟨S850000, .i32⟩
  | 7 => ⟨S850000, .i1⟩
  | 8 => ⟨S_, .i32⟩
  | 9 => ⟨S850000, .i32⟩
  | 10 => ⟨S850000, .i32⟩
  | 11 => ⟨S850000, .i32⟩
  | 12 => ⟨S850000x1, .i32⟩
  | 13 => ⟨S850000, .f32⟩
  | 14 => ⟨S850000, .f32⟩
  | 15 => ⟨S_, .i32⟩
  | 16 => ⟨S850000, .i32⟩
  | 17 => ⟨S850000, .i1⟩
  | 18 => ⟨S_, .i32⟩
  | 19 => ⟨S850000, .i32⟩
  | 20 => ⟨S850000, .i32⟩
  | 21 => ⟨S850000, .i32⟩
  | 22 => ⟨S850000x1, .i32⟩
  | 23 => ⟨S850000x7, .f32⟩
  | 24 => ⟨S850000x1, .f32⟩
  | 25 => ⟨S850000x7, .f32⟩
  | 26 => ⟨S850000x7, .f32⟩
  | 27 => ⟨S_, .f32⟩
  | 28 => ⟨S50000x7, .f32⟩
  | 29 => ⟨S850000x1, .i32⟩
  | 30 => ⟨S50000x7, .f32⟩
  | 31 => ⟨S1x7, .f32⟩
  | 32 => ⟨S50000x7, .f32⟩
  | 33 => ⟨S50000x7, .f32⟩
  | _ => ⟨S50000x512, .f32⟩

abbrev hbmTy (i : Nat) : BufTy := match i / 128 with
  | 0 => hbmTy0_0 i
  | 1 => hbmTy0_1 i
  | 2 => hbmTy0_2 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_cst : Ref sig .tc := ⟨.hbm, 23, rfl⟩
abbrev main_call0_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_cst : Ref sig .tc := ⟨.hbm, 30, rfl⟩
abbrev main_call1_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_1 : Ref sig .tc := ⟨.hbm, 46, rfl⟩
abbrev main_v25 : Ref sig .tc := ⟨.hbm, 47, rfl⟩
abbrev main_v26 : Ref sig .tc := ⟨.hbm, 48, rfl⟩
abbrev main_c_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst : Ref sig .tc := ⟨.hbm, 55, rfl⟩
abbrev main_v32 : Ref sig .tc := ⟨.hbm, 56, rfl⟩
abbrev main_v33 : Ref sig .tc := ⟨.hbm, 57, rfl⟩
abbrev main_call2_cst : Ref sig .tc := ⟨.hbm, 58, rfl⟩
abbrev main_call2_v0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_3 : Ref sig .tc := ⟨.hbm, 63, rfl⟩
abbrev main_v37 : Ref sig .tc := ⟨.hbm, 64, rfl⟩
abbrev main_cst_4 : Ref sig .tc := ⟨.hbm, 65, rfl⟩
abbrev main_v38 : Ref sig .tc := ⟨.hbm, 66, rfl⟩
abbrev main_cst_5 : Ref sig .tc := ⟨.hbm, 67, rfl⟩
abbrev main_v39 : Ref sig .tc := ⟨.hbm, 68, rfl⟩
abbrev main_c_6 : Ref sig .tc := ⟨.hbm, 69, rfl⟩
abbrev main_call3_cst : Ref sig .tc := ⟨.hbm, 70, rfl⟩
abbrev main_call3_v0 : Ref sig .tc := ⟨.hbm, 71, rfl⟩
abbrev main_call3_v1 : Ref sig .tc := ⟨.hbm, 72, rfl⟩
abbrev main_call3_cst_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_v6 : Ref sig .tc := ⟨.hbm, 78, rfl⟩
abbrev main_call3_v7 : Ref sig .tc := ⟨.hbm, 79, rfl⟩
abbrev main_call3_cst_1 : Ref sig .tc := ⟨.hbm, 80, rfl⟩
abbrev main_call3_v8 : Ref sig .tc := ⟨.hbm, 81, rfl⟩
abbrev main_call3_cst_2 : Ref sig .tc := ⟨.hbm, 82, rfl⟩
abbrev main_call3_v9 : Ref sig .tc := ⟨.hbm, 83, rfl⟩
abbrev main_call3_v10 : Ref sig .tc := ⟨.hbm, 84, rfl⟩
abbrev main_call3_cst_3 : Ref sig .tc := ⟨.hbm, 85, rfl⟩
abbrev main_call3_v11 : Ref sig .tc := ⟨.hbm, 86, rfl⟩
abbrev main_call3_cst_4 : Ref sig .tc := ⟨.hbm, 87, rfl⟩
abbrev main_call3_call0_v0 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_cst_7 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst_8 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_9 : Ref sig .tc := ⟨.hbm, 104, rfl⟩
abbrev main_v53 : Ref sig .tc := ⟨.hbm, 105, rfl⟩
abbrev main_v54 : Ref sig .tc := ⟨.hbm, 106, rfl⟩
abbrev main_cst_10 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_cst_11 : Ref sig .tc := ⟨.hbm, 111, rfl⟩
abbrev main_v58 : Ref sig .tc := ⟨.hbm, 112, rfl⟩
abbrev main_v59 : Ref sig .tc := ⟨.hbm, 113, rfl⟩
abbrev main_cst_12 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_cst_13 : Ref sig .tc := ⟨.hbm, 118, rfl⟩
abbrev main_call4_v0 : Ref sig .tc := ⟨.hbm, 119, rfl⟩
abbrev main_call4_v1 : Ref sig .tc := ⟨.hbm, 120, rfl⟩
abbrev main_v63 : Ref sig .tc := ⟨.hbm, 121, rfl⟩
abbrev main_c_14 : Ref sig .tc := ⟨.hbm, 122, rfl⟩
abbrev main_v64 : Ref sig .tc := ⟨.hbm, 123, rfl⟩
abbrev main_v65 : Ref sig .tc := ⟨.hbm, 124, rfl⟩
abbrev main_c_15 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_c_16 : Ref sig .tc := ⟨.hbm, 132, rfl⟩
abbrev main_v72 : Ref sig .tc := ⟨.hbm, 133, rfl⟩
abbrev main_v73 : Ref sig .tc := ⟨.hbm, 134, rfl⟩
abbrev main_c_17 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_c_18 : Ref sig .tc := ⟨.hbm, 142, rfl⟩
abbrev main_v80 : Ref sig .tc := ⟨.hbm, 143, rfl⟩
abbrev main_v81 : Ref sig .tc := ⟨.hbm, 144, rfl⟩
abbrev main_c_19 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_cst_20 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_call5_cst : Ref sig .tc := ⟨.hbm, 161, rfl⟩
abbrev main_call5_v0 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_cst_21 : Ref sig .tc := ⟨.hbm, 168, rfl⟩
abbrev main_v101 : Ref sig .tc := ⟨.hbm, 169, rfl⟩
abbrev main_v102 : Ref sig .tc := ⟨.hbm, 170, rfl⟩
abbrev main_cst_22 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_cst_23 : Ref sig .tc := ⟨.hbm, 175, rfl⟩
abbrev main_v106 : Ref sig .tc := ⟨.hbm, 176, rfl⟩
abbrev main_v107 : Ref sig .tc := ⟨.hbm, 177, rfl⟩
abbrev main_cst_24 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_cst_25 : Ref sig .tc := ⟨.hbm, 182, rfl⟩
abbrev main_call6_v0 : Ref sig .tc := ⟨.hbm, 183, rfl⟩
abbrev main_call6_v1 : Ref sig .tc := ⟨.hbm, 184, rfl⟩
abbrev main_v111 : Ref sig .tc := ⟨.hbm, 185, rfl⟩
abbrev main_c_26 : Ref sig .tc := ⟨.hbm, 186, rfl⟩
abbrev main_v112 : Ref sig .tc := ⟨.hbm, 187, rfl⟩
abbrev main_v113 : Ref sig .tc := ⟨.hbm, 188, rfl⟩
abbrev main_c_27 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_c_28 : Ref sig .tc := ⟨.hbm, 196, rfl⟩
abbrev main_v120 : Ref sig .tc := ⟨.hbm, 197, rfl⟩
abbrev main_v121 : Ref sig .tc := ⟨.hbm, 198, rfl⟩
abbrev main_c_29 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_c_30 : Ref sig .tc := ⟨.hbm, 206, rfl⟩
abbrev main_v128 : Ref sig .tc := ⟨.hbm, 207, rfl⟩
abbrev main_v129 : Ref sig .tc := ⟨.hbm, 208, rfl⟩
abbrev main_c_31 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_cst_32 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_call7_cst : Ref sig .tc := ⟨.hbm, 225, rfl⟩
abbrev main_call7_v0 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_cst_33 : Ref sig .tc := ⟨.hbm, 233, rfl⟩
abbrev main_v150 : Ref sig .tc := ⟨.hbm, 234, rfl⟩
abbrev main_v151 : Ref sig .tc := ⟨.hbm, 235, rfl⟩
abbrev main_cst_34 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_cst_35 : Ref sig .tc := ⟨.hbm, 240, rfl⟩
abbrev main_v155 : Ref sig .tc := ⟨.hbm, 241, rfl⟩
abbrev main_v156 : Ref sig .tc := ⟨.hbm, 242, rfl⟩
abbrev main_cst_36 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_cst_37 : Ref sig .tc := ⟨.hbm, 247, rfl⟩
abbrev main_call8_v0 : Ref sig .tc := ⟨.hbm, 248, rfl⟩
abbrev main_call8_v1 : Ref sig .tc := ⟨.hbm, 249, rfl⟩
abbrev main_v160 : Ref sig .tc := ⟨.hbm, 250, rfl⟩
abbrev main_c_38 : Ref sig .tc := ⟨.hbm, 251, rfl⟩
abbrev main_v161 : Ref sig .tc := ⟨.hbm, 252, rfl⟩
abbrev main_v162 : Ref sig .tc := ⟨.hbm, 253, rfl⟩
abbrev main_c_39 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_c_40 : Ref sig .tc := ⟨.hbm, 261, rfl⟩
abbrev main_v169 : Ref sig .tc := ⟨.hbm, 262, rfl⟩
abbrev main_v170 : Ref sig .tc := ⟨.hbm, 263, rfl⟩
abbrev main_c_41 : Ref sig .tc := ⟨.hbm, 264, rfl⟩
abbrev main_v171 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_v175 : Ref sig .tc := ⟨.hbm, 269, rfl⟩
abbrev main_v176 : Ref sig .tc := ⟨.hbm, 270, rfl⟩
abbrev main_c_42 : Ref sig .tc := ⟨.hbm, 271, rfl⟩
abbrev main_v177 : Ref sig .tc := ⟨.hbm, 272, rfl⟩
abbrev main_v178 : Ref sig .tc := ⟨.hbm, 273, rfl⟩
abbrev main_c_43 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_cst_44 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S7x7 : S_.BroadcastsInDim S7x7 (![] : Fin 0 → Fin S7x7.rank)
  reducesTo_S800000x7_S800000_d1 : S800000x7.ReducesTo [1] S800000
  h_S_ : 0 < S_.numel
  reducesTo_S800000_S_d0 : S800000.ReducesTo [0] S_
  bcast_S_S1 : S_.BroadcastsInDim S1 (![] : Fin 0 → Fin S1.rank)
  bcast_S1_S800000_0 : S1.BroadcastsInDim S800000 (![0] : Fin 1 → Fin S800000.rank)
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x7_0_1 : S850000x1.BroadcastsInDim S850000x7 (![0, 1] : Fin 2 → Fin S850000x7.rank)
  bcast_S_S50000x7 : S_.BroadcastsInDim S50000x7 (![] : Fin 0 → Fin S50000x7.rank)
  dot_S50000x512_S512x512_S50000x512_1_0_0_1_n_n_wf : DotDims.WF S50000x512 S512x512 S50000x512 [1] [0] [0] [1] [] []
  dot_S50000x512_S512x64_S50000x64_1_0_0_1_n_n_wf : DotDims.WF S50000x512 S512x64 S50000x64 [1] [0] [0] [1] [] []
  dot_S50000x64_S64x7_S50000x7_1_0_0_1_n_n_wf : DotDims.WF S50000x64 S64x7 S50000x7 [1] [0] [0] [1] [] []
  gather_S50000x7_S800000x1_S800000x7_1_0_n_n_0_1_17_wf : GatherDims.WF S50000x7 S800000x1 S800000x7 [1] [0] [] [0] [] 1 ![1, 7]
  dot_S800000x7_S7x7_S800000x7_1_0_0_1_n_n_wf : DotDims.WF S800000x7 S7x7 S800000x7 [1] [0] [0] [1] [] []
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x7_S50000x7_1_0_0_1_n_n_wf : DotDims.WF S50000x256 S256x7 S50000x7 [1] [0] [0] [1] [] []
  gather_S50000x7_S850000x1_S850000x7_1_0_n_n_0_1_17_wf : GatherDims.WF S50000x7 S850000x1 S850000x7 [1] [0] [] [0] [] 1 ![1, 7]
  scatter_S50000x7_S850000x1_S850000x7_1_0_0_1_wf : ScatterDims.WF S50000x7 S850000x1 S850000x7 [1] [0] [0] 1

variable [Facts₀]

def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def dot_S50000x64_S64x7_S50000x7_1_0_0_1_n_n : DotDims S50000x64 S64x7 S50000x7 where
  lhsContracting := [1]
  rhsContracting := [0]
  lhsNonContracting := [0]
  rhsNonContracting := [1]
  lhsBatch := []
  rhsBatch := []
  wf := dot_S50000x64_S64x7_S50000x7_1_0_0_1_n_n_wf
def gather_S50000x7_S800000x1_S800000x7_1_0_n_n_0_1_17 : GatherDims S50000x7 S800000x1 S800000x7 where
  offsetDims := [1]
  collapsedSliceDims := [0]
  operandBatchingDims := []
  startIndicesBatchingDims := []
  startIndexMap := [0]
  indexVectorDim := 1
  sliceSizes := ![1, 7]
  wf := gather_S50000x7_S800000x1_S800000x7_1_0_n_n_0_1_17_wf
def dot_S800000x7_S7x7_S800000x7_1_0_0_1_n_n : DotDims S800000x7 S7x7 S800000x7 where
  lhsContracting := [1]
  rhsContracting := [0]
  lhsNonContracting := [0]
  rhsNonContracting := [1]
  lhsBatch := []
  rhsBatch := []
  wf := dot_S800000x7_S7x7_S800000x7_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x7_S50000x7_1_0_0_1_n_n : DotDims S50000x256 S256x7 S50000x7 where
  lhsContracting := [1]
  rhsContracting := [0]
  lhsNonContracting := [0]
  rhsNonContracting := [1]
  lhsBatch := []
  rhsBatch := []
  wf := dot_S50000x256_S256x7_S50000x7_1_0_0_1_n_n_wf
def gather_S50000x7_S850000x1_S850000x7_1_0_n_n_0_1_17 : GatherDims S50000x7 S850000x1 S850000x7 where
  offsetDims := [1]
  collapsedSliceDims := [0]
  operandBatchingDims := []
  startIndicesBatchingDims := []
  startIndexMap := [0]
  indexVectorDim := 1
  sliceSizes := ![1, 7]
  wf := gather_S50000x7_S850000x1_S850000x7_1_0_n_n_0_1_17_wf
def scatter_S50000x7_S850000x1_S850000x7_1_0_0_1 : ScatterDims S50000x7 S850000x1 S850000x7 where
  updateWindowDims := [1]
  insertedWindowDims := [0]
  scatterDimsToOperandDims := [0]
  indexVectorDim := 1
  wf := scatter_S50000x7_S850000x1_S850000x7_1_0_0_1_wf

class Facts : Prop extends Facts₀ where

variable [Facts]
-- ==== Proof.Spec.lean ====
/-
  The network the two programs compute, stage by stage, on the extended reals, spelt with the reference
  program's own host operations: a three-layer perceptron gives each node seven logits; an edge's raw weight is
  the bilinear form of its endpoints' logits in the matrix max(2·parsing, 0); the raw weights are centred, scaled
  by the square root of 1e-4 over their unbiased variance, and shifted by one; with a self loop of weight one at
  every node, the symmetric normalisation divides each weight by the square roots of its endpoints' weighted
  degrees; a graph convolution gathers the rows of a linear image at the edges' sources, scales them by the
  normalised weights, sums them at the targets and adds a bias; three convolutions, the second with a residual.
-/
import proofs.«109417_j84524956385822_2_alg».proof.ReferenceIdeal
import Idealize.ShloMosaic.PureOps.Ideal

noncomputable section

namespace Cert.Gcn.Spec

open Idealize.ShloMosaic Cert.ReferenceIdeal Cert.ReferenceIdeal.Facts₀

-- the reference program's stated side conditions (its shapes' broadcast, slice and reduction facts)
variable [Cert.ReferenceIdeal.Facts₀]

/-- A float array of a shape, on the extended reals. -/
abbrev Fv (S : Shape) := FVec Ideal S .f32
/-- A 32-bit integer array of a shape. -/
abbrev Iv (S : Shape) := IVec S 32

/-- The scalar constant of a bit pattern. -/
abbrev cst (b : BitVec 32) : Fv S_ := constant S_ .f32 b

/-- The edges' sources: row 0 of the edge list. -/
def row (ei : Iv S2x800000) : Iv S800000 :=
  shapeCast S800000 (extractStridedSlice S1x800000 ![0, 0] ei slices_S2x800000_S1x800000_0_0) shapeCasts_S1x800000_S800000
/-- The edges' targets: row 1 of the edge list. -/
def col (ei : Iv S2x800000) : Iv S800000 :=
  shapeCast S800000 (extractStridedSlice S1x800000 ![1, 0] ei slices_S2x800000_S1x800000_1_0) shapeCasts_S1x800000_S800000

/-- First perceptron layer: max(x · mw1 + mb1, 0). -/
def h1 (x : Fv S50000x512) (mw1 : Fv S512x512) (mb1 : Fv S512) : Fv S50000x512 :=
  maximumf
    (addf (Host.dotGeneral dot_S50000x512_S512x512_S50000x512_1_0_0_1_n_n none x mw1)
      (broadcastInDim S50000x512 ![0, 1] bcast_S1x512_S50000x512_0_1 (broadcastInDim S1x512 ![1] bcast_S512_S1x512_1 mb1)))
    (broadcastInDim S50000x512 ![] bcast_S_S50000x512 (cst 0x00000000#32))

/-- Second perceptron layer: max(h · mw2 + mb2, 0). -/
def h2 (h : Fv S50000x512) (mw2 : Fv S512x64) (mb2 : Fv S64) : Fv S50000x64 :=
  maximumf
    (addf (Host.dotGeneral dot_S50000x512_S512x64_S50000x64_1_0_0_1_n_n none h mw2)
      (broadcastInDim S50000x64 ![0, 1] bcast_S1x64_S50000x64_0_1 (broadcastInDim S1x64 ![1] bcast_S64_S1x64_1 mb2)))
    (broadcastInDim S50000x64 ![] bcast_S_S50000x64 (cst 0x00000000#32))

/-- The logits: h · mw3 + mb3. -/
def logits (h : Fv S50000x64) (mw3 : Fv S64x7) (mb3 : Fv S7) : Fv S50000x7 :=
  addf (Host.dotGeneral dot_S50000x64_S64x7_S50000x7_1_0_0_1_n_n none h mw3)
    (broadcastInDim S50000x7 ![0, 1] bcast_S1x7_S50000x7_0_1 (broadcastInDim S1x7 ![1] bcast_S7_S1x7_1 mb3))

/-- The parsing matrix: max(2 · parsing, 0). -/
def pars (p0 : Fv S7x7) : Fv S7x7 :=
  maximumf (mulf (broadcastInDim S7x7 ![] bcast_S_S7x7 (cst 0x40000000#32)) p0)
    (broadcastInDim S7x7 ![] bcast_S_S7x7 (cst 0x00000000#32))

/-- A node number counted from the end when negative (jnp's indexing), over the edges. -/
def wrapE (i : Iv S800000) : Iv S800000 :=
  select (cmpi .slt i (broadcastInDim S800000 ![] bcast_S_S800000 (constantI S_ 32 0#32)))
    (addi i (broadcastInDim S800000 ![] bcast_S_S800000 (constantI S_ 32 50000#32))) i
/-- The wrapped node numbers as a column of start indices. -/
def startE (i : Iv S800000) : Iv S800000x1 := broadcastInDim S800000x1 ![0] bcast_S800000_S800000x1_0 (wrapE i)

/-- An edge's raw weight: the sum over classes c of logits(source, c) · (logits(target, ·) · P)(c). -/
def ewraw (lg : Fv S50000x7) (P : Fv S7x7) (rw cl : Iv S800000) : Fv S800000 :=
  Host.reduceAdd
    (mulf (Host.gather gather_S50000x7_S800000x1_S800000x7_1_0_n_n_0_1_17 lg (startE rw))
      (Host.dotGeneral dot_S800000x7_S7x7_S800000x7_1_0_0_1_n_n none
        (Host.gather gather_S50000x7_S800000x1_S800000x7_1_0_n_n_0_1_17 lg (startE cl)) P))
    (cst 0x00000000#32) reducesTo_S800000x7_S800000_d1 h_S_

/-- The mean of the raw weights. -/
def mean (w : Fv S800000) : Fv S_ :=
  Host.divf (Host.reduceAdd w (cst 0x00000000#32) reducesTo_S800000_S_d0 h_S_) (cst 0x49435000#32)

/-- The raw weights centred at their mean (the variance's own spelling of it). -/
def centred (w : Fv S800000) : Fv S800000 :=
  subf w (broadcastInDim S800000 ![0] bcast_S1_S800000_0
    (Host.divf (broadcastInDim S1 ![] bcast_S_S1 (Host.reduceAdd w (cst 0x00000000#32) reducesTo_S800000_S_d0 h_S_))
      (broadcastInDim S1 ![] bcast_S_S1 (cst 0x49435000#32))))

/-- The number of weights less one. -/
def dof : Fv S_ := subf (cst 0x49435000#32) (sitofp .f32 (constantI S_ 32 1#32))

/-- The unbiased variance of the raw weights (junk where the divisor is not positive). -/
def var (w : Fv S800000) : Fv S_ :=
  select (cmpf .ogt dof (cst 0x00000000#32))
    (Host.divf (Host.reduceAdd (mulf (centred w) (centred w)) (cst 0x00000000#32) reducesTo_S800000_S_d0 h_S_) dof)
    (cst 0x7FC00000#32)

/-- The edge weights: (raw − mean) · sqrt(1e-4 / variance) + 1. -/
def ew (w : Fv S800000) : Fv S800000 :=
  addf
    (mulf (subf w (broadcastInDim S800000 ![] bcast_S_S800000 (mean w)))
      (broadcastInDim S800000 ![] bcast_S_S800000 (Host.sqrt (Host.divf (cst 0x38D1B717#32) (var w)))))
    (broadcastInDim S800000 ![] bcast_S_S800000 (cst 0x3F800000#32))

/-- The endpoints with one self loop per node appended. -/
def loops (a : Iv S800000) : Iv S850000 :=
  concatenate S850000 0 [⟨S800000, a⟩, ⟨S50000, iotaInDim S50000 32 0⟩] concatenates_S800000_S50000_S850000_d0
/-- The weights with weight one on every self loop. -/
def eaug (w : Fv S800000) : Fv S850000 :=
  concatenate S850000 0 [⟨S800000, w⟩, ⟨S50000, broadcastInDim S50000 ![] bcast_S_S50000 (cst 0x3F800000#32)⟩]
    concatenates_S800000_S50000_S850000_d0

/-- A node number counted from the end when negative, over edges and loops. -/
def wrapL (i : Iv S850000) : Iv S850000 :=
  select (cmpi .slt i (broadcastInDim S850000 ![] bcast_S_S850000 (constantI S_ 32 0#32)))
    (addi i (broadcastInDim S850000 ![] bcast_S_S850000 (constantI S_ 32 50000#32))) i
/-- The wrapped node numbers as a column of start indices (for a gather). -/
def startL (i : Iv S850000) : Iv S850000x1 := broadcastInDim S850000x1 ![0] bcast_S850000_S850000x1_0 (wrapL i)
/-- The node numbers as a column of segment numbers (for a segment sum). -/
def segL (i : Iv S850000) : Iv S850000x1 := broadcastInDim S850000x1 ![0] bcast_S850000_S850000x1_0 i

/-- The weighted in-degree of every node. -/
def deg (ea : Fv S850000) (c : Iv S850000) : Fv S50000 :=
  Host.scatterAdd scatter_S50000_S850000x1_S850000_n_0_0_1
    (broadcastInDim S50000 ![] bcast_S_S50000 (cst 0x00000000#32)) (segL c) ea

/-- One over the square root of a positive degree, zero otherwise. -/
def dinv (d : Fv S50000) : Fv S50000 :=
  select (cmpf .ogt d (broadcastInDim S50000 ![] bcast_S_S50000 (cst 0x00000000#32)))
    (Host.rsqrt (maximumf d (broadcastInDim S50000 ![] bcast_S_S50000 (cst 0x2B8CBCCC#32))))
    (broadcastInDim S50000 ![] bcast_S_S50000 (cst 0x00000000#32))

/-- The symmetric normalisation: dinv(source) · weight · dinv(target). -/
def norm (ea : Fv S850000) (r c : Iv S850000) : Fv S850000 :=
  mulf
    (mulf (Host.gather gather_S50000_S850000x1_S850000_n_0_n_n_0_1_1 (dinv (deg ea c)) (startL r)) ea)
    (Host.gather gather_S50000_S850000x1_S850000_n_0_n_n_0_1_1 (dinv (deg ea c)) (startL c))

/-- A graph convolution of 256 features: sum at each target of norm · (rows of hl at the sources), plus b. -/
def conv256 (hl : Fv S50000x256) (nm : Fv S850000) (r c : Iv S850000) (b : Fv S256) : Fv S50000x256 :=
  addf
    (Host.scatterAdd scatter_S50000x256_S850000x1_S850000x256_1_0_0_1
      (broadcastInDim S50000x256 ![] bcast_S_S50000x256 (cst 0x00000000#32)) (segL c)
      (mulf (Host.gather gather_S50000x256_S850000x1_S850000x256_1_0_n_n_0_1_1256 hl (startL r))
        (broadcastInDim S850000x256 ![0, 1] bcast_S850000x1_S850000x256_0_1
          (broadcastInDim S850000x1 ![0] bcast_S850000_S850000x1_0 nm))))
    (broadcastInDim S50000x256 ![0, 1] bcast_S1x256_S50000x256_0_1 (broadcastInDim S1x256 ![1] bcast_S256_S1x256_1 b))

/-- A graph convolution of 7 features. -/
def conv7 (hl : Fv S50000x7) (nm : Fv S850000) (r c : Iv S850000) (b : Fv S7) : Fv S50000x7 :=
  addf
    (Host.scatterAdd scatter_S50000x7_S850000x1_S850000x7_1_0_0_1
      (broadcastInDim S50000x7 ![] bcast_S_S50000x7 (cst 0x00000000#32)) (segL c)
      (mulf (Host.gather gather_S50000x7_S850000x1_S850000x7_1_0_n_n_0_1_17 hl (startL r))
        (broadcastInDim S850000x7 ![0, 1] bcast_S850000x1_S850000x7_0_1
          (broadcastInDim S850000x1 ![0] bcast_S850000_S850000x1_0 nm))))
    (broadcastInDim S50000x7 ![0, 1] bcast_S1x7_S50000x7_0_1 (broadcastInDim S1x7 ![1] bcast_S7_S1x7_1 b))

/-- max(x, 0) on 256 features. -/
def relu256 (x : Fv S50000x256) : Fv S50000x256 :=
  maximumf x (broadcastInDim S50000x256 ![] bcast_S_S50000x256 (cst 0x00000000#32))

/-- The three linear images. -/
def lin1 (x : Fv S50000x512) (W1 : Fv S512x256) : Fv S50000x256 :=
  Host.dotGeneral dot_S50000x512_S512x256_S50000x256_1_0_0_1_n_n none x W1
def lin2 (x : Fv S50000x256) (W2 : Fv S256x256) : Fv S50000x256 :=
  Host.dotGeneral dot_S50000x256_S256x256_S50000x256_1_0_0_1_n_n none x W2
def lin3 (x : Fv S50000x256) (W3 : Fv S256x7) : Fv S50000x7 :=
  Host.dotGeneral dot_S50000x256_S256x7_S50000x7_1_0_0_1_n_n none x W3

/-- The edge weights of the whole input. -/
def weights (x : Fv S50000x512) (ei : Iv S2x800000) (mw1 : Fv S512x512) (mb1 : Fv S512) (mw2 : Fv S512x64) (mb2 : Fv S64)
    (mw3 : Fv S64x7) (mb3 : Fv S7) (p0 : Fv S7x7) : Fv S800000 :=
  ew (ewraw (logits (h2 (h1 x mw1 mb1) mw2 mb2) mw3 mb3) (pars p0) (row ei) (col ei))

/-- The network's output from the normalised weights. -/
def layers (x : Fv S50000x512) (nm : Fv S850000) (r c : Iv S850000) (W1 : Fv S512x256) (b1 : Fv S256) (W2 : Fv S256x256) (b2 : Fv S256)
    (W3 : Fv S256x7) (b3 : Fv S7) : Fv S50000x7 :=
  conv7 (lin3 (addf (relu256 (conv256 (lin2 (relu256 (conv256 (lin1 x W1) nm r c b1)) W2) nm r c b2)) (conv256 (lin1 x W1) nm r c b1)) W3) nm r c b3

/-- The network. -/
def out (x : Fv S50000x512) (ei : Iv S2x800000) (W1 : Fv S512x256) (b1 : Fv S256) (W2 : Fv S256x256) (b2 : Fv S256)
    (W3 : Fv S256x7) (b3 : Fv S7) (mw1 : Fv S512x512) (mb1 : Fv S512) (mw2 : Fv S512x64) (mb2 : Fv S64)
    (mw3 : Fv S64x7) (mb3 : Fv S7) (p0 : Fv S7x7) : Fv S50000x7 :=
  layers x (norm (eaug (weights x ei mw1 mb1 mw2 mb2 mw3 mb3 p0)) (loops (row ei)) (loops (col ei))) (loops (row ei)) (loops (col ei))
    W1 b1 W2 b2 W3 b3

end Cert.Gcn.Spec

end
-- ==== Proof.KRun.lean ====
/-
  The idealized kernel program's run with its result named: every weakly fair execution of @main terminates,
  nothing faulting, the fifteen argument arrays end as launched, and the result array ends at the contents the
  fold of the program's twenty-five segments (host stretches and kernel regions alternating) leaves in it.
-/
import proofs.«109417_j84524956385822_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run: the launch over the segments, the last thread state read against the final state; the result
    array is an unscoped buffer, so it ends at the last boundary's contents. -/
theorem run_val : θ_run defs (onTc (τ := τ) (main (F := F))) ⟨m, fun _ => 0, ρ⟩ (fun r => ∀ c : Dev nD,
      r.2.mem ((c.tc : Thread nD τ).loc main_v138) = W25 m ρ c (Proc.devRef .tc main_v138)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v138 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c),
       (h c _ (mem_uc main_arg10 (by decide))).trans (W25_main_arg10 m ρ c),
       (h c _ (mem_uc main_arg11 (by decide))).trans (W25_main_arg11 m ρ c),
       (h c _ (mem_uc main_arg12 (by decide))).trans (W25_main_arg12 m ρ c),
       (h c _ (mem_uc main_arg13 (by decide))).trans (W25_main_arg13 m ρ c),
       (h c _ (mem_uc main_arg14 (by decide))).trans (W25_main_arg14 m ρ c)⟩)

end Cert.KernelIdeal.KRun

end
-- ==== Proof.RefOps.lean ====
/-
  The reference program's @main as a list of its host operations, the outlined functions' bodies written out
  at their call sites over each call's buffers, cut into thirteen consecutive stages; that @main is the
  straight line of that list; that nothing is scoped; and that every operation touches TensorCore references only.
  An operation of an outlined function is listed at its call's buffers themselves, its function at the buffers'
  types: the program's typed references carry the function there and back along equalities that are reflexivity.
-/
import proofs.«109417_j84524956385822_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stage 0 (22 operations). The edge list's two rows, and the perceptron: two rectified layers and the logits. -/
abbrev st0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg8 main_v4 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    StableHlo.unary main_arg9 main_v5 (broadcastInDim S1x512 ![1] bcast_S512_S1x512_1 : (⟨S512, .f32⟩ : BufTy).Contents (Elt F) → (⟨S1x512, .f32⟩ : BufTy).Contents (Elt F)),
    StableHlo.unary main_v5 main_v6 (broadcastInDim S50000x512 ![0, 1] bcast_S1x512_S50000x512_0_1 : (⟨S1x512, .f32⟩ : BufTy).Contents (Elt F) → (⟨S50000x512, .f32⟩ : BufTy).Contents (Elt F)),
    StableHlo.binary main_v4 main_v6 main_v7 (addf : (⟨S50000x512, .f32⟩ : BufTy).Contents (Elt F) → (⟨S50000x512, .f32⟩ : BufTy).Contents (Elt F) → (⟨S50000x512, .f32⟩ : BufTy).Contents (Elt F)),
    StableHlo.nullary main_call0_cst (constant S_ .f32 0x00000000#32),
    StableHlo.unary main_call0_cst main_call0_v0 ((broadcastInDim S50000x512 ![] bcast_S_S50000x512) : (⟨S_, .f32⟩ : BufTy).Contents (Elt F) → (⟨S50000x512, .f32⟩ : BufTy).Contents (Elt F)),
    StableHlo.binary main_v7 main_call0_v0 main_v8 ((maximumf) : (⟨S50000x512, .f32⟩ : BufTy).Contents (Elt F) → (⟨S50000x512, .f32⟩ : BufTy).Contents (Elt F) → (⟨S50000x512, .f32⟩ : BufTy).Contents (Elt F)),
    StableHlo.binary main_v8 main_arg10 main_v9 ((fun l r => Host.dotGeneral dot_S50000x512_S512x64_S50000x64_1_0_0_1_n_n none l r) : (⟨S50000x512, .f32⟩ : BufTy).Contents (Elt F) → (⟨S512x64, .f32⟩ : BufTy).Contents (Elt F) → (⟨S50000x64, .f32⟩ : BufTy).Contents (Elt F)),
    StableHlo.unary main_arg11 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S50000x64 ![0, 1] bcast_S1x64_S50000x64_0_1 : (⟨S1x64, .f32⟩ : BufTy).Contents (Elt F) → (⟨S50000x64, .f32⟩ : BufTy).Contents (Elt F)),
    StableHlo.binary main_v9 main_v11 main_v12 (addf : (⟨S50000x64, .f32⟩ : BufTy).Contents (Elt F) → (⟨S50000x64, .f32⟩ : BufTy).Contents (Elt F) → (⟨S50000x64, .f32⟩ : BufTy).Contents (Elt F)),
    StableHlo.nullary main_call1_cst (constant S_ .f32 0x00000000#32),
    StableHlo.unary main_call1_cst main_call1_v0 ((broadcastInDim S50000x64 ![] bcast_S_S50000x64) : (⟨S_, .f32⟩ : BufTy).Contents (Elt F) → (⟨S50000x64, .f32⟩ : BufTy).Contents (Elt F)),
    StableHlo.binary main_v12 main_call1_v0 main_v13 ((maximumf) : (⟨S50000x64, .f32⟩ : BufTy).Contents (Elt F) → (⟨S50000x64, .f32⟩ : BufTy).Contents (Elt F) → (⟨S50000x64, .f32⟩ : BufTy).Contents (Elt F)),
    StableHlo.binary main_v13 main_arg12 main_v14 ((fun l r => Host.dotGeneral dot_S50000x64_S64x7_S50000x7_1_0_0_1_n_n none l r) : (⟨S50000x64, .f32⟩ : BufTy).Contents (Elt F) → (⟨S64x7, .f32⟩ : BufTy).Contents (Elt F) → (⟨S50000x7, .f32⟩ : BufTy).Contents (Elt F)),
    StableHlo.unary main_arg13 main_v15 (broadcastInDim S1x7 ![1] bcast_S7_S1x7_1 : (⟨S7, .f32⟩ : BufTy).Contents (Elt F) → (⟨S1x7, .f32⟩ : BufTy).Contents (Elt F)),
    StableHlo.unary main_v15 main_v16 (broadcastInDim S50000x7 ![0, 1] bcast_S1x7_S50000x7_0_1 : (⟨S1x7, .f32⟩ : BufTy).Contents (Elt F) → (⟨S50000x7, .f32⟩ : BufTy).Contents (Elt F)),
    StableHlo.binary main_v14 main_v16 main_v17 (addf : (⟨S50000x7, .f32⟩ : BufTy).Contents (Elt F) → (⟨S50000x7, .f32⟩ : BufTy).Contents (Elt F) → (⟨S50000x7, .f32⟩ : BufTy).Contents (Elt F)) ]

/-- Stage 1 (28 operations). The wrapped endpoints, the logits gathered at both, the parsing matrix, and the edges' raw weights. -/
abbrev st1 : List (HloOp τ sig (Elt F)) :=
  [ StableHlo.nullary main_c (constantI S_ 32 0#32),
    StableHlo.unary main_c main_v18 (broadcastInDim S800000 ![] bcast_S_S800000 : (⟨S_, .i32⟩ : BufTy).Contents (Elt F) → (⟨S800000, .i32⟩ : BufTy).Contents (Elt F)),
    StableHlo.binary main_v1 main_v18 main_v19 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v20 (broadcastInDim S800000 ![] bcast_S_S800000 : (⟨S_, .i32⟩ : BufTy).Contents (Elt F) → (⟨S800000, .i32⟩ : BufTy).Contents (Elt F)),
    StableHlo.binary main_v1 main_v20 main_v21 (addi : (⟨S800000, .i32⟩ : BufTy).Contents (Elt F) → (⟨S800000, .i32⟩ : BufTy).Contents (Elt F) → (⟨S800000, .i32⟩ : BufTy).Contents (Elt F)),
    StableHlo.ternary main_v19 main_v21 main_v1 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v22 main_v23 (broadcastInDim S800000x1 ![0] bcast_S800000_S800000x1_0 : (⟨S800000, .i32⟩ : BufTy).Contents (Elt F) → (⟨S800000x1, .i32⟩ : BufTy).Contents (Elt F)),
    StableHlo.binary main_v17 main_v23 main_v24 ((fun x i => Host.gather gather_S50000x7_S800000x1_S800000x7_1_0_n_n_0_1_17 x i) : (⟨S50000x7, .f32⟩ : BufTy).Contents (Elt F) → (⟨S800000x1, .i32⟩ : BufTy).Contents (Elt F) → (⟨S800000x7, .f32⟩ : BufTy).Contents (Elt F)),
    StableHlo.nullary main_c_1 (constantI S_ 32 0#32),
    StableHlo.unary main_c_1 main_v25 (broadcastInDim S800000 ![] bcast_S_S800000 : (⟨S_, .i32⟩ : BufTy).Contents (Elt F) → (⟨S800000, .i32⟩ : BufTy).Contents (Elt F)),
    StableHlo.binary main_v3 main_v25 main_v26 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v27 (broadcastInDim S800000 ![] bcast_S_S800000 : (⟨S_, .i32⟩ : BufTy).Contents (Elt F) → (⟨S800000, .i32⟩ : BufTy).Contents (Elt F)),
    StableHlo.binary main_v3 main_v27 main_v28 (addi : (⟨S800000, .i32⟩ : BufTy).Contents (Elt F) → (⟨S800000, .i32⟩ : BufTy).Contents (Elt F) → (⟨S800000, .i32⟩ : BufTy).Contents (Elt F)),
    StableHlo.ternary main_v26 main_v28 main_v3 main_v29 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v29 main_v30 (broadcastInDim S800000x1 ![0] bcast_S800000_S800000x1_0 : (⟨S800000, .i32⟩ : BufTy).Contents (Elt F) → (⟨S800000x1, .i32⟩ : BufTy).Contents (Elt F)),
    StableHlo.binary main_v17 main_v30 main_v31 ((fun x i => Host.gather gather_S50000x7_S800000x1_S800000x7_1_0_n_n_0_1_17 x i) : (⟨S50000x7, .f32⟩ : BufTy).Contents (Elt F) → (⟨S800000x1, .i32⟩ : BufTy).Contents (Elt F) → (⟨S800000x7, .f32⟩ : BufTy).Contents (Elt F)),
    StableHlo.nullary main_cst (constant S_ .f32 0x40000000#32),
    StableHlo.unary main_cst main_v32 (broadcastInDim S7x7 ![] bcast_S_S7x7 : (⟨S_, .f32⟩ : BufTy).Contents (Elt F) → (⟨S7x7, .f32⟩ : BufTy).Contents (Elt F)),
    StableHlo.binary main_v32 main_arg14 main_v33 (mulf : (⟨S7x7, .f32⟩ : BufTy).Contents (Elt F) → (⟨S7x7, .f32⟩ : BufTy).Contents (Elt F) → (⟨S7x7, .f32⟩ : BufTy).Contents (Elt F)),
    StableHlo.nullary main_call2_cst (constant S_ .f32 0x00000000#32),
    StableHlo.unary main_call2_cst main_call2_v0 ((broadcastInDim S7x7 ![] bcast_S_S7x7) : (⟨S_, .f32⟩ : BufTy).Contents (Elt F) → (⟨S7x7, .f32⟩ : BufTy).Contents (Elt F)),
    StableHlo.binary main_v33 main_call2_v0 main_v34 ((maximumf) : (⟨S7x7, .f32⟩ : BufTy).Contents (Elt F) → (⟨S7x7, .f32⟩ : BufTy).Contents (Elt F) → (⟨S7x7, .f32⟩ : BufTy).Contents (Elt F)),
    StableHlo.binary main_v31 main_v34 main_v35 ((fun l r => Host.dotGeneral dot_S800000x7_S7x7_S800000x7_1_0_0_1_n_n none l r) : (⟨S800000x7, .f32⟩ : BufTy).Contents (Elt F) → (⟨S7x7, .f32⟩ : BufTy).Contents (Elt F) → (⟨S800000x7, .f32⟩ : BufTy).Contents (Elt F)),
    StableHlo.binary main_v24 main_v35 main_v36 (mulf : (⟨S800000x7, .f32⟩ : BufTy).Contents (Elt F) → (⟨S800000x7, .f32⟩ : BufTy).Contents (Elt F) → (⟨S800000x7, .f32⟩ : BufTy).Contents (Elt F)),
    StableHlo.nullary main_cst_3 (constant S_ .f32 0x00000000#32),
    StableHlo.binary main_v36 main_cst_3 main_v37 ((fun x v => Host.reduceAdd x v reducesTo_S800000x7_S800000_d1 h_S_) : (⟨S800000x7, .f32⟩ : BufTy).Contents (Elt F) → (⟨S_, .f32⟩ : BufTy).Contents (Elt F) → (⟨S800000, .f32⟩ : BufTy).Contents (Elt F)) ]

/-- Stage 2 (25 operations). The mean of the raw weights and their unbiased variance. -/
abbrev st2 : List (HloOp τ sig (Elt F)) :=
  [ StableHlo.nullary main_cst_4 (constant S_ .f32 0x00000000#32),
    StableHlo.binary main_v37 main_cst_4 main_v38 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    StableHlo.nullary main_cst_5 (constant S_ .f32 0x49435000#32),
    StableHlo.binary main_v38 main_cst_5 main_v39 (Host.divf : (⟨S_, .f32⟩ : BufTy).Contents (Elt F) → (⟨S_, .f32⟩ : BufTy).Contents (Elt F) → (⟨S_, .f32⟩ : BufTy).Contents (Elt F)),
    StableHlo.nullary main_c_6 (constantI S_ 32 1#32),
    StableHlo.nullary main_call3_cst (constant S_ .f32 0x00000000#32),
    StableHlo.binary main_v37 main_call3_cst main_call3_v0 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    StableHlo.unary main_call3_v0 main_call3_v1 ((broadcastInDim S1 ![] bcast_S_S1) : (⟨S_, .f32⟩ : BufTy).Contents (Elt F) → (⟨S1, .f32⟩ : BufTy).Contents (Elt F)),
    StableHlo.nullary main_call3_cst_0 (constant S_ .f32 0x49435000#32),
    StableHlo.unary main_call3_cst_0 main_call3_v2 ((broadcastInDim S1 ![] bcast_S_S1) : (⟨S_, .f32⟩ : BufTy).Contents (Elt F) → (⟨S1, .f32⟩ : BufTy).Contents (Elt F)),
    StableHlo.binary main_call3_v1 main_call3_v2 main_call3_v3 ((Host.divf) : (⟨S1, .f32⟩ : BufTy).Contents (Elt F) → (⟨S1, .f32⟩ : BufTy).Contents (Elt F) → (⟨S1, .f32⟩ : BufTy).Contents (Elt F)),
    StableHlo.unary main_call3_v3 main_call3_v4 ((broadcastInDim S800000 ![0] bcast_S1_S800000_0) : (⟨S1, .f32⟩ : BufTy).Contents (Elt F) → (⟨S800000, .f32⟩ : BufTy).Contents (Elt F)),
    StableHlo.binary main_v37 main_call3_v4 main_call3_v5 ((subf) : (⟨S800000, .f32⟩ : BufTy).Contents (Elt F) → (⟨S800000, .f32⟩ : BufTy).Contents (Elt F) → (⟨S800000, .f32⟩ : BufTy).Contents (Elt F)),
    StableHlo.binary main_call3_v5 main_call3_v5 main_call3_v6 ((mulf) : (⟨S800000, .f32⟩ : BufTy).Contents (Elt F) → (⟨S800000, .f32⟩ : BufTy).Contents (Elt F) → (⟨S800000, .f32⟩ : BufTy).Contents (Elt F)),
    StableHlo.unary main_c_6 main_call3_v7 ((sitofp .f32) : (⟨S_, .i32⟩ : BufTy).Contents (Elt F) → (⟨S_, .f32⟩ : BufTy).Contents (Elt F)),
    StableHlo.nullary main_call3_cst_1 (constant S_ .f32 0x49435000#32),
    StableHlo.binary main_call3_cst_1 main_call3_v7 main_call3_v8 ((subf) : (⟨S_, .f32⟩ : BufTy).Contents (Elt F) → (⟨S_, .f32⟩ : BufTy).Contents (Elt F) → (⟨S_, .f32⟩ : BufTy).Contents (Elt F)),
    StableHlo.nullary main_call3_cst_2 (constant S_ .f32 0x00000000#32),
    StableHlo.binary main_call3_v6 main_call3_cst_2 main_call3_v9 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    StableHlo.binary main_call3_v9 main_call3_v8 main_call3_v10 ((Host.divf) : (⟨S_, .f32⟩ : BufTy).Contents (Elt F) → (⟨S_, .f32⟩ : BufTy).Contents (Elt F) → (⟨S_, .f32⟩ : BufTy).Contents (Elt F)),
    StableHlo.nullary main_call3_cst_3 (constant S_ .f32 0x00000000#32),
    StableHlo.binary main_call3_v8 main_call3_cst_3 main_call3_v11 ((cmpf .ogt) : (⟨S_, .f32⟩ : BufTy).Contents (Elt F) → (⟨S_, .f32⟩ : BufTy).Contents (Elt F) → (⟨S_, .i1⟩ : BufTy).Contents (Elt F)),
    StableHlo.nullary main_call3_cst_4 (constant S_ .f32 0x7FC00000#32),
    StableHlo.unary main_call3_cst_4 main_call3_call0_v0 ((id) : (⟨S_, .f32⟩ : BufTy).Contents (Elt F) → (⟨S_, .f32⟩ : BufTy).Contents (Elt F)),
    StableHlo.ternary main_call3_v11 main_call3_v10 main_call3_call0_v0 main_v40 ((select) : (⟨S_, .i1⟩ : BufTy).Contents (Elt F) → (⟨S_, .f32⟩ : BufTy).Contents (Elt F) → (⟨S_, .f32⟩ : BufTy).Contents (Elt F) → (⟨S_, .f32⟩ : BufTy).Contents (Elt F)) ]

/-- Stage 3 (10 operations). The edge weights: centred, scaled, shifted by one. -/
abbrev st3 : List (HloOp τ sig (Elt F)) :=
  [ StableHlo.unary main_v39 main_v41 (broadcastInDim S800000 ![] bcast_S_S800000 : (⟨S_, .f32⟩ : BufTy).Contents (Elt F) → (⟨S800000, .f32⟩ : BufTy).Contents (Elt F)),
    StableHlo.binary main_v37 main_v41 main_v42 (subf : (⟨S800000, .f32⟩ : BufTy).Contents (Elt F) → (⟨S800000, .f32⟩ : BufTy).Contents (Elt F) → (⟨S800000, .f32⟩ : BufTy).Contents (Elt F)),
    StableHlo.nullary main_cst_7 (constant S_ .f32 0x38D1B717#32),
    StableHlo.binary main_cst_7 main_v40 main_v43 (Host.divf : (⟨S_, .f32⟩ : BufTy).Contents (Elt F) → (⟨S_, .f32⟩ : BufTy).Contents (Elt F) → (⟨S_, .f32⟩ : BufTy).Contents (Elt F)),
    StableHlo.unary main_v43 main_v44 (Host.sqrt : (⟨S_, .f32⟩ : BufTy).Contents (Elt F) → (⟨S_, .f32⟩ : BufTy).Contents (Elt F)),
    StableHlo.unary main_v44 main_v45 (broadcastInDim S800000 ![] bcast_S_S800000 : (⟨S_, .f32⟩ : BufTy).Contents (Elt F) → (⟨S800000, .f32⟩ : BufTy).Contents (Elt F)),
    StableHlo.binary main_v42 main_v45 main_v46 (mulf : (⟨S800000, .f32⟩ : BufTy).Contents (Elt F) → (⟨S800000, .f32⟩ : BufTy).Contents (Elt F) → (⟨S800000, .f32⟩ : BufTy).Contents (Elt F)),
    StableHlo.nullary main_cst_8 (constant S_ .f32 0x3F800000#32),
    StableHlo.unary main_cst_8 main_v47 (broadcastInDim S800000 ![] bcast_S_S800000 : (⟨S_, .f32⟩ : BufTy).Contents (Elt F) → (⟨S800000, .f32⟩ : BufTy).Contents (Elt F)),
    StableHlo.binary main_v46 main_v47 main_v48 (addf : (⟨S800000, .f32⟩ : BufTy).Contents (Elt F) → (⟨S800000, .f32⟩ : BufTy).Contents (Elt F) → (⟨S800000, .f32⟩ : BufTy).Contents (Elt F)) ]

/-- Stage 4 (22 operations). First convolution: the linear image, the endpoints and weights with self loops, the degrees and their inverse roots. -/
abbrev st4 : List (HloOp τ sig (Elt F)) :=
  [ StableHlo.binary main_arg0 main_arg2 main_v49 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.nullary main_v50 (iotaInDim S50000 32 0),
    StableHlo.binary main_v1 main_v50 main_v51 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v50 main_v52 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_9 (constant S_ .f32 0x3F800000#32),
    StableHlo.unary main_cst_9 main_v53 (broadcastInDim S50000 ![] bcast_S_S50000 : (⟨S_, .f32⟩ : BufTy).Contents (Elt F) → (⟨S50000, .f32⟩ : BufTy).Contents (Elt F)),
    StableHlo.binary main_v48 main_v53 main_v54 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_10 (constant S_ .f32 0x00000000#32),
    StableHlo.unary main_cst_10 main_v55 (broadcastInDim S50000 ![] bcast_S_S50000 : (⟨S_, .f32⟩ : BufTy).Contents (Elt F) → (⟨S50000, .f32⟩ : BufTy).Contents (Elt F)),
    StableHlo.unary main_v52 main_v56 (broadcastInDim S850000x1 ![0] bcast_S850000_S850000x1_0 : (⟨S850000, .i32⟩ : BufTy).Contents (Elt F) → (⟨S850000x1, .i32⟩ : BufTy).Contents (Elt F)),
    StableHlo.ternary main_v55 main_v56 main_v54 main_v57 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_11 (constant S_ .f32 0x00000000#32),
    StableHlo.unary main_cst_11 main_v58 (broadcastInDim S50000 ![] bcast_S_S50000 : (⟨S_, .f32⟩ : BufTy).Contents (Elt F) → (⟨S50000, .f32⟩ : BufTy).Contents (Elt F)),
    StableHlo.binary main_v57 main_v58 main_v59 (cmpf .ogt : (⟨S50000, .f32⟩ : BufTy).Contents (Elt F) → (⟨S50000, .f32⟩ : BufTy).Contents (Elt F) → (⟨S50000, .i1⟩ : BufTy).Contents (Elt F)),
    StableHlo.nullary main_cst_12 (constant S_ .f32 0x2B8CBCCC#32),
    StableHlo.unary main_cst_12 main_v60 (broadcastInDim S50000 ![] bcast_S_S50000 : (⟨S_, .f32⟩ : BufTy).Contents (Elt F) → (⟨S50000, .f32⟩ : BufTy).Contents (Elt F)),
    StableHlo.binary main_v57 main_v60 main_v61 (maximumf : (⟨S50000, .f32⟩ : BufTy).Contents (Elt F) → (⟨S50000, .f32⟩ : BufTy).Contents (Elt F) → (⟨S50000, .f32⟩ : BufTy).Contents (Elt F)),
    StableHlo.unary main_v61 main_v62 (Host.rsqrt : (⟨S50000, .f32⟩ : BufTy).Contents (Elt F) → (⟨S50000, .f32⟩ : BufTy).Contents (Elt F)),
    StableHlo.nullary main_cst_13 (constant S_ .f32 0x00000000#32),
    StableHlo.unary main_cst_13 main_call4_v0 ((id) : (⟨S_, .f32⟩ : BufTy).Contents (Elt F) → (⟨S_, .f32⟩ : BufTy).Contents (Elt F)),
    StableHlo.unary main_call4_v0 main_call4_v1 ((broadcastInDim S50000 ![] bcast_S_S50000) : (⟨S_, .f32⟩ : BufTy).Contents (Elt F) → (⟨S50000, .f32⟩ : BufTy).Contents (Elt F)),
    StableHlo.ternary main_v59 main_v62 main_call4_v1 main_v63 ((select) : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

/-- Stage 5 (20 operations). First convolution: the normalised weights. -/
abbrev st5 : List (HloOp τ sig (Elt F)) :=
  [ StableHlo.nullary main_c_14 (constantI S_ 32 0#32),
    StableHlo.unary main_c_14 main_v64 (broadcastInDim S850000 ![] bcast_S_S850000 : (⟨S_, .i32⟩ : BufTy).Contents (Elt F) → (⟨S850000, .i32⟩ : BufTy).Contents (Elt F)),
    StableHlo.binary main_v51 main_v64 main_v65 (cmpi .slt : (⟨S850000, .i32⟩ : BufTy).Contents (Elt F) → (⟨S850000, .i32⟩ : BufTy).Contents (Elt F) → (⟨S850000, .i1⟩ : BufTy).Contents (Elt F)),
    StableHlo.nullary main_c_15 (constantI S_ 32 50000#32),
    StableHlo.unary main_c_15 main_v66 (broadcastInDim S850000 ![] bcast_S_S850000 : (⟨S_, .i32⟩ : BufTy).Contents (Elt F) → (⟨S850000, .i32⟩ : BufTy).Contents (Elt F)),
    StableHlo.binary main_v51 main_v66 main_v67 (addi : (⟨S850000, .i32⟩ : BufTy).Contents (Elt F) → (⟨S850000, .i32⟩ : BufTy).Contents (Elt F) → (⟨S850000, .i32⟩ : BufTy).Contents (Elt F)),
    StableHlo.ternary main_v65 main_v67 main_v51 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v68 main_v69 (broadcastInDim S850000x1 ![0] bcast_S850000_S850000x1_0 : (⟨S850000, .i32⟩ : BufTy).Contents (Elt F) → (⟨S850000x1, .i32⟩ : BufTy).Contents (Elt F)),
    StableHlo.binary main_v63 main_v69 main_v70 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v70 main_v54 main_v71 (mulf : (⟨S850000, .f32⟩ : BufTy).Contents (Elt F) → (⟨S850000, .f32⟩ : BufTy).Contents (Elt F) → (⟨S850000, .f32⟩ : BufTy).Contents (Elt F)),
    StableHlo.nullary main_c_16 (constantI S_ 32 0#32),
    StableHlo.unary main_c_16 main_v72 (broadcastInDim S850000 ![] bcast_S_S850000 : (⟨S_, .i32⟩ : BufTy).Contents (Elt F) → (⟨S850000, .i32⟩ : BufTy).Contents (Elt F)),
    StableHlo.binary main_v52 main_v72 main_v73 (cmpi .slt : (⟨S850000, .i32⟩ : BufTy).Contents (Elt F) → (⟨S850000, .i32⟩ : BufTy).Contents (Elt F) → (⟨S850000, .i1⟩ : BufTy).Contents (Elt F)),
    StableHlo.nullary main_c_17 (constantI S_ 32 50000#32),
    StableHlo.unary main_c_17 main_v74 (broadcastInDim S850000 ![] bcast_S_S850000 : (⟨S_, .i32⟩ : BufTy).Contents (Elt F) → (⟨S850000, .i32⟩ : BufTy).Contents (Elt F)),
    StableHlo.binary main_v52 main_v74 main_v75 (addi : (⟨S850000, .i32⟩ : BufTy).Contents (Elt F) → (⟨S850000, .i32⟩ : BufTy).Contents (Elt F) → (⟨S850000, .i32⟩ : BufTy).Contents (Elt F)),
    StableHlo.ternary main_v73 main_v75 main_v52 main_v76 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v76 main_v77 (broadcastInDim S850000x1 ![0] bcast_S850000_S850000x1_0 : (⟨S850000, .i32⟩ : BufTy).Contents (Elt F) → (⟨S850000x1, .i32⟩ : BufTy).Contents (Elt F)),
    StableHlo.binary main_v63 main_v77 main_v78 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v71 main_v78 main_v79 (mulf : (⟨S850000, .f32⟩ : BufTy).Contents (Elt F) → (⟨S850000, .f32⟩ : BufTy).Contents (Elt F) → (⟨S850000, .f32⟩ : BufTy).Contents (Elt F)) ]

/-- Stage 6 (22 operations). First convolution: gathered rows scaled and summed at the targets, the bias, and the rectifier. -/
abbrev st6 : List (HloOp τ sig (Elt F)) :=
  [ StableHlo.nullary main_c_18 (constantI S_ 32 0#32),
    StableHlo.unary main_c_18 main_v80 (broadcastInDim S850000 ![] bcast_S_S850000 : (⟨S_, .i32⟩ : BufTy).Contents (Elt F) → (⟨S850000, .i32⟩ : BufTy).Contents (Elt F)),
    StableHlo.binary main_v51 main_v80 main_v81 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32),
    StableHlo.unary main_c_19 main_v82 (broadcastInDim S850000 ![] bcast_S_S850000 : (⟨S_, .i32⟩ : BufTy).Contents (Elt F) → (⟨S850000, .i32⟩ : BufTy).Contents (Elt F)),
    StableHlo.binary main_v51 main_v82 main_v83 (addi : (⟨S850000, .i32⟩ : BufTy).Contents (Elt F) → (⟨S850000, .i32⟩ : BufTy).Contents (Elt F) → (⟨S850000, .i32⟩ : BufTy).Contents (Elt F)),
    StableHlo.ternary main_v81 main_v83 main_v51 main_v84 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v84 main_v85 (broadcastInDim S850000x1 ![0] bcast_S850000_S850000x1_0 : (⟨S850000, .i32⟩ : BufTy).Contents (Elt F) → (⟨S850000x1, .i32⟩ : BufTy).Contents (Elt F)),
    StableHlo.binary main_v49 main_v85 main_v86 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v79 main_v87 (broadcastInDim S850000x1 ![0] bcast_S850000_S850000x1_0 : (⟨S850000, .f32⟩ : BufTy).Contents (Elt F) → (⟨S850000x1, .f32⟩ : BufTy).Contents (Elt F)),
    StableHlo.unary main_v87 main_v88 (broadcastInDim S850000x256 ![0, 1] bcast_S850000x1_S850000x256_0_1 : (⟨S850000x1, .f32⟩ : BufTy).Contents (Elt F) → (⟨S850000x256, .f32⟩ : BufTy).Contents (Elt F)),
    StableHlo.binary main_v86 main_v88 main_v89 (mulf : (⟨S850000x256, .f32⟩ : BufTy).Contents (Elt F) → (⟨S850000x256, .f32⟩ : BufTy).Contents (Elt F) → (⟨S850000x256, .f32⟩ : BufTy).Contents (Elt F)),
    StableHlo.nullary main_cst_20 (constant S_ .f32 0x00000000#32),
    StableHlo.unary main_cst_20 main_v90 (broadcastInDim S50000x256 ![] bcast_S_S50000x256 : (⟨S_, .f32⟩ : BufTy).Contents (Elt F) → (⟨S50000x256, .f32⟩ : BufTy).Contents (Elt F)),
    StableHlo.unary main_v52 main_v91 (broadcastInDim S850000x1 ![0] bcast_S850000_S850000x1_0 : (⟨S850000, .i32⟩ : BufTy).Contents (Elt F) → (⟨S850000x1, .i32⟩ : BufTy).Contents (Elt F)),
    StableHlo.ternary main_v90 main_v91 main_v89 main_v92 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg3 main_v93 (broadcastInDim S1x256 ![1] bcast_S256_S1x256_1 : (⟨S256, .f32⟩ : BufTy).Contents (Elt F) → (⟨S1x256, .f32⟩ : BufTy).Contents (Elt F)),
    StableHlo.unary main_v93 main_v94 (broadcastInDim S50000x256 ![0, 1] bcast_S1x256_S50000x256_0_1 : (⟨S1x256, .f32⟩ : BufTy).Contents (Elt F) → (⟨S50000x256, .f32⟩ : BufTy).Contents (Elt F)),
    StableHlo.binary main_v92 main_v94 main_v95 (addf : (⟨S50000x256, .f32⟩ : BufTy).Contents (Elt F) → (⟨S50000x256, .f32⟩ : BufTy).Contents (Elt F) → (⟨S50000x256, .f32⟩ : BufTy).Contents (Elt F)),
    StableHlo.nullary main_call5_cst (constant S_ .f32 0x00000000#32),
    StableHlo.unary main_call5_cst main_call5_v0 ((broadcastInDim S50000x256 ![] bcast_S_S50000x256) : (⟨S_, .f32⟩ : BufTy).Contents (Elt F) → (⟨S50000x256, .f32⟩ : BufTy).Contents (Elt F)),
    StableHlo.binary main_v95 main_call5_v0 main_v96 ((maximumf) : (⟨S50000x256, .f32⟩ : BufTy).Contents (Elt F) → (⟨S50000x256, .f32⟩ : BufTy).Contents (Elt F) → (⟨S50000x256, .f32⟩ : BufTy).Contents (Elt F)) ]

/-- Stage 7 (22 operations). Second convolution: the linear image, the endpoints and weights with self loops, the degrees and their inverse roots. -/
abbrev st7 : List (HloOp τ sig (Elt F)) :=
  [ StableHlo.binary main_v96 main_arg4 main_v97 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_v98 (iotaInDim S50000 32 0),
    StableHlo.binary main_v1 main_v98 main_v99 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v98 main_v100 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_21 (constant S_ .f32 0x3F800000#32),
    StableHlo.unary main_cst_21 main_v101 (broadcastInDim S50000 ![] bcast_S_S50000 : (⟨S_, .f32⟩ : BufTy).Contents (Elt F) → (⟨S50000, .f32⟩ : BufTy).Contents (Elt F)),
    StableHlo.binary main_v48 main_v101 main_v102 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_22 (constant S_ .f32 0x00000000#32),
    StableHlo.unary main_cst_22 main_v103 (broadcastInDim S50000 ![] bcast_S_S50000 : (⟨S_, .f32⟩ : BufTy).Contents (Elt F) → (⟨S50000, .f32⟩ : BufTy).Contents (Elt F)),
    StableHlo.unary main_v100 main_v104 (broadcastInDim S850000x1 ![0] bcast_S850000_S850000x1_0 : (⟨S850000, .i32⟩ : BufTy).Contents (Elt F) → (⟨S850000x1, .i32⟩ : BufTy).Contents (Elt F)),
    StableHlo.ternary main_v103 main_v104 main_v102 main_v105 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_23 (constant S_ .f32 0x00000000#32),
    StableHlo.unary main_cst_23 main_v106 (broadcastInDim S50000 ![] bcast_S_S50000 : (⟨S_, .f32⟩ : BufTy).Contents (Elt F) → (⟨S50000, .f32⟩ : BufTy).Contents (Elt F)),
    StableHlo.binary main_v105 main_v106 main_v107 (cmpf .ogt : (⟨S50000, .f32⟩ : BufTy).Contents (Elt F) → (⟨S50000, .f32⟩ : BufTy).Contents (Elt F) → (⟨S50000, .i1⟩ : BufTy).Contents (Elt F)),
    StableHlo.nullary main_cst_24 (constant S_ .f32 0x2B8CBCCC#32),
    StableHlo.unary main_cst_24 main_v108 (broadcastInDim S50000 ![] bcast_S_S50000 : (⟨S_, .f32⟩ : BufTy).Contents (Elt F) → (⟨S50000, .f32⟩ : BufTy).Contents (Elt F)),
    StableHlo.binary main_v105 main_v108 main_v109 (maximumf : (⟨S50000, .f32⟩ : BufTy).Contents (Elt F) → (⟨S50000, .f32⟩ : BufTy).Contents (Elt F) → (⟨S50000, .f32⟩ : BufTy).Contents (Elt F)),
    StableHlo.unary main_v109 main_v110 (Host.rsqrt : (⟨S50000, .f32⟩ : BufTy).Contents (Elt F) → (⟨S50000, .f32⟩ : BufTy).Contents (Elt F)),
    StableHlo.nullary main_cst_25 (constant S_ .f32 0x00000000#32),
    StableHlo.unary main_cst_25 main_call6_v0 ((id) : (⟨S_, .f32⟩ : BufTy).Contents (Elt F) → (⟨S_, .f32⟩ : BufTy).Contents (Elt F)),
    StableHlo.unary main_call6_v0 main_call6_v1 ((broadcastInDim S50000 ![] bcast_S_S50000) : (⟨S_, .f32⟩ : BufTy).Contents (Elt F) → (⟨S50000, .f32⟩ : BufTy).Contents (Elt F)),
    StableHlo.ternary main_v107 main_v110 main_call6_v1 main_v111 ((select) : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

/-- Stage 8 (20 operations). Second convolution: the normalised weights. -/
abbrev st8 : List (HloOp τ sig (Elt F)) :=
  [ StableHlo.nullary main_c_26 (constantI S_ 32 0#32),
    StableHlo.unary main_c_26 main_v112 (broadcastInDim S850000 ![] bcast_S_S850000 : (⟨S_, .i32⟩ : BufTy).Contents (Elt F) → (⟨S850000, .i32⟩ : BufTy).Contents (Elt F)),
    StableHlo.binary main_v99 main_v112 main_v113 (cmpi .slt : (⟨S850000, .i32⟩ : BufTy).Contents (Elt F) → (⟨S850000, .i32⟩ : BufTy).Contents (Elt F) → (⟨S850000, .i1⟩ : BufTy).Contents (Elt F)),
    StableHlo.nullary main_c_27 (constantI S_ 32 50000#32),
    StableHlo.unary main_c_27 main_v114 (broadcastInDim S850000 ![] bcast_S_S850000 : (⟨S_, .i32⟩ : BufTy).Contents (Elt F) → (⟨S850000, .i32⟩ : BufTy).Contents (Elt F)),
    StableHlo.binary main_v99 main_v114 main_v115 (addi : (⟨S850000, .i32⟩ : BufTy).Contents (Elt F) → (⟨S850000, .i32⟩ : BufTy).Contents (Elt F) → (⟨S850000, .i32⟩ : BufTy).Contents (Elt F)),
    StableHlo.ternary main_v113 main_v115 main_v99 main_v116 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v116 main_v117 (broadcastInDim S850000x1 ![0] bcast_S850000_S850000x1_0 : (⟨S850000, .i32⟩ : BufTy).Contents (Elt F) → (⟨S850000x1, .i32⟩ : BufTy).Contents (Elt F)),
    StableHlo.binary main_v111 main_v117 main_v118 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v118 main_v102 main_v119 (mulf : (⟨S850000, .f32⟩ : BufTy).Contents (Elt F) → (⟨S850000, .f32⟩ : BufTy).Contents (Elt F) → (⟨S850000, .f32⟩ : BufTy).Contents (Elt F)),
    StableHlo.nullary main_c_28 (constantI S_ 32 0#32),
    StableHlo.unary main_c_28 main_v120 (broadcastInDim S850000 ![] bcast_S_S850000 : (⟨S_, .i32⟩ : BufTy).Contents (Elt F) → (⟨S850000, .i32⟩ : BufTy).Contents (Elt F)),
    StableHlo.binary main_v100 main_v120 main_v121 (cmpi .slt : (⟨S850000, .i32⟩ : BufTy).Contents (Elt F) → (⟨S850000, .i32⟩ : BufTy).Contents (Elt F) → (⟨S850000, .i1⟩ : BufTy).Contents (Elt F)),
    StableHlo.nullary main_c_29 (constantI S_ 32 50000#32),
    StableHlo.unary main_c_29 main_v122 (broadcastInDim S850000 ![] bcast_S_S850000 : (⟨S_, .i32⟩ : BufTy).Contents (Elt F) → (⟨S850000, .i32⟩ : BufTy).Contents (Elt F)),
    StableHlo.binary main_v100 main_v122 main_v123 (addi : (⟨S850000, .i32⟩ : BufTy).Contents (Elt F) → (⟨S850000, .i32⟩ : BufTy).Contents (Elt F) → (⟨S850000, .i32⟩ : BufTy).Contents (Elt F)),
    StableHlo.ternary main_v121 main_v123 main_v100 main_v124 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v124 main_v125 (broadcastInDim S850000x1 ![0] bcast_S850000_S850000x1_0 : (⟨S850000, .i32⟩ : BufTy).Contents (Elt F) → (⟨S850000x1, .i32⟩ : BufTy).Contents (Elt F)),
    StableHlo.binary main_v111 main_v125 main_v126 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v119 main_v126 main_v127 (mulf : (⟨S850000, .f32⟩ : BufTy).Contents (Elt F) → (⟨S850000, .f32⟩ : BufTy).Contents (Elt F) → (⟨S850000, .f32⟩ : BufTy).Contents (Elt F)) ]

/-- Stage 9 (22 operations). Second convolution: gathered rows scaled and summed at the targets, the bias, and the rectifier. -/
abbrev st9 : List (HloOp τ sig (Elt F)) :=
  [ StableHlo.nullary main_c_30 (constantI S_ 32 0#32),
    StableHlo.unary main_c_30 main_v128 (broadcastInDim S850000 ![] bcast_S_S850000 : (⟨S_, .i32⟩ : BufTy).Contents (Elt F) → (⟨S850000, .i32⟩ : BufTy).Contents (Elt F)),
    StableHlo.binary main_v99 main_v128 main_v129 (cmpi .slt : (⟨S850000, .i32⟩ : BufTy).Contents (Elt F) → (⟨S850000, .i32⟩ : BufTy).Contents (Elt F) → (⟨S850000, .i1⟩ : BufTy).Contents (Elt F)),
    StableHlo.nullary main_c_31 (constantI S_ 32 50000#32),
    StableHlo.unary main_c_31 main_v130 (broadcastInDim S850000 ![] bcast_S_S850000 : (⟨S_, .i32⟩ : BufTy).Contents (Elt F) → (⟨S850000, .i32⟩ : BufTy).Contents (Elt F)),
    StableHlo.binary main_v99 main_v130 main_v131 (addi : (⟨S850000, .i32⟩ : BufTy).Contents (Elt F) → (⟨S850000, .i32⟩ : BufTy).Contents (Elt F) → (⟨S850000, .i32⟩ : BufTy).Contents (Elt F)),
    StableHlo.ternary main_v129 main_v131 main_v99 main_v132 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v132 main_v133 (broadcastInDim S850000x1 ![0] bcast_S850000_S850000x1_0 : (⟨S850000, .i32⟩ : BufTy).Contents (Elt F) → (⟨S850000x1, .i32⟩ : BufTy).Contents (Elt F)),
    StableHlo.binary main_v97 main_v133 main_v134 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v127 main_v135 (broadcastInDim S850000x1 ![0] bcast_S850000_S850000x1_0 : (⟨S850000, .f32⟩ : BufTy).Contents (Elt F) → (⟨S850000x1, .f32⟩ : BufTy).Contents (Elt F)),
    StableHlo.unary main_v135 main_v136 (broadcastInDim S850000x256 ![0, 1] bcast_S850000x1_S850000x256_0_1 : (⟨S850000x1, .f32⟩ : BufTy).Contents (Elt F) → (⟨S850000x256, .f32⟩ : BufTy).Contents (Elt F)),
    StableHlo.binary main_v134 main_v136 main_v137 (mulf : (⟨S850000x256, .f32⟩ : BufTy).Contents (Elt F) → (⟨S850000x256, .f32⟩ : BufTy).Contents (Elt F) → (⟨S850000x256, .f32⟩ : BufTy).Contents (Elt F)),
    StableHlo.nullary main_cst_32 (constant S_ .f32 0x00000000#32),
    StableHlo.unary main_cst_32 main_v138 (broadcastInDim S50000x256 ![] bcast_S_S50000x256 : (⟨S_, .f32⟩ : BufTy).Contents (Elt F) → (⟨S50000x256, .f32⟩ : BufTy).Contents (Elt F)),
    StableHlo.unary main_v100 main_v139 (broadcastInDim S850000x1 ![0] bcast_S850000_S850000x1_0 : (⟨S850000, .i32⟩ : BufTy).Contents (Elt F) → (⟨S850000x1, .i32⟩ : BufTy).Contents (Elt F)),
    StableHlo.ternary main_v138 main_v139 main_v137 main_v140 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg5 main_v141 (broadcastInDim S1x256 ![1] bcast_S256_S1x256_1 : (⟨S256, .f32⟩ : BufTy).Contents (Elt F) → (⟨S1x256, .f32⟩ : BufTy).Contents (Elt F)),
    StableHlo.unary main_v141 main_v142 (broadcastInDim S50000x256 ![0, 1] bcast_S1x256_S50000x256_0_1 : (⟨S1x256, .f32⟩ : BufTy).Contents (Elt F) → (⟨S50000x256, .f32⟩ : BufTy).Contents (Elt F)),
    StableHlo.binary main_v140 main_v142 main_v143 (addf : (⟨S50000x256, .f32⟩ : BufTy).Contents (Elt F) → (⟨S50000x256, .f32⟩ : BufTy).Contents (Elt F) → (⟨S50000x256, .f32⟩ : BufTy).Contents (Elt F)),
    StableHlo.nullary main_call7_cst (constant S_ .f32 0x00000000#32),
    StableHlo.unary main_call7_cst main_call7_v0 ((broadcastInDim S50000x256 ![] bcast_S_S50000x256) : (⟨S_, .f32⟩ : BufTy).Contents (Elt F) → (⟨S50000x256, .f32⟩ : BufTy).Contents (Elt F)),
    StableHlo.binary main_v143 main_call7_v0 main_v144 ((maximumf) : (⟨S50000x256, .f32⟩ : BufTy).Contents (Elt F) → (⟨S50000x256, .f32⟩ : BufTy).Contents (Elt F) → (⟨S50000x256, .f32⟩ : BufTy).Contents (Elt F)) ]

/-- Stage 10 (23 operations). The residual sum, the third linear image, the endpoints and weights with self loops, the degrees and their inverse roots. -/
abbrev st10 : List (HloOp τ sig (Elt F)) :=
  [ StableHlo.binary main_v144 main_v95 main_v145 (addf : (⟨S50000x256, .f32⟩ : BufTy).Contents (Elt F) → (⟨S50000x256, .f32⟩ : BufTy).Contents (Elt F) → (⟨S50000x256, .f32⟩ : BufTy).Contents (Elt F)),
    StableHlo.binary main_v145 main_arg6 main_v146 ((fun l r => Host.dotGeneral dot_S50000x256_S256x7_S50000x7_1_0_0_1_n_n none l r) : (⟨S50000x256, .f32⟩ : BufTy).Contents (Elt F) → (⟨S256x7, .f32⟩ : BufTy).Contents (Elt F) → (⟨S50000x7, .f32⟩ : BufTy).Contents (Elt F)),
    StableHlo.nullary main_v147 (iotaInDim S50000 32 0),
    StableHlo.binary main_v1 main_v147 main_v148 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v147 main_v149 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_33 (constant S_ .f32 0x3F800000#32),
    StableHlo.unary main_cst_33 main_v150 (broadcastInDim S50000 ![] bcast_S_S50000 : (⟨S_, .f32⟩ : BufTy).Contents (Elt F) → (⟨S50000, .f32⟩ : BufTy).Contents (Elt F)),
    StableHlo.binary main_v48 main_v150 main_v151 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_34 (constant S_ .f32 0x00000000#32),
    StableHlo.unary main_cst_34 main_v152 (broadcastInDim S50000 ![] bcast_S_S50000 : (⟨S_, .f32⟩ : BufTy).Contents (Elt F) → (⟨S50000, .f32⟩ : BufTy).Contents (Elt F)),
    StableHlo.unary main_v149 main_v153 (broadcastInDim S850000x1 ![0] bcast_S850000_S850000x1_0 : (⟨S850000, .i32⟩ : BufTy).Contents (Elt F) → (⟨S850000x1, .i32⟩ : BufTy).Contents (Elt F)),
    StableHlo.ternary main_v152 main_v153 main_v151 main_v154 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_35 (constant S_ .f32 0x00000000#32),
    StableHlo.unary main_cst_35 main_v155 (broadcastInDim S50000 ![] bcast_S_S50000 : (⟨S_, .f32⟩ : BufTy).Contents (Elt F) → (⟨S50000, .f32⟩ : BufTy).Contents (Elt F)),
    StableHlo.binary main_v154 main_v155 main_v156 (cmpf .ogt : (⟨S50000, .f32⟩ : BufTy).Contents (Elt F) → (⟨S50000, .f32⟩ : BufTy).Contents (Elt F) → (⟨S50000, .i1⟩ : BufTy).Contents (Elt F)),
    StableHlo.nullary main_cst_36 (constant S_ .f32 0x2B8CBCCC#32),
    StableHlo.unary main_cst_36 main_v157 (broadcastInDim S50000 ![] bcast_S_S50000 : (⟨S_, .f32⟩ : BufTy).Contents (Elt F) → (⟨S50000, .f32⟩ : BufTy).Contents (Elt F)),
    StableHlo.binary main_v154 main_v157 main_v158 (maximumf : (⟨S50000, .f32⟩ : BufTy).Contents (Elt F) → (⟨S50000, .f32⟩ : BufTy).Contents (Elt F) → (⟨S50000, .f32⟩ : BufTy).Contents (Elt F)),
    StableHlo.unary main_v158 main_v159 (Host.rsqrt : (⟨S50000, .f32⟩ : BufTy).Contents (Elt F) → (⟨S50000, .f32⟩ : BufTy).Contents (Elt F)),
    StableHlo.nullary main_cst_37 (constant S_ .f32 0x00000000#32),
    StableHlo.unary main_cst_37 main_call8_v0 ((id) : (⟨S_, .f32⟩ : BufTy).Contents (Elt F) → (⟨S_, .f32⟩ : BufTy).Contents (Elt F)),
    StableHlo.unary main_call8_v0 main_call8_v1 ((broadcastInDim S50000 ![] bcast_S_S50000) : (⟨S_, .f32⟩ : BufTy).Contents (Elt F) → (⟨S50000, .f32⟩ : BufTy).Contents (Elt F)),
    StableHlo.ternary main_v156 main_v159 main_call8_v1 main_v160 ((select) : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

/-- Stage 11 (20 operations). Third convolution: the normalised weights. -/
abbrev st11 : List (HloOp τ sig (Elt F)) :=
  [ StableHlo.nullary main_c_38 (constantI S_ 32 0#32),
    StableHlo.unary main_c_38 main_v161 (broadcastInDim S850000 ![] bcast_S_S850000 : (⟨S_, .i32⟩ : BufTy).Contents (Elt F) → (⟨S850000, .i32⟩ : BufTy).Contents (Elt F)),
    StableHlo.binary main_v148 main_v161 main_v162 (cmpi .slt : (⟨S850000, .i32⟩ : BufTy).Contents (Elt F) → (⟨S850000, .i32⟩ : BufTy).Contents (Elt F) → (⟨S850000, .i1⟩ : BufTy).Contents (Elt F)),
    StableHlo.nullary main_c_39 (constantI S_ 32 50000#32),
    StableHlo.unary main_c_39 main_v163 (broadcastInDim S850000 ![] bcast_S_S850000 : (⟨S_, .i32⟩ : BufTy).Contents (Elt F) → (⟨S850000, .i32⟩ : BufTy).Contents (Elt F)),
    StableHlo.binary main_v148 main_v163 main_v164 (addi : (⟨S850000, .i32⟩ : BufTy).Contents (Elt F) → (⟨S850000, .i32⟩ : BufTy).Contents (Elt F) → (⟨S850000, .i32⟩ : BufTy).Contents (Elt F)),
    StableHlo.ternary main_v162 main_v164 main_v148 main_v165 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v165 main_v166 (broadcastInDim S850000x1 ![0] bcast_S850000_S850000x1_0 : (⟨S850000, .i32⟩ : BufTy).Contents (Elt F) → (⟨S850000x1, .i32⟩ : BufTy).Contents (Elt F)),
    StableHlo.binary main_v160 main_v166 main_v167 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v167 main_v151 main_v168 (mulf : (⟨S850000, .f32⟩ : BufTy).Contents (Elt F) → (⟨S850000, .f32⟩ : BufTy).Contents (Elt F) → (⟨S850000, .f32⟩ : BufTy).Contents (Elt F)),
    StableHlo.nullary main_c_40 (constantI S_ 32 0#32),
    StableHlo.unary main_c_40 main_v169 (broadcastInDim S850000 ![] bcast_S_S850000 : (⟨S_, .i32⟩ : BufTy).Contents (Elt F) → (⟨S850000, .i32⟩ : BufTy).Contents (Elt F)),
    StableHlo.binary main_v149 main_v169 main_v170 (cmpi .slt : (⟨S850000, .i32⟩ : BufTy).Contents (Elt F) → (⟨S850000, .i32⟩ : BufTy).Contents (Elt F) → (⟨S850000, .i1⟩ : BufTy).Contents (Elt F)),
    StableHlo.nullary main_c_41 (constantI S_ 32 50000#32),
    StableHlo.unary main_c_41 main_v171 (broadcastInDim S850000 ![] bcast_S_S850000 : (⟨S_, .i32⟩ : BufTy).Contents (Elt F) → (⟨S850000, .i32⟩ : BufTy).Contents (Elt F)),
    StableHlo.binary main_v149 main_v171 main_v172 (addi : (⟨S850000, .i32⟩ : BufTy).Contents (Elt F) → (⟨S850000, .i32⟩ : BufTy).Contents (Elt F) → (⟨S850000, .i32⟩ : BufTy).Contents (Elt F)),
    StableHlo.ternary main_v170 main_v172 main_v149 main_v173 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v173 main_v174 (broadcastInDim S850000x1 ![0] bcast_S850000_S850000x1_0 : (⟨S850000, .i32⟩ : BufTy).Contents (Elt F) → (⟨S850000x1, .i32⟩ : BufTy).Contents (Elt F)),
    StableHlo.binary main_v160 main_v174 main_v175 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v168 main_v175 main_v176 (mulf : (⟨S850000, .f32⟩ : BufTy).Contents (Elt F) → (⟨S850000, .f32⟩ : BufTy).Contents (Elt F) → (⟨S850000, .f32⟩ : BufTy).Contents (Elt F)) ]

/-- Stage 12 (19 operations). Third convolution: gathered rows scaled and summed at the targets, and the bias: the result. -/
abbrev st12 : List (HloOp τ sig (Elt F)) :=
  [ StableHlo.nullary main_c_42 (constantI S_ 32 0#32),
    StableHlo.unary main_c_42 main_v177 (broadcastInDim S850000 ![] bcast_S_S850000 : (⟨S_, .i32⟩ : BufTy).Contents (Elt F) → (⟨S850000, .i32⟩ : BufTy).Contents (Elt F)),
    StableHlo.binary main_v148 main_v177 main_v178 (cmpi .slt : (⟨S850000, .i32⟩ : BufTy).Contents (Elt F) → (⟨S850000, .i32⟩ : BufTy).Contents (Elt F) → (⟨S850000, .i1⟩ : BufTy).Contents (Elt F)),
    StableHlo.nullary main_c_43 (constantI S_ 32 50000#32),
    StableHlo.unary main_c_43 main_v179 (broadcastInDim S850000 ![] bcast_S_S850000 : (⟨S_, .i32⟩ : BufTy).Contents (Elt F) → (⟨S850000, .i32⟩ : BufTy).Contents (Elt F)),
    StableHlo.binary main_v148 main_v179 main_v180 (addi : (⟨S850000, .i32⟩ : BufTy).Contents (Elt F) → (⟨S850000, .i32⟩ : BufTy).Contents (Elt F) → (⟨S850000, .i32⟩ : BufTy).Contents (Elt F)),
    StableHlo.ternary main_v178 main_v180 main_v148 main_v181 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v181 main_v182 (broadcastInDim S850000x1 ![0] bcast_S850000_S850000x1_0 : (⟨S850000, .i32⟩ : BufTy).Contents (Elt F) → (⟨S850000x1, .i32⟩ : BufTy).Contents (Elt F)),
    StableHlo.binary main_v146 main_v182 main_v183 ((fun x i => Host.gather gather_S50000x7_S850000x1_S850000x7_1_0_n_n_0_1_17 x i) : (⟨S50000x7, .f32⟩ : BufTy).Contents (Elt F) → (⟨S850000x1, .i32⟩ : BufTy).Contents (Elt F) → (⟨S850000x7, .f32⟩ : BufTy).Contents (Elt F)),
    StableHlo.unary main_v176 main_v184 (broadcastInDim S850000x1 ![0] bcast_S850000_S850000x1_0 : (⟨S850000, .f32⟩ : BufTy).Contents (Elt F) → (⟨S850000x1, .f32⟩ : BufTy).Contents (Elt F)),
    StableHlo.unary main_v184 main_v185 (broadcastInDim S850000x7 ![0, 1] bcast_S850000x1_S850000x7_0_1 : (⟨S850000x1, .f32⟩ : BufTy).Contents (Elt F) → (⟨S850000x7, .f32⟩ : BufTy).Contents (Elt F)),
    StableHlo.binary main_v183 main_v185 main_v186 (mulf : (⟨S850000x7, .f32⟩ : BufTy).Contents (Elt F) → (⟨S850000x7, .f32⟩ : BufTy).Contents (Elt F) → (⟨S850000x7, .f32⟩ : BufTy).Contents (Elt F)),
    StableHlo.nullary main_cst_44 (constant S_ .f32 0x00000000#32),
    StableHlo.unary main_cst_44 main_v187 (broadcastInDim S50000x7 ![] bcast_S_S50000x7 : (⟨S_, .f32⟩ : BufTy).Contents (Elt F) → (⟨S50000x7, .f32⟩ : BufTy).Contents (Elt F)),
    StableHlo.unary main_v149 main_v188 (broadcastInDim S850000x1 ![0] bcast_S850000_S850000x1_0 : (⟨S850000, .i32⟩ : BufTy).Contents (Elt F) → (⟨S850000x1, .i32⟩ : BufTy).Contents (Elt F)),
    StableHlo.ternary main_v187 main_v188 main_v186 main_v189 ((fun x i u => Host.scatterAdd scatter_S50000x7_S850000x1_S850000x7_1_0_0_1 x i u) : (⟨S50000x7, .f32⟩ : BufTy).Contents (Elt F) → (⟨S850000x1, .i32⟩ : BufTy).Contents (Elt F) → (⟨S850000x7, .f32⟩ : BufTy).Contents (Elt F) → (⟨S50000x7, .f32⟩ : BufTy).Contents (Elt F)),
    StableHlo.unary main_arg7 main_v190 (broadcastInDim S1x7 ![1] bcast_S7_S1x7_1 : (⟨S7, .f32⟩ : BufTy).Contents (Elt F) → (⟨S1x7, .f32⟩ : BufTy).Contents (Elt F)),
    StableHlo.unary main_v190 main_v191 (broadcastInDim S50000x7 ![0, 1] bcast_S1x7_S50000x7_0_1 : (⟨S1x7, .f32⟩ : BufTy).Contents (Elt F) → (⟨S50000x7, .f32⟩ : BufTy).Contents (Elt F)),
    StableHlo.binary main_v189 main_v191 main_v192 (addf : (⟨S50000x7, .f32⟩ : BufTy).Contents (Elt F) → (⟨S50000x7, .f32⟩ : BufTy).Contents (Elt F) → (⟨S50000x7, .f32⟩ : BufTy).Contents (Elt F)) ]

/-- @main's 275 operations, in order. -/
abbrev ops : List (HloOp τ sig (Elt F)) :=
  st0 ++ (st1 ++ (st2 ++ (st3 ++ (st4 ++ (st5 ++ (st6 ++ (st7 ++ (st8 ++ (st9 ++ (st10 ++ (st11 ++ (st12))))))))))))

set_option maxRecDepth 8192 in
set_option maxHeartbeats 4000000 in
/-- @main's window 0 is the straight line of stages 0 … 3, the called functions unfolded at their calls. -/
theorem main_part0_eq (c : Dev nD) :
    main_part0 (F := F) c = (seq st0 >>= fun _ => seq st1 >>= fun _ => seq st2 >>= fun _ => seq st3) := rfl

set_option maxRecDepth 8192 in
set_option maxHeartbeats 4000000 in
/-- @main's window 1 is the straight line of stages 4 … 6, the called functions unfolded at their calls. -/
theorem main_part1_eq (c : Dev nD) :
    main_part1 (F := F) c = (seq st4 >>= fun _ => seq st5 >>= fun _ => seq st6) := rfl

set_option maxRecDepth 8192 in
set_option maxHeartbeats 4000000 in
/-- @main's window 2 is the straight line of stages 7 … 9, the called functions unfolded at their calls. -/
theorem main_part2_eq (c : Dev nD) :
    main_part2 (F := F) c = (seq st7 >>= fun _ => seq st8 >>= fun _ => seq st9) := rfl

set_option maxRecDepth 8192 in
set_option maxHeartbeats 4000000 in
/-- @main's window 3 is the straight line of stages 10 … 12, the called functions unfolded at their calls. -/
theorem main_part3_eq (c : Dev nD) :
    main_part3 (F := F) c = (seq st10 >>= fun _ => seq st11 >>= fun _ => seq st12) := rfl

theorem main_part4_eq (c : Dev nD) : main_part4 (F := F) c = pure ⟨⟩ := rfl

set_option maxRecDepth 8192 in
/-- @main is the straight line of its operations: its windows in order, each the line of its stages. -/
theorem main_eq (c : Dev nD) : main (F := F) c = seq ops := by
  simp only [ops, seq_append, main, main_part0_eq, main_part1_eq, main_part2_eq, main_part3_eq, main_part4_eq, bind_assoc]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem st0_sub : (st0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
set_option maxRecDepth 8192 in
theorem st0_fresh : (st0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

set_option maxRecDepth 8192 in
theorem st1_sub : (st1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., binary_bufs_sub ..⟩
set_option maxRecDepth 8192 in
theorem st1_fresh : (st1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem st2_sub : (st2 : List (HloOp τ sig (Elt F))).Forall fun op => op.bufs ⊆ tcRefs τ sig :=
  ⟨nullary_bufs_sub .., binary_bufs_sub .., nullary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub ..⟩
set_option maxRecDepth 8192 in
theorem st2_fresh : (st2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

set_option maxRecDepth 8192 in
theorem st3_sub : (st3 : List (HloOp τ sig (Elt F))).Forall fun op => op.bufs ⊆ tcRefs τ sig :=
  ⟨unary_bufs_sub .., binary_bufs_sub .., nullary_bufs_sub .., binary_bufs_sub .., unary_bufs_sub .., unary_bufs_sub .., binary_bufs_sub .., nullary_bufs_sub .., unary_bufs_sub .., binary_bufs_sub ..⟩
set_option maxRecDepth 8192 in
theorem st3_fresh : (st3 : List (HloOp τ sig (Elt F))).Forall fun op => op.fresh = ∅ :=
  ⟨rfl, rfl, rfl, rfl, rfl, rfl, rfl, rfl, rfl, rfl⟩

set_option maxRecDepth 8192 in
theorem st4_sub : (st4 : List (HloOp τ sig (Elt F))).Forall fun op => op.bufs ⊆ tcRefs τ sig :=
  ⟨binary_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩
set_option maxRecDepth 8192 in
theorem st4_fresh : (st4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

set_option maxRecDepth 8192 in
theorem st5_sub : (st5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem st5_fresh : (st5 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

set_option maxRecDepth 8192 in
theorem st6_sub : (st6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
set_option maxRecDepth 8192 in
theorem st6_fresh : (st6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

set_option maxRecDepth 8192 in
theorem st7_sub : (st7 : List (HloOp τ sig (Elt F))).Forall fun op => op.bufs ⊆ tcRefs τ sig :=
  ⟨binary_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩
set_option maxRecDepth 8192 in
theorem st7_fresh : (st7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

set_option maxRecDepth 8192 in
theorem st8_sub : (st8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem st8_fresh : (st8 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

set_option maxRecDepth 8192 in
theorem st9_sub : (st9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
set_option maxRecDepth 8192 in
theorem st9_fresh : (st9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

set_option maxRecDepth 8192 in
theorem st10_sub : (st10 : List (HloOp τ sig (Elt F))).Forall fun op => op.bufs ⊆ tcRefs τ sig :=
  ⟨binary_bufs_sub .., binary_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩
set_option maxRecDepth 8192 in
theorem st10_fresh : (st10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

set_option maxRecDepth 8192 in
theorem st11_sub : (st11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem st11_fresh : (st11 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

set_option maxRecDepth 8192 in
theorem st12_sub : (st12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
set_option maxRecDepth 8192 in
theorem st12_fresh : (st12 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h
    exacts [List.forall_iff_forall_mem.mp st0_sub op h, List.forall_iff_forall_mem.mp st1_sub op h, List.forall_iff_forall_mem.mp st2_sub op h, List.forall_iff_forall_mem.mp st3_sub op h, List.forall_iff_forall_mem.mp st4_sub op h, List.forall_iff_forall_mem.mp st5_sub op h, List.forall_iff_forall_mem.mp st6_sub op h, List.forall_iff_forall_mem.mp st7_sub op h, List.forall_iff_forall_mem.mp st8_sub op h, List.forall_iff_forall_mem.mp st9_sub op h, List.forall_iff_forall_mem.mp st10_sub op h, List.forall_iff_forall_mem.mp st11_sub op h, List.forall_iff_forall_mem.mp st12_sub op h]

/-- Every operation determines its results. -/
theorem ops_fresh : ∀ op ∈ (ops : List (HloOp τ sig (Elt F))), op.fresh = ∅ := fun op h => by
  simp only [ops, List.mem_append] at h
  rcases h with h | h | h | h | h | h | h | h | h | h | h | h | h
  exacts [List.forall_iff_forall_mem.mp st0_fresh op h, List.forall_iff_forall_mem.mp st1_fresh op h, List.forall_iff_forall_mem.mp st2_fresh op h, List.forall_iff_forall_mem.mp st3_fresh op h, List.forall_iff_forall_mem.mp st4_fresh op h, List.forall_iff_forall_mem.mp st5_fresh op h, List.forall_iff_forall_mem.mp st6_fresh op h, List.forall_iff_forall_mem.mp st7_fresh op h, List.forall_iff_forall_mem.mp st8_fresh op h, List.forall_iff_forall_mem.mp st9_fresh op h, List.forall_iff_forall_mem.mp st10_fresh op h, List.forall_iff_forall_mem.mp st11_fresh op h, List.forall_iff_forall_mem.mp st12_fresh op h]

end Cert.ReferenceIdeal.RefRun

end
-- ==== Proof.RefFrame.lean ====
/-
  The reference program's run read back: every weakly fair execution of @main terminates with every TensorCore
  buffer at the fold of the operations' results over its launch contents; which buffers each stage writes, and
  that a buffer a stage does not write keeps its contents through it; the argument buffers, written by no
  operation, end as they began.
-/
import proofs.«109417_j84524956385822_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of
    @main terminates, and every TensorCore buffer ends at the fold of the operations' results over the launch
    contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold over two lines run one after the other is the fold over the second from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The fold over all the operations is the fold over the stages, one after the other. -/
theorem after_ops (V : Valuation τ sig (Elt F)) :
    after ops V = after st12 (after st11 (after st10 (after st9 (after st8 (after st7 (after st6 (after st5 (after st4 (after st3 (after st2 (after st1 (after st0 (V))))))))))))) := by
  simp only [ops, after_app]

/-- The buffers stage 0's operations write. -/
abbrev st0_W : List (Ref sig .tc) := [main_v0, main_v1, main_v2, main_v3, main_v4, main_v5, main_v6, main_v7, main_call0_cst, main_call0_v0, main_v8, main_v9, main_v10, main_v11, main_v12, main_call1_cst, main_call1_v0, main_v13, main_v14, main_v15, main_v16, main_v17]
set_option maxRecDepth 8192 in
theorem st0_writes : (st0 : List (HloOp τ sig (Elt F))).Forall fun op => op.writes ⊆ (st0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stage 0 does not write keeps its contents through it. -/
theorem st0_keep (V : Valuation τ sig (Elt F)) (r : Ref sig .tc) (h : r ∉ st0_W) :
    after st0 V (Proc.devRef .tc r) = V (Proc.devRef .tc r) :=
  after_of_writes_sub st0 V st0_writes h

/-- The buffers stage 1's operations write. -/
abbrev st1_W : List (Ref sig .tc) := [main_c, main_v18, main_v19, main_c_0, main_v20, main_v21, main_v22, main_v23, main_v24, main_c_1, main_v25, main_v26, main_c_2, main_v27, main_v28, main_v29, main_v30, main_v31, main_cst, main_v32, main_v33, main_call2_cst, main_call2_v0, main_v34, main_v35, main_v36, main_cst_3, main_v37]
set_option maxRecDepth 8192 in
theorem st1_writes : (st1 : List (HloOp τ sig (Elt F))).Forall fun op => op.writes ⊆ (st1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stage 1 does not write keeps its contents through it. -/
theorem st1_keep (V : Valuation τ sig (Elt F)) (r : Ref sig .tc) (h : r ∉ st1_W) :
    after st1 V (Proc.devRef .tc r) = V (Proc.devRef .tc r) :=
  after_of_writes_sub st1 V st1_writes h

/-- The buffers stage 2's operations write. -/
abbrev st2_W : List (Ref sig .tc) := [main_cst_4, main_v38, main_cst_5, main_v39, main_c_6, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_cst_3, main_call3_v11, main_call3_cst_4, main_call3_call0_v0, main_v40]
set_option maxRecDepth 8192 in
theorem st2_writes : (st2 : List (HloOp τ sig (Elt F))).Forall fun op => op.writes ⊆ (st2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stage 2 does not write keeps its contents through it. -/
theorem st2_keep (V : Valuation τ sig (Elt F)) (r : Ref sig .tc) (h : r ∉ st2_W) :
    after st2 V (Proc.devRef .tc r) = V (Proc.devRef .tc r) :=
  after_of_writes_sub st2 V st2_writes h

/-- The buffers stage 3's operations write. -/
abbrev st3_W : List (Ref sig .tc) := [main_v41, main_v42, main_cst_7, main_v43, main_v44, main_v45, main_v46, main_cst_8, main_v47, main_v48]
set_option maxRecDepth 8192 in
theorem st3_writes : (st3 : List (HloOp τ sig (Elt F))).Forall fun op => op.writes ⊆ (st3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stage 3 does not write keeps its contents through it. -/
theorem st3_keep (V : Valuation τ sig (Elt F)) (r : Ref sig .tc) (h : r ∉ st3_W) :
    after st3 V (Proc.devRef .tc r) = V (Proc.devRef .tc r) :=
  after_of_writes_sub st3 V st3_writes h

/-- The buffers stage 4's operations write. -/
abbrev st4_W : List (Ref sig .tc) := [main_v49, main_v50, main_v51, main_v52, main_cst_9, main_v53, main_v54, main_cst_10, main_v55, main_v56, main_v57, main_cst_11, main_v58, main_v59, main_cst_12, main_v60, main_v61, main_v62, main_cst_13, main_call4_v0, main_call4_v1, main_v63]
set_option maxRecDepth 8192 in
theorem st4_writes : (st4 : List (HloOp τ sig (Elt F))).Forall fun op => op.writes ⊆ (st4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stage 4 does not write keeps its contents through it. -/
theorem st4_keep (V : Valuation τ sig (Elt F)) (r : Ref sig .tc) (h : r ∉ st4_W) :
    after st4 V (Proc.devRef .tc r) = V (Proc.devRef .tc r) :=
  after_of_writes_sub st4 V st4_writes h

/-- The buffers stage 5's operations write. -/
abbrev st5_W : List (Ref sig .tc) := [main_c_14, main_v64, main_v65, main_c_15, main_v66, main_v67, main_v68, main_v69, main_v70, main_v71, main_c_16, main_v72, main_v73, main_c_17, main_v74, main_v75, main_v76, main_v77, main_v78, main_v79]
set_option maxRecDepth 8192 in
theorem st5_writes : (st5 : List (HloOp τ sig (Elt F))).Forall fun op => op.writes ⊆ (st5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stage 5 does not write keeps its contents through it. -/
theorem st5_keep (V : Valuation τ sig (Elt F)) (r : Ref sig .tc) (h : r ∉ st5_W) :
    after st5 V (Proc.devRef .tc r) = V (Proc.devRef .tc r) :=
  after_of_writes_sub st5 V st5_writes h

/-- The buffers stage 6's operations write. -/
abbrev st6_W : List (Ref sig .tc) := [main_c_18, main_v80, main_v81, main_c_19, main_v82, main_v83, main_v84, main_v85, main_v86, main_v87, main_v88, main_v89, main_cst_20, main_v90, main_v91, main_v92, main_v93, main_v94, main_v95, main_call5_cst, main_call5_v0, main_v96]
set_option maxRecDepth 8192 in
theorem st6_writes : (st6 : List (HloOp τ sig (Elt F))).Forall fun op => op.writes ⊆ (st6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stage 6 does not write keeps its contents through it. -/
theorem st6_keep (V : Valuation τ sig (Elt F)) (r : Ref sig .tc) (h : r ∉ st6_W) :
    after st6 V (Proc.devRef .tc r) = V (Proc.devRef .tc r) :=
  after_of_writes_sub st6 V st6_writes h

/-- The buffers stage 7's operations write. -/
abbrev st7_W : List (Ref sig .tc) := [main_v97, main_v98, main_v99, main_v100, main_cst_21, main_v101, main_v102, main_cst_22, main_v103, main_v104, main_v105, main_cst_23, main_v106, main_v107, main_cst_24, main_v108, main_v109, main_v110, main_cst_25, main_call6_v0, main_call6_v1, main_v111]
set_option maxRecDepth 8192 in
theorem st7_writes : (st7 : List (HloOp τ sig (Elt F))).Forall fun op => op.writes ⊆ (st7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stage 7 does not write keeps its contents through it. -/
theorem st7_keep (V : Valuation τ sig (Elt F)) (r : Ref sig .tc) (h : r ∉ st7_W) :
    after st7 V (Proc.devRef .tc r) = V (Proc.devRef .tc r) :=
  after_of_writes_sub st7 V st7_writes h

/-- The buffers stage 8's operations write. -/
abbrev st8_W : List (Ref sig .tc) := [main_c_26, main_v112, main_v113, main_c_27, main_v114, main_v115, main_v116, main_v117, main_v118, main_v119, main_c_28, main_v120, main_v121, main_c_29, main_v122, main_v123, main_v124, main_v125, main_v126, main_v127]
set_option maxRecDepth 8192 in
theorem st8_writes : (st8 : List (HloOp τ sig (Elt F))).Forall fun op => op.writes ⊆ (st8_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stage 8 does not write keeps its contents through it. -/
theorem st8_keep (V : Valuation τ sig (Elt F)) (r : Ref sig .tc) (h : r ∉ st8_W) :
    after st8 V (Proc.devRef .tc r) = V (Proc.devRef .tc r) :=
  after_of_writes_sub st8 V st8_writes h

/-- The buffers stage 9's operations write. -/
abbrev st9_W : List (Ref sig .tc) := [main_c_30, main_v128, main_v129, main_c_31, main_v130, main_v131, main_v132, main_v133, main_v134, main_v135, main_v136, main_v137, main_cst_32, main_v138, main_v139, main_v140, main_v141, main_v142, main_v143, main_call7_cst, main_call7_v0, main_v144]
set_option maxRecDepth 8192 in
theorem st9_writes : (st9 : List (HloOp τ sig (Elt F))).Forall fun op => op.writes ⊆ (st9_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stage 9 does not write keeps its contents through it. -/
theorem st9_keep (V : Valuation τ sig (Elt F)) (r : Ref sig .tc) (h : r ∉ st9_W) :
    after st9 V (Proc.devRef .tc r) = V (Proc.devRef .tc r) :=
  after_of_writes_sub st9 V st9_writes h

/-- The buffers stage 10's operations write. -/
abbrev st10_W : List (Ref sig .tc) := [main_v145, main_v146, main_v147, main_v148, main_v149, main_cst_33, main_v150, main_v151, main_cst_34, main_v152, main_v153, main_v154, main_cst_35, main_v155, main_v156, main_cst_36, main_v157, main_v158, main_v159, main_cst_37, main_call8_v0, main_call8_v1, main_v160]
set_option maxRecDepth 8192 in
theorem st10_writes : (st10 : List (HloOp τ sig (Elt F))).Forall fun op => op.writes ⊆ (st10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stage 10 does not write keeps its contents through it. -/
theorem st10_keep (V : Valuation τ sig (Elt F)) (r : Ref sig .tc) (h : r ∉ st10_W) :
    after st10 V (Proc.devRef .tc r) = V (Proc.devRef .tc r) :=
  after_of_writes_sub st10 V st10_writes h

/-- The buffers stage 11's operations write. -/
abbrev st11_W : List (Ref sig .tc) := [main_c_38, main_v161, main_v162, main_c_39, main_v163, main_v164, main_v165, main_v166, main_v167, main_v168, main_c_40, main_v169, main_v170, main_c_41, main_v171, main_v172, main_v173, main_v174, main_v175, main_v176]
set_option maxRecDepth 8192 in
theorem st11_writes : (st11 : List (HloOp τ sig (Elt F))).Forall fun op => op.writes ⊆ (st11_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stage 11 does not write keeps its contents through it. -/
theorem st11_keep (V : Valuation τ sig (Elt F)) (r : Ref sig .tc) (h : r ∉ st11_W) :
    after st11 V (Proc.devRef .tc r) = V (Proc.devRef .tc r) :=
  after_of_writes_sub st11 V st11_writes h

/-- The buffers stage 12's operations write. -/
abbrev st12_W : List (Ref sig .tc) := [main_c_42, main_v177, main_v178, main_c_43, main_v179, main_v180, main_v181, main_v182, main_v183, main_v184, main_v185, main_v186, main_cst_44, main_v187, main_v188, main_v189, main_v190, main_v191, main_v192]
set_option maxRecDepth 8192 in
theorem st12_writes : (st12 : List (HloOp τ sig (Elt F))).Forall fun op => op.writes ⊆ (st12_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stage 12 does not write keeps its contents through it. -/
theorem st12_keep (V : Valuation τ sig (Elt F)) (r : Ref sig .tc) (h : r ∉ st12_W) :
    after st12 V (Proc.devRef .tc r) = V (Proc.devRef .tc r) :=
  after_of_writes_sub st12 V st12_writes h

/-- The argument buffers. -/
abbrev argRefs : List (Ref sig .tc) := [main_arg0, main_arg1, main_arg2, main_arg3, main_arg4, main_arg5, main_arg6, main_arg7, main_arg8, main_arg9, main_arg10, main_arg11, main_arg12, main_arg13, main_arg14]
theorem st0_args : ∀ r ∈ argRefs, r ∉ st0_W := by decide
theorem st1_args : ∀ r ∈ argRefs, r ∉ st1_W := by decide
theorem st2_args : ∀ r ∈ argRefs, r ∉ st2_W := by decide
theorem st3_args : ∀ r ∈ argRefs, r ∉ st3_W := by decide
theorem st4_args : ∀ r ∈ argRefs, r ∉ st4_W := by decide
theorem st5_args : ∀ r ∈ argRefs, r ∉ st5_W := by decide
theorem st6_args : ∀ r ∈ argRefs, r ∉ st6_W := by decide
theorem st7_args : ∀ r ∈ argRefs, r ∉ st7_W := by decide
theorem st8_args : ∀ r ∈ argRefs, r ∉ st8_W := by decide
theorem st9_args : ∀ r ∈ argRefs, r ∉ st9_W := by decide
theorem st10_args : ∀ r ∈ argRefs, r ∉ st10_W := by decide
theorem st11_args : ∀ r ∈ argRefs, r ∉ st11_W := by decide
theorem st12_args : ∀ r ∈ argRefs, r ∉ st12_W := by decide

/-- An argument buffer, written by no operation, keeps its contents through the whole line. -/
theorem after_ops_arg (V : Valuation τ sig (Elt F)) (r : Ref sig .tc) (h : r ∈ argRefs) :
    after ops V (Proc.devRef .tc r) = V (Proc.devRef .tc r) := by
  rw [after_ops, st12_keep _ r (st12_args r h), st11_keep _ r (st11_args r h), st10_keep _ r (st10_args r h), st9_keep _ r (st9_args r h), st8_keep _ r (st8_args r h), st7_keep _ r (st7_args r h), st6_keep _ r (st6_args r h), st5_keep _ r (st5_args r h), st4_keep _ r (st4_args r h), st3_keep _ r (st3_args r h), st2_keep _ r (st2_args r h), st1_keep _ r (st1_args r h), st0_keep _ r (st0_args r h)]

/-- @main runs (terminates, no fault) and its argument arrays end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_arg0).trans (after_ops_arg _ main_arg0 (by decide)),
      (h c main_arg1).trans (after_ops_arg _ main_arg1 (by decide)),
      (h c main_arg2).trans (after_ops_arg _ main_arg2 (by decide)),
      (h c main_arg3).trans (after_ops_arg _ main_arg3 (by decide)),
      (h c main_arg4).trans (after_ops_arg _ main_arg4 (by decide)),
      (h c main_arg5).trans (after_ops_arg _ main_arg5 (by decide)),
      (h c main_arg6).trans (after_ops_arg _ main_arg6 (by decide)),
      (h c main_arg7).trans (after_ops_arg _ main_arg7 (by decide)),
      (h c main_arg8).trans (after_ops_arg _ main_arg8 (by decide)),
      (h c main_arg9).trans (after_ops_arg _ main_arg9 (by decide)),
      (h c main_arg10).trans (after_ops_arg _ main_arg10 (by decide)),
      (h c main_arg11).trans (after_ops_arg _ main_arg11 (by decide)),
      (h c main_arg12).trans (after_ops_arg _ main_arg12 (by decide)),
      (h c main_arg13).trans (after_ops_arg _ main_arg13 (by decide)),
      (h c main_arg14).trans (after_ops_arg _ main_arg14 (by decide))⟩)
    (run_raw m ρ)

end Cert.ReferenceIdeal.RefRun

end
-- ==== Proof.RefVal0.lean ====
/-
  What the reference's stage 0 leaves in the buffers later stages read — the edge list's rows and the logits — as the
  specification's functions of the buffers read, on the extended reals, from any contents.
-/
import proofs.«109417_j84524956385822_2_alg».proof.Proof.RefOps
import proofs.«109417_j84524956385822_2_alg».proof.Proof.Spec

noncomputable section

namespace Cert.ReferenceIdeal.RefRun

open Cert.ReferenceIdeal Cert.ReferenceIdeal.Gen Cert.Gcn Idealize.ShloMosaic Idealize.ShloMosaic.TcCoe Idealize.SL.Sem Idealize.ShloMosaic.StableHlo

set_option maxRecDepth 8192 in
set_option maxHeartbeats 4000000 in
theorem res0_v1 (V : Valuation τ sig (Elt Ideal)) :
    after st0 V (Proc.devRef .tc main_v1) = Spec.row (V (Proc.devRef .tc main_arg1)) := by
  simp only [st0]
  after_results_simp
  rfl

set_option maxRecDepth 8192 in
set_option maxHeartbeats 4000000 in
theorem res0_v3 (V : Valuation τ sig (Elt Ideal)) :
    after st0 V (Proc.devRef .tc main_v3) = Spec.col (V (Proc.devRef .tc main_arg1)) := by
  simp only [st0]
  after_results_simp
  rfl

set_option maxRecDepth 8192 in
set_option maxHeartbeats 4000000 in
theorem res0_v17 (V : Valuation τ sig (Elt Ideal)) :
    after st0 V (Proc.devRef .tc main_v17) = Spec.logits (Spec.h2 (Spec.h1 (V (Proc.devRef .tc main_arg0)) (V (Proc.devRef .tc main_arg8)) (V (Proc.devRef .tc main_arg9))) (V (Proc.devRef .tc main_arg10)) (V (Proc.devRef .tc main_arg11))) (V (Proc.devRef .tc main_arg12)) (V (Proc.devRef .tc main_arg13)) := by
  simp only [st0]
  after_results_simp
  rfl

end Cert.ReferenceIdeal.RefRun

end
-- ==== Proof.RefVal1.lean ====
/-
  What the reference's stage 1 leaves in the buffers later stages read — the edges' raw weights — as the
  specification's functions of the buffers read, on the extended reals, from any contents.
-/
import proofs.«109417_j84524956385822_2_alg».proof.Proof.RefOps
import proofs.«109417_j84524956385822_2_alg».proof.Proof.Spec

noncomputable section

namespace Cert.ReferenceIdeal.RefRun

open Cert.ReferenceIdeal Cert.ReferenceIdeal.Gen Cert.Gcn Idealize.ShloMosaic Idealize.ShloMosaic.TcCoe Idealize.SL.Sem Idealize.ShloMosaic.StableHlo

set_option maxRecDepth 8192 in
set_option maxHeartbeats 4000000 in
theorem res1_v37 (V : Valuation τ sig (Elt Ideal)) :
    after st1 V (Proc.devRef .tc main_v37) = Spec.ewraw (V (Proc.devRef .tc main_v17)) (Spec.pars (V (Proc.devRef .tc main_arg14))) (V (Proc.devRef .tc main_v1)) (V (Proc.devRef .tc main_v3)) := by
  simp only [st1]
  after_results_simp
  rfl

end Cert.ReferenceIdeal.RefRun

end
-- ==== Proof.RefVal2.lean ====
/-
  What the reference's stages 2, 3 leave in the buffers later stages read — the edge weights — as the
  specification's functions of the buffers read, on the extended reals, from any contents.
-/
import proofs.«109417_j84524956385822_2_alg».proof.Proof.RefOps
import proofs.«109417_j84524956385822_2_alg».proof.Proof.Spec

noncomputable section

namespace Cert.ReferenceIdeal.RefRun

open Cert.ReferenceIdeal Cert.ReferenceIdeal.Gen Cert.Gcn Idealize.ShloMosaic Idealize.ShloMosaic.TcCoe Idealize.SL.Sem Idealize.ShloMosaic.StableHlo

set_option maxRecDepth 8192 in
set_option maxHeartbeats 4000000 in
theorem res2_v48 (V : Valuation τ sig (Elt Ideal)) :
    after st3 (after st2 (V)) (Proc.devRef .tc main_v48) = Spec.ew (V (Proc.devRef .tc main_v37)) := by
  simp only [st2, st3]
  after_results_simp
  rfl

end Cert.ReferenceIdeal.RefRun

end
-- ==== Proof.RefVal3.lean ====
/-
  What the reference's stages 4, 5 leave in the buffers later stages read — the first convolution's linear image, endpoints with self loops and normalised weights — as the
  specification's functions of the buffers read, on the extended reals, from any contents.
-/
import proofs.«109417_j84524956385822_2_alg».proof.Proof.RefOps
import proofs.«109417_j84524956385822_2_alg».proof.Proof.Spec

noncomputable section

namespace Cert.ReferenceIdeal.RefRun

open Cert.ReferenceIdeal Cert.ReferenceIdeal.Gen Cert.Gcn Idealize.ShloMosaic Idealize.ShloMosaic.TcCoe Idealize.SL.Sem Idealize.ShloMosaic.StableHlo

set_option maxRecDepth 8192 in
set_option maxHeartbeats 4000000 in
theorem res3_v49 (V : Valuation τ sig (Elt Ideal)) :
    after st5 (after st4 (V)) (Proc.devRef .tc main_v49) = Spec.lin1 (V (Proc.devRef .tc main_arg0)) (V (Proc.devRef .tc main_arg2)) := by
  simp only [st4, st5]
  after_results_simp
  rfl

set_option maxRecDepth 8192 in
set_option maxHeartbeats 4000000 in
theorem res3_v51 (V : Valuation τ sig (Elt Ideal)) :
    after st5 (after st4 (V)) (Proc.devRef .tc main_v51) = Spec.loops (V (Proc.devRef .tc main_v1)) := by
  simp only [st4, st5]
  after_results_simp
  rfl

set_option maxRecDepth 8192 in
set_option maxHeartbeats 4000000 in
theorem res3_v52 (V : Valuation τ sig (Elt Ideal)) :
    after st5 (after st4 (V)) (Proc.devRef .tc main_v52) = Spec.loops (V (Proc.devRef .tc main_v3)) := by
  simp only [st4, st5]
  after_results_simp
  rfl

set_option maxRecDepth 8192 in
set_option maxHeartbeats 4000000 in
theorem res3_v79 (V : Valuation τ sig (Elt Ideal)) :
    after st5 (after st4 (V)) (Proc.devRef .tc main_v79) = Spec.norm (Spec.eaug (V (Proc.devRef .tc main_v48))) (Spec.loops (V (Proc.devRef .tc main_v1))) (Spec.loops (V (Proc.devRef .tc main_v3))) := by
  simp only [st4, st5]
  after_results_simp
  rfl

end Cert.ReferenceIdeal.RefRun

end
-- ==== Proof.RefVal4.lean ====
/-
  What the reference's stage 6 leaves in the buffers later stages read — the first convolution and its rectifier — as the
  specification's functions of the buffers read, on the extended reals, from any contents.
-/
import proofs.«109417_j84524956385822_2_alg».proof.Proof.RefOps
import proofs.«109417_j84524956385822_2_alg».proof.Proof.Spec

noncomputable section

namespace Cert.ReferenceIdeal.RefRun

open Cert.ReferenceIdeal Cert.ReferenceIdeal.Gen Cert.Gcn Idealize.ShloMosaic Idealize.ShloMosaic.TcCoe Idealize.SL.Sem Idealize.ShloMosaic.StableHlo

set_option maxRecDepth 8192 in
set_option maxHeartbeats 4000000 in
theorem res4_v95 (V : Valuation τ sig (Elt Ideal)) :
    after st6 V (Proc.devRef .tc main_v95) = Spec.conv256 (V (Proc.devRef .tc main_v49)) (V (Proc.devRef .tc main_v79)) (V (Proc.devRef .tc main_v51)) (V (Proc.devRef .tc main_v52)) (V (Proc.devRef .tc main_arg3)) := by
  simp only [st6]
  after_results_simp
  rfl

set_option maxRecDepth 8192 in
set_option maxHeartbeats 4000000 in
theorem res4_v96 (V : Valuation τ sig (Elt Ideal)) :
    after st6 V (Proc.devRef .tc main_v96) = Spec.relu256 (Spec.conv256 (V (Proc.devRef .tc main_v49)) (V (Proc.devRef .tc main_v79)) (V (Proc.devRef .tc main_v51)) (V (Proc.devRef .tc main_v52)) (V (Proc.devRef .tc main_arg3))) := by
  simp only [st6]
  after_results_simp
  rfl

end Cert.ReferenceIdeal.RefRun

end
-- ==== Proof.RefVal5.lean ====
/-
  What the reference's stages 7, 8 leave in the buffers later stages read — the second convolution's linear image, endpoints with self loops and normalised weights — as the
  specification's functions of the buffers read, on the extended reals, from any contents.
-/
import proofs.«109417_j84524956385822_2_alg».proof.Proof.RefOps
import proofs.«109417_j84524956385822_2_alg».proof.Proof.Spec

noncomputable section

namespace Cert.ReferenceIdeal.RefRun

open Cert.ReferenceIdeal Cert.ReferenceIdeal.Gen Cert.Gcn Idealize.ShloMosaic Idealize.ShloMosaic.TcCoe Idealize.SL.Sem Idealize.ShloMosaic.StableHlo

set_option maxRecDepth 8192 in
set_option maxHeartbeats 4000000 in
theorem res5_v97 (V : Valuation τ sig (Elt Ideal)) :
    after st8 (after st7 (V)) (Proc.devRef .tc main_v97) = Spec.lin2 (V (Proc.devRef .tc main_v96)) (V (Proc.devRef .tc main_arg4)) := by
  simp only [st7, st8]
  after_results_simp
  rfl

set_option maxRecDepth 8192 in
set_option maxHeartbeats 4000000 in
theorem res5_v99 (V : Valuation τ sig (Elt Ideal)) :
    after st8 (after st7 (V)) (Proc.devRef .tc main_v99) = Spec.loops (V (Proc.devRef .tc main_v1)) := by
  simp only [st7, st8]
  after_results_simp
  rfl

set_option maxRecDepth 8192 in
set_option maxHeartbeats 4000000 in
theorem res5_v100 (V : Valuation τ sig (Elt Ideal)) :
    after st8 (after st7 (V)) (Proc.devRef .tc main_v100) = Spec.loops (V (Proc.devRef .tc main_v3)) := by
  simp only [st7, st8]
  after_results_simp
  rfl

set_option maxRecDepth 8192 in
set_option maxHeartbeats 4000000 in
theorem res5_v127 (V : Valuation τ sig (Elt Ideal)) :
    after st8 (after st7 (V)) (Proc.devRef .tc main_v127) = Spec.norm (Spec.eaug (V (Proc.devRef .tc main_v48))) (Spec.loops (V (Proc.devRef .tc main_v1))) (Spec.loops (V (Proc.devRef .tc main_v3))) := by
  simp only [st7, st8]
  after_results_simp
  rfl

end Cert.ReferenceIdeal.RefRun

end
-- ==== Proof.RefVal6.lean ====
/-
  What the reference's stage 9 leaves in the buffers later stages read — the second convolution, rectified — as the
  specification's functions of the buffers read, on the extended reals, from any contents.
-/
import proofs.«109417_j84524956385822_2_alg».proof.Proof.RefOps
import proofs.«109417_j84524956385822_2_alg».proof.Proof.Spec

noncomputable section

namespace Cert.ReferenceIdeal.RefRun

open Cert.ReferenceIdeal Cert.ReferenceIdeal.Gen Cert.Gcn Idealize.ShloMosaic Idealize.ShloMosaic.TcCoe Idealize.SL.Sem Idealize.ShloMosaic.StableHlo

set_option maxRecDepth 8192 in
set_option maxHeartbeats 4000000 in
theorem res6_v144 (V : Valuation τ sig (Elt Ideal)) :
    after st9 V (Proc.devRef .tc main_v144) = Spec.relu256 (Spec.conv256 (V (Proc.devRef .tc main_v97)) (V (Proc.devRef .tc main_v127)) (V (Proc.devRef .tc main_v99)) (V (Proc.devRef .tc main_v100)) (V (Proc.devRef .tc main_arg5))) := by
  simp only [st9]
  after_results_simp
  rfl

end Cert.ReferenceIdeal.RefRun

end
-- ==== Proof.RefVal7.lean ====
/-
  What the reference's stages 10, 11 leave in the buffers later stages read — the third linear image of the residual sum, the endpoints with self loops and the normalised weights — as the
  specification's functions of the buffers read, on the extended reals, from any contents.
-/
import proofs.«109417_j84524956385822_2_alg».proof.Proof.RefOps
import proofs.«109417_j84524956385822_2_alg».proof.Proof.Spec

noncomputable section

namespace Cert.ReferenceIdeal.RefRun

open Cert.ReferenceIdeal Cert.ReferenceIdeal.Gen Cert.Gcn Idealize.ShloMosaic Idealize.ShloMosaic.TcCoe Idealize.SL.Sem Idealize.ShloMosaic.StableHlo

set_option maxRecDepth 8192 in
set_option maxHeartbeats 4000000 in
theorem res7_v146 (V : Valuation τ sig (Elt Ideal)) :
    after st11 (after st10 (V)) (Proc.devRef .tc main_v146) = Spec.lin3 (addf (V (Proc.devRef .tc main_v144)) (V (Proc.devRef .tc main_v95))) (V (Proc.devRef .tc main_arg6)) := by
  simp only [st10, st11]
  after_results_simp
  rfl

set_option maxRecDepth 8192 in
set_option maxHeartbeats 4000000 in
theorem res7_v148 (V : Valuation τ sig (Elt Ideal)) :
    after st11 (after st10 (V)) (Proc.devRef .tc main_v148) = Spec.loops (V (Proc.devRef .tc main_v1)) := by
  simp only [st10, st11]
  after_results_simp
  rfl

set_option maxRecDepth 8192 in
set_option maxHeartbeats 4000000 in
theorem res7_v149 (V : Valuation τ sig (Elt Ideal)) :
    after st11 (after st10 (V)) (Proc.devRef .tc main_v149) = Spec.loops (V (Proc.devRef .tc main_v3)) := by
  simp only [st10, st11]
  after_results_simp
  rfl

set_option maxRecDepth 8192 in
set_option maxHeartbeats 4000000 in
theorem res7_v176 (V : Valuation τ sig (Elt Ideal)) :
    after st11 (after st10 (V)) (Proc.devRef .tc main_v176) = Spec.norm (Spec.eaug (V (Proc.devRef .tc main_v48))) (Spec.loops (V (Proc.devRef .tc main_v1))) (Spec.loops (V (Proc.devRef .tc main_v3))) := by
  simp only [st10, st11]
  after_results_simp
  rfl

end Cert.ReferenceIdeal.RefRun

end
-- ==== Proof.RefVal8.lean ====
/-
  What the reference's stage 12 leaves in the buffers later stages read — the third convolution: the result — as the
  specification's functions of the buffers read, on the extended reals, from any contents.
-/
import proofs.«109417_j84524956385822_2_alg».proof.Proof.RefOps
import proofs.«109417_j84524956385822_2_alg».proof.Proof.Spec

noncomputable section

namespace Cert.ReferenceIdeal.RefRun

open Cert.ReferenceIdeal Cert.ReferenceIdeal.Gen Cert.Gcn Idealize.ShloMosaic Idealize.ShloMosaic.TcCoe Idealize.SL.Sem Idealize.ShloMosaic.StableHlo

set_option maxRecDepth 8192 in
set_option maxHeartbeats 4000000 in
theorem res8_v192 (V : Valuation τ sig (Elt Ideal)) :
    after st12 V (Proc.devRef .tc main_v192) = Spec.conv7 (V (Proc.devRef .tc main_v146)) (V (Proc.devRef .tc main_v176)) (V (Proc.devRef .tc main_v148)) (V (Proc.devRef .tc main_v149)) (V (Proc.devRef .tc main_arg7)) := by
  simp only [st12]
  after_results_simp
  rfl

end Cert.ReferenceIdeal.RefRun

end
-- ==== Proof.RefValue.lean ====
/-
  The reference's run against the specification. The contents at the boundaries between the stages, from any
  launch contents; what each buffer a later stage reads holds there, as the specification's named values of the
  argument arrays; the result buffer after the whole line; and the run: every weakly fair execution terminates
  with the result at the specification's output of the arguments, the arguments unchanged.
-/
import proofs.«109417_j84524956385822_2_alg».proof.Proof.RefFrame
import proofs.«109417_j84524956385822_2_alg».proof.Proof.RefVal0
import proofs.«109417_j84524956385822_2_alg».proof.Proof.RefVal1
import proofs.«109417_j84524956385822_2_alg».proof.Proof.RefVal2
import proofs.«109417_j84524956385822_2_alg».proof.Proof.RefVal3
import proofs.«109417_j84524956385822_2_alg».proof.Proof.RefVal4
import proofs.«109417_j84524956385822_2_alg».proof.Proof.RefVal5
import proofs.«109417_j84524956385822_2_alg».proof.Proof.RefVal6
import proofs.«109417_j84524956385822_2_alg».proof.Proof.RefVal7
import proofs.«109417_j84524956385822_2_alg».proof.Proof.RefVal8

noncomputable section

namespace Cert.ReferenceIdeal.RefRun

open Cert.ReferenceIdeal Cert.ReferenceIdeal.Gen Cert.Gcn Idealize.ShloMosaic Idealize.ShloMosaic.TcCoe Idealize.SL.Sem Idealize.ShloMosaic.StableHlo

/-! ## The specification's named values of the argument arrays -/

namespace E
/-- The edges' sources. -/
def row (V0 : Valuation τ sig (Elt Ideal)) : Spec.Iv S800000 := Spec.row (V0 (Proc.devRef .tc main_arg1))
/-- The edges' targets. -/
def col (V0 : Valuation τ sig (Elt Ideal)) : Spec.Iv S800000 := Spec.col (V0 (Proc.devRef .tc main_arg1))
/-- The nodes' logits. -/
def lg (V0 : Valuation τ sig (Elt Ideal)) : Spec.Fv S50000x7 := Spec.logits (Spec.h2 (Spec.h1 (V0 (Proc.devRef .tc main_arg0)) (V0 (Proc.devRef .tc main_arg8)) (V0 (Proc.devRef .tc main_arg9))) (V0 (Proc.devRef .tc main_arg10)) (V0 (Proc.devRef .tc main_arg11))) (V0 (Proc.devRef .tc main_arg12)) (V0 (Proc.devRef .tc main_arg13))
/-- The edges' raw weights. -/
def wraw (V0 : Valuation τ sig (Elt Ideal)) : Spec.Fv S800000 := Spec.ewraw (lg V0) (Spec.pars (V0 (Proc.devRef .tc main_arg14))) (row V0) (col V0)
/-- The edge weights. -/
def w (V0 : Valuation τ sig (Elt Ideal)) : Spec.Fv S800000 := Spec.ew (wraw V0)
/-- The sources with the self loops. -/
def r (V0 : Valuation τ sig (Elt Ideal)) : Spec.Iv S850000 := Spec.loops (row V0)
/-- The targets with the self loops. -/
def c (V0 : Valuation τ sig (Elt Ideal)) : Spec.Iv S850000 := Spec.loops (col V0)
/-- The normalised weights. -/
def nm (V0 : Valuation τ sig (Elt Ideal)) : Spec.Fv S850000 := Spec.norm (Spec.eaug (w V0)) (r V0) (c V0)
/-- The first linear image. -/
def hl0 (V0 : Valuation τ sig (Elt Ideal)) : Spec.Fv S50000x256 := Spec.lin1 (V0 (Proc.devRef .tc main_arg0)) (V0 (Proc.devRef .tc main_arg2))
/-- The first convolution. -/
def h0 (V0 : Valuation τ sig (Elt Ideal)) : Spec.Fv S50000x256 := Spec.conv256 (hl0 V0) (nm V0) (r V0) (c V0) (V0 (Proc.devRef .tc main_arg3))
/-- The first convolution, rectified. -/
def p0 (V0 : Valuation τ sig (Elt Ideal)) : Spec.Fv S50000x256 := Spec.relu256 (h0 V0)
/-- The second linear image. -/
def hl1 (V0 : Valuation τ sig (Elt Ideal)) : Spec.Fv S50000x256 := Spec.lin2 (p0 V0) (V0 (Proc.devRef .tc main_arg4))
/-- The second convolution, rectified. -/
def p1 (V0 : Valuation τ sig (Elt Ideal)) : Spec.Fv S50000x256 := Spec.relu256 (Spec.conv256 (hl1 V0) (nm V0) (r V0) (c V0) (V0 (Proc.devRef .tc main_arg5)))
/-- The third linear image, of the residual sum. -/
def hl2 (V0 : Valuation τ sig (Elt Ideal)) : Spec.Fv S50000x7 := Spec.lin3 (addf (p1 V0) (h0 V0)) (V0 (Proc.devRef .tc main_arg6))
/-- The third convolution: the network's output. -/
def out (V0 : Valuation τ sig (Elt Ideal)) : Spec.Fv S50000x7 := Spec.conv7 (hl2 V0) (nm V0) (r V0) (c V0) (V0 (Proc.devRef .tc main_arg7))
end E

/-! ## The contents at the stage boundaries -/

/-- The contents before the first stage. -/
def B0 (V0 : Valuation τ sig (Elt Ideal)) : Valuation τ sig (Elt Ideal) := V0
/-- The contents after stage 0. -/
def B1 (V0 : Valuation τ sig (Elt Ideal)) : Valuation τ sig (Elt Ideal) := after st0 (B0 V0)
/-- The contents after stage 1. -/
def B2 (V0 : Valuation τ sig (Elt Ideal)) : Valuation τ sig (Elt Ideal) := after st1 (B1 V0)
/-- The contents after stages 2, 3. -/
def B3 (V0 : Valuation τ sig (Elt Ideal)) : Valuation τ sig (Elt Ideal) := after st3 (after st2 (B2 V0))
/-- The contents after stages 4, 5. -/
def B4 (V0 : Valuation τ sig (Elt Ideal)) : Valuation τ sig (Elt Ideal) := after st5 (after st4 (B3 V0))
/-- The contents after stage 6. -/
def B5 (V0 : Valuation τ sig (Elt Ideal)) : Valuation τ sig (Elt Ideal) := after st6 (B4 V0)
/-- The contents after stages 7, 8. -/
def B6 (V0 : Valuation τ sig (Elt Ideal)) : Valuation τ sig (Elt Ideal) := after st8 (after st7 (B5 V0))
/-- The contents after stage 9. -/
def B7 (V0 : Valuation τ sig (Elt Ideal)) : Valuation τ sig (Elt Ideal) := after st9 (B6 V0)
/-- The contents after stages 10, 11. -/
def B8 (V0 : Valuation τ sig (Elt Ideal)) : Valuation τ sig (Elt Ideal) := after st11 (after st10 (B7 V0))
/-- The contents after stage 12. -/
def B9 (V0 : Valuation τ sig (Elt Ideal)) : Valuation τ sig (Elt Ideal) := after st12 (B8 V0)

/-- The whole line ends at the last boundary. -/
theorem after_ops_B (V0 : Valuation τ sig (Elt Ideal)) : after ops V0 = B9 V0 := after_ops V0

theorem B0_arg (V0 : Valuation τ sig (Elt Ideal)) (r : Ref sig .tc) (h : r ∈ argRefs) : B0 V0 (Proc.devRef .tc r) = V0 (Proc.devRef .tc r) := rfl
theorem B1_arg (V0 : Valuation τ sig (Elt Ideal)) (r : Ref sig .tc) (h : r ∈ argRefs) : B1 V0 (Proc.devRef .tc r) = V0 (Proc.devRef .tc r) := by
  unfold B1; rw [st0_keep _ r (st0_args r h)]; exact B0_arg V0 r h
theorem B2_arg (V0 : Valuation τ sig (Elt Ideal)) (r : Ref sig .tc) (h : r ∈ argRefs) : B2 V0 (Proc.devRef .tc r) = V0 (Proc.devRef .tc r) := by
  unfold B2; rw [st1_keep _ r (st1_args r h)]; exact B1_arg V0 r h
theorem B3_arg (V0 : Valuation τ sig (Elt Ideal)) (r : Ref sig .tc) (h : r ∈ argRefs) : B3 V0 (Proc.devRef .tc r) = V0 (Proc.devRef .tc r) := by
  unfold B3; rw [st3_keep _ r (st3_args r h), st2_keep _ r (st2_args r h)]; exact B2_arg V0 r h
theorem B4_arg (V0 : Valuation τ sig (Elt Ideal)) (r : Ref sig .tc) (h : r ∈ argRefs) : B4 V0 (Proc.devRef .tc r) = V0 (Proc.devRef .tc r) := by
  unfold B4; rw [st5_keep _ r (st5_args r h), st4_keep _ r (st4_args r h)]; exact B3_arg V0 r h
theorem B5_arg (V0 : Valuation τ sig (Elt Ideal)) (r : Ref sig .tc) (h : r ∈ argRefs) : B5 V0 (Proc.devRef .tc r) = V0 (Proc.devRef .tc r) := by
  unfold B5; rw [st6_keep _ r (st6_args r h)]; exact B4_arg V0 r h
theorem B6_arg (V0 : Valuation τ sig (Elt Ideal)) (r : Ref sig .tc) (h : r ∈ argRefs) : B6 V0 (Proc.devRef .tc r) = V0 (Proc.devRef .tc r) := by
  unfold B6; rw [st8_keep _ r (st8_args r h), st7_keep _ r (st7_args r h)]; exact B5_arg V0 r h
theorem B7_arg (V0 : Valuation τ sig (Elt Ideal)) (r : Ref sig .tc) (h : r ∈ argRefs) : B7 V0 (Proc.devRef .tc r) = V0 (Proc.devRef .tc r) := by
  unfold B7; rw [st9_keep _ r (st9_args r h)]; exact B6_arg V0 r h
theorem B8_arg (V0 : Valuation τ sig (Elt Ideal)) (r : Ref sig .tc) (h : r ∈ argRefs) : B8 V0 (Proc.devRef .tc r) = V0 (Proc.devRef .tc r) := by
  unfold B8; rw [st11_keep _ r (st11_args r h), st10_keep _ r (st10_args r h)]; exact B7_arg V0 r h
theorem B9_arg (V0 : Valuation τ sig (Elt Ideal)) (r : Ref sig .tc) (h : r ∈ argRefs) : B9 V0 (Proc.devRef .tc r) = V0 (Proc.devRef .tc r) := by
  unfold B9; rw [st12_keep _ r (st12_args r h)]; exact B8_arg V0 r h

/-! ## What the live buffers hold at each boundary -/

theorem at1_v1 (V0 : Valuation τ sig (Elt Ideal)) : B1 V0 (Proc.devRef .tc main_v1) = E.row V0 := by
  unfold B1
  rw [res0_v1, B0_arg V0 main_arg1 (by decide)]
  first | done | rfl

theorem at1_v17 (V0 : Valuation τ sig (Elt Ideal)) : B1 V0 (Proc.devRef .tc main_v17) = E.lg V0 := by
  unfold B1
  rw [res0_v17, B0_arg V0 main_arg0 (by decide), B0_arg V0 main_arg8 (by decide), B0_arg V0 main_arg9 (by decide), B0_arg V0 main_arg10 (by decide), B0_arg V0 main_arg11 (by decide), B0_arg V0 main_arg12 (by decide), B0_arg V0 main_arg13 (by decide)]
  first | done | rfl

theorem at1_v3 (V0 : Valuation τ sig (Elt Ideal)) : B1 V0 (Proc.devRef .tc main_v3) = E.col V0 := by
  unfold B1
  rw [res0_v3, B0_arg V0 main_arg1 (by decide)]
  first | done | rfl

theorem at2_v37 (V0 : Valuation τ sig (Elt Ideal)) : B2 V0 (Proc.devRef .tc main_v37) = E.wraw V0 := by
  unfold B2
  rw [res1_v37, at1_v17 V0, B1_arg V0 main_arg14 (by decide), at1_v1 V0, at1_v3 V0]
  first | done | rfl

theorem at2_v1 (V0 : Valuation τ sig (Elt Ideal)) : B2 V0 (Proc.devRef .tc main_v1) = E.row V0 := by
  unfold B2
  rw [st1_keep _ main_v1 (by decide)]
  exact at1_v1 V0

theorem at2_v3 (V0 : Valuation τ sig (Elt Ideal)) : B2 V0 (Proc.devRef .tc main_v3) = E.col V0 := by
  unfold B2
  rw [st1_keep _ main_v3 (by decide)]
  exact at1_v3 V0

theorem at3_v1 (V0 : Valuation τ sig (Elt Ideal)) : B3 V0 (Proc.devRef .tc main_v1) = E.row V0 := by
  unfold B3
  rw [st3_keep _ main_v1 (by decide), st2_keep _ main_v1 (by decide)]
  exact at2_v1 V0

theorem at3_v3 (V0 : Valuation τ sig (Elt Ideal)) : B3 V0 (Proc.devRef .tc main_v3) = E.col V0 := by
  unfold B3
  rw [st3_keep _ main_v3 (by decide), st2_keep _ main_v3 (by decide)]
  exact at2_v3 V0

theorem at3_v48 (V0 : Valuation τ sig (Elt Ideal)) : B3 V0 (Proc.devRef .tc main_v48) = E.w V0 := by
  unfold B3
  rw [res2_v48, at2_v37 V0]
  first | done | rfl

theorem at4_v51 (V0 : Valuation τ sig (Elt Ideal)) : B4 V0 (Proc.devRef .tc main_v51) = E.r V0 := by
  unfold B4
  rw [res3_v51, at3_v1 V0]
  first | done | rfl

theorem at4_v49 (V0 : Valuation τ sig (Elt Ideal)) : B4 V0 (Proc.devRef .tc main_v49) = E.hl0 V0 := by
  unfold B4
  rw [res3_v49, B3_arg V0 main_arg0 (by decide), B3_arg V0 main_arg2 (by decide)]
  first | done | rfl

theorem at4_v79 (V0 : Valuation τ sig (Elt Ideal)) : B4 V0 (Proc.devRef .tc main_v79) = E.nm V0 := by
  unfold B4
  rw [res3_v79, at3_v48 V0, at3_v1 V0, at3_v3 V0]
  first | done | rfl

theorem at4_v52 (V0 : Valuation τ sig (Elt Ideal)) : B4 V0 (Proc.devRef .tc main_v52) = E.c V0 := by
  unfold B4
  rw [res3_v52, at3_v3 V0]
  first | done | rfl

theorem at4_v1 (V0 : Valuation τ sig (Elt Ideal)) : B4 V0 (Proc.devRef .tc main_v1) = E.row V0 := by
  unfold B4
  rw [st5_keep _ main_v1 (by decide), st4_keep _ main_v1 (by decide)]
  exact at3_v1 V0

theorem at4_v3 (V0 : Valuation τ sig (Elt Ideal)) : B4 V0 (Proc.devRef .tc main_v3) = E.col V0 := by
  unfold B4
  rw [st5_keep _ main_v3 (by decide), st4_keep _ main_v3 (by decide)]
  exact at3_v3 V0

theorem at4_v48 (V0 : Valuation τ sig (Elt Ideal)) : B4 V0 (Proc.devRef .tc main_v48) = E.w V0 := by
  unfold B4
  rw [st5_keep _ main_v48 (by decide), st4_keep _ main_v48 (by decide)]
  exact at3_v48 V0

theorem at5_v96 (V0 : Valuation τ sig (Elt Ideal)) : B5 V0 (Proc.devRef .tc main_v96) = E.p0 V0 := by
  unfold B5
  rw [res4_v96, at4_v49 V0, at4_v79 V0, at4_v51 V0, at4_v52 V0, B4_arg V0 main_arg3 (by decide)]
  first | done | rfl

theorem at5_v1 (V0 : Valuation τ sig (Elt Ideal)) : B5 V0 (Proc.devRef .tc main_v1) = E.row V0 := by
  unfold B5
  rw [st6_keep _ main_v1 (by decide)]
  exact at4_v1 V0

theorem at5_v3 (V0 : Valuation τ sig (Elt Ideal)) : B5 V0 (Proc.devRef .tc main_v3) = E.col V0 := by
  unfold B5
  rw [st6_keep _ main_v3 (by decide)]
  exact at4_v3 V0

theorem at5_v48 (V0 : Valuation τ sig (Elt Ideal)) : B5 V0 (Proc.devRef .tc main_v48) = E.w V0 := by
  unfold B5
  rw [st6_keep _ main_v48 (by decide)]
  exact at4_v48 V0

theorem at5_v95 (V0 : Valuation τ sig (Elt Ideal)) : B5 V0 (Proc.devRef .tc main_v95) = E.h0 V0 := by
  unfold B5
  rw [res4_v95, at4_v49 V0, at4_v79 V0, at4_v51 V0, at4_v52 V0, B4_arg V0 main_arg3 (by decide)]
  first | done | rfl

theorem at6_v99 (V0 : Valuation τ sig (Elt Ideal)) : B6 V0 (Proc.devRef .tc main_v99) = E.r V0 := by
  unfold B6
  rw [res5_v99, at5_v1 V0]
  first | done | rfl

theorem at6_v97 (V0 : Valuation τ sig (Elt Ideal)) : B6 V0 (Proc.devRef .tc main_v97) = E.hl1 V0 := by
  unfold B6
  rw [res5_v97, at5_v96 V0, B5_arg V0 main_arg4 (by decide)]
  first | done | rfl

theorem at6_v127 (V0 : Valuation τ sig (Elt Ideal)) : B6 V0 (Proc.devRef .tc main_v127) = E.nm V0 := by
  unfold B6
  rw [res5_v127, at5_v48 V0, at5_v1 V0, at5_v3 V0]
  first | done | rfl

theorem at6_v100 (V0 : Valuation τ sig (Elt Ideal)) : B6 V0 (Proc.devRef .tc main_v100) = E.c V0 := by
  unfold B6
  rw [res5_v100, at5_v3 V0]
  first | done | rfl

theorem at6_v95 (V0 : Valuation τ sig (Elt Ideal)) : B6 V0 (Proc.devRef .tc main_v95) = E.h0 V0 := by
  unfold B6
  rw [st8_keep _ main_v95 (by decide), st7_keep _ main_v95 (by decide)]
  exact at5_v95 V0

theorem at6_v1 (V0 : Valuation τ sig (Elt Ideal)) : B6 V0 (Proc.devRef .tc main_v1) = E.row V0 := by
  unfold B6
  rw [st8_keep _ main_v1 (by decide), st7_keep _ main_v1 (by decide)]
  exact at5_v1 V0

theorem at6_v3 (V0 : Valuation τ sig (Elt Ideal)) : B6 V0 (Proc.devRef .tc main_v3) = E.col V0 := by
  unfold B6
  rw [st8_keep _ main_v3 (by decide), st7_keep _ main_v3 (by decide)]
  exact at5_v3 V0

theorem at6_v48 (V0 : Valuation τ sig (Elt Ideal)) : B6 V0 (Proc.devRef .tc main_v48) = E.w V0 := by
  unfold B6
  rw [st8_keep _ main_v48 (by decide), st7_keep _ main_v48 (by decide)]
  exact at5_v48 V0

theorem at7_v144 (V0 : Valuation τ sig (Elt Ideal)) : B7 V0 (Proc.devRef .tc main_v144) = E.p1 V0 := by
  unfold B7
  rw [res6_v144, at6_v97 V0, at6_v127 V0, at6_v99 V0, at6_v100 V0, B6_arg V0 main_arg5 (by decide)]
  first | done | rfl

theorem at7_v95 (V0 : Valuation τ sig (Elt Ideal)) : B7 V0 (Proc.devRef .tc main_v95) = E.h0 V0 := by
  unfold B7
  rw [st9_keep _ main_v95 (by decide)]
  exact at6_v95 V0

theorem at7_v1 (V0 : Valuation τ sig (Elt Ideal)) : B7 V0 (Proc.devRef .tc main_v1) = E.row V0 := by
  unfold B7
  rw [st9_keep _ main_v1 (by decide)]
  exact at6_v1 V0

theorem at7_v3 (V0 : Valuation τ sig (Elt Ideal)) : B7 V0 (Proc.devRef .tc main_v3) = E.col V0 := by
  unfold B7
  rw [st9_keep _ main_v3 (by decide)]
  exact at6_v3 V0

theorem at7_v48 (V0 : Valuation τ sig (Elt Ideal)) : B7 V0 (Proc.devRef .tc main_v48) = E.w V0 := by
  unfold B7
  rw [st9_keep _ main_v48 (by decide)]
  exact at6_v48 V0

theorem at8_v148 (V0 : Valuation τ sig (Elt Ideal)) : B8 V0 (Proc.devRef .tc main_v148) = E.r V0 := by
  unfold B8
  rw [res7_v148, at7_v1 V0]
  first | done | rfl

theorem at8_v146 (V0 : Valuation τ sig (Elt Ideal)) : B8 V0 (Proc.devRef .tc main_v146) = E.hl2 V0 := by
  unfold B8
  rw [res7_v146, at7_v144 V0, at7_v95 V0, B7_arg V0 main_arg6 (by decide)]
  first | done | rfl

theorem at8_v176 (V0 : Valuation τ sig (Elt Ideal)) : B8 V0 (Proc.devRef .tc main_v176) = E.nm V0 := by
  unfold B8
  rw [res7_v176, at7_v48 V0, at7_v1 V0, at7_v3 V0]
  first | done | rfl

theorem at8_v149 (V0 : Valuation τ sig (Elt Ideal)) : B8 V0 (Proc.devRef .tc main_v149) = E.c V0 := by
  unfold B8
  rw [res7_v149, at7_v3 V0]
  first | done | rfl

theorem at9_v192 (V0 : Valuation τ sig (Elt Ideal)) : B9 V0 (Proc.devRef .tc main_v192) = E.out V0 := by
  unfold B9
  rw [res8_v192, at8_v146 V0, at8_v176 V0, at8_v148 V0, at8_v149 V0, B8_arg V0 main_arg7 (by decide)]
  first | done | rfl

/-! ## The result -/

/-- The named output is the specification's network of the argument arrays. -/
theorem E_out (V0 : Valuation τ sig (Elt Ideal)) : E.out V0 = Spec.out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  unfold E.out E.hl2 E.p1 E.hl1 E.p0 E.h0 E.hl0 E.nm E.r E.c E.w E.wraw E.lg E.row E.col Spec.out Spec.layers Spec.weights
  rfl

/-- After the whole line the result buffer holds the specification's network of the argument arrays. -/
theorem value (V0 : Valuation τ sig (Elt Ideal)) :
    after ops V0 (Proc.devRef .tc main_v192) = Spec.out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  rw [after_ops_B, at9_v192, E_out]

/-- On every device, on the extended reals, from any memory with zero counters: every weakly fair execution of
    @main terminates with the result at the specification's network of the argument arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v192) = Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v192).trans (value (launchContents m c)),
      (h c main_arg0).trans (after_ops_arg _ main_arg0 (by decide)),
      (h c main_arg1).trans (after_ops_arg _ main_arg1 (by decide)),
      (h c main_arg2).trans (after_ops_arg _ main_arg2 (by decide)),
      (h c main_arg3).trans (after_ops_arg _ main_arg3 (by decide)),
      (h c main_arg4).trans (after_ops_arg _ main_arg4 (by decide)),
      (h c main_arg5).trans (after_ops_arg _ main_arg5 (by decide)),
      (h c main_arg6).trans (after_ops_arg _ main_arg6 (by decide)),
      (h c main_arg7).trans (after_ops_arg _ main_arg7 (by decide)),
      (h c main_arg8).trans (after_ops_arg _ main_arg8 (by decide)),
      (h c main_arg9).trans (after_ops_arg _ main_arg9 (by decide)),
      (h c main_arg10).trans (after_ops_arg _ main_arg10 (by decide)),
      (h c main_arg11).trans (after_ops_arg _ main_arg11 (by decide)),
      (h c main_arg12).trans (after_ops_arg _ main_arg12 (by decide)),
      (h c main_arg13).trans (after_ops_arg _ main_arg13 (by decide)),
      (h c main_arg14).trans (after_ops_arg _ main_arg14 (by decide))⟩)
    (run_raw m ρ)

end Cert.ReferenceIdeal.RefRun

end
-- ==== Proof.KTools.lean ====
/-
  Bookkeeping for reading the kernel program's buffers between its segments. A buffer that a host stretch does
  not write holds after the stretch what it held before; a buffer that is no output of a kernel region holds after
  the region what it held before, and so does an input array of the region (it is read, never written). Carrying
  a buffer back through the boundaries in this way ends at the boundary right after the segment that wrote it —
  or, for an argument array, at the launch memory.
-/
import proofs.«109417_j84524956385822_2_alg».proof.Proof.Gen.KernelIdeal.Frame

noncomputable section

namespace Cert.KernelIdeal.KVal

open Cert.KernelIdeal Cert.KernelIdeal.Gen Idealize.ShloMosaic

variable {F : FTy → Type} [FloatOps F]
variable (m : (ℓ : Loc nD τ sig) → Buf (Elt F) ℓ) (ρ : Dev nD → PrngReg) (c : Dev nD)

/-- A buffer that no operation of the stretch writes holds after it what it held before. -/
theorem keep25 (b : Ref sig .tc) (hb : ∀ op ∈ (hostOps9 : List (HloOp τ sig (Elt F))), Proc.devRef .tc b ∉ op.writes) :
    W25 m ρ c (Proc.devRef .tc b) = W24 m ρ c (Proc.devRef .tc b) := StableHlo.after_of_forall_not_mem _ _ hb

/-- An input array of the region holds after it what it held before. -/
theorem in24_0 : W24 m ρ c (Proc.devRef .tc main_v117) = W23 m ρ c (Proc.devRef .tc main_v117) :=
  (W24_arr m ρ c 0).trans (((dat8 (V23 m ρ) c).arrAt_in 0 rfl _).trans (A_eq8 (V23 m ρ) c 0))

/-- An input array of the region holds after it what it held before. -/
theorem in24_1 : W24 m ρ c (Proc.devRef .tc main_arg6) = W23 m ρ c (Proc.devRef .tc main_arg6) :=
  (W24_arr m ρ c 1).trans (((dat8 (V23 m ρ) c).arrAt_in 1 rfl _).trans (A_eq8 (V23 m ρ) c 1))

/-- An input array of the region holds after it what it held before. -/
theorem in24_2 : W24 m ρ c (Proc.devRef .tc main_v119) = W23 m ρ c (Proc.devRef .tc main_v119) :=
  (W24_arr m ρ c 2).trans (((dat8 (V23 m ρ) c).arrAt_in 2 rfl _).trans (A_eq8 (V23 m ρ) c 2))

/-- A buffer that no operation of the stretch writes holds after it what it held before. -/
theorem keep23 (b : Ref sig .tc) (hb : ∀ op ∈ (hostOps8 : List (HloOp τ sig (Elt F))), Proc.devRef .tc b ∉ op.writes) :
    W23 m ρ c (Proc.devRef .tc b) = W22 m ρ c (Proc.devRef .tc b) := StableHlo.after_of_forall_not_mem _ _ hb

/-- An input array of the region holds after it what it held before. -/
theorem in22_0 : W22 m ρ c (Proc.devRef .tc main_v116) = W21 m ρ c (Proc.devRef .tc main_v116) :=
  (W22_arr m ρ c 0).trans (((dat7 (V21 m ρ) c).arrAt_in 0 rfl _).trans (A_eq7 (V21 m ρ) c 0))

/-- An input array of the region holds after it what it held before. -/
theorem in22_1 : W22 m ρ c (Proc.devRef .tc main_v95) = W21 m ρ c (Proc.devRef .tc main_v95) :=
  (W22_arr m ρ c 1).trans (((dat7 (V21 m ρ) c).arrAt_in 1 rfl _).trans (A_eq7 (V21 m ρ) c 1))

/-- A buffer that no operation of the stretch writes holds after it what it held before. -/
theorem keep21 (b : Ref sig .tc) (hb : ∀ op ∈ (hostOps7 : List (HloOp τ sig (Elt F))), Proc.devRef .tc b ∉ op.writes) :
    W21 m ρ c (Proc.devRef .tc b) = W20 m ρ c (Proc.devRef .tc b) := StableHlo.after_of_forall_not_mem _ _ hb

/-- An input array of the region holds after it what it held before. -/
theorem in20_0 : W20 m ρ c (Proc.devRef .tc main_v95) = W19 m ρ c (Proc.devRef .tc main_v95) :=
  (W20_arr m ρ c 0).trans (((dat6 (V19 m ρ) c).arrAt_in 0 rfl _).trans (A_eq6 (V19 m ρ) c 0))

/-- An input array of the region holds after it what it held before. -/
theorem in20_1 : W20 m ρ c (Proc.devRef .tc main_arg4) = W19 m ρ c (Proc.devRef .tc main_arg4) :=
  (W20_arr m ρ c 1).trans (((dat6 (V19 m ρ) c).arrAt_in 1 rfl _).trans (A_eq6 (V19 m ρ) c 1))

/-- An input array of the region holds after it what it held before. -/
theorem in20_2 : W20 m ρ c (Proc.devRef .tc main_v97) = W19 m ρ c (Proc.devRef .tc main_v97) :=
  (W20_arr m ρ c 2).trans (((dat6 (V19 m ρ) c).arrAt_in 2 rfl _).trans (A_eq6 (V19 m ρ) c 2))

/-- A buffer that no operation of the stretch writes holds after it what it held before. -/
theorem keep19 (b : Ref sig .tc) (hb : ∀ op ∈ (hostOps6 : List (HloOp τ sig (Elt F))), Proc.devRef .tc b ∉ op.writes) :
    W19 m ρ c (Proc.devRef .tc b) = W18 m ρ c (Proc.devRef .tc b) := StableHlo.after_of_forall_not_mem _ _ hb

/-- An input array of the region holds after it what it held before. -/
theorem in18_0 : W18 m ρ c (Proc.devRef .tc main_arg0) = W17 m ρ c (Proc.devRef .tc main_arg0) :=
  (W18_arr m ρ c 0).trans (((dat5 (V17 m ρ) c).arrAt_in 0 rfl _).trans (A_eq5 (V17 m ρ) c 0))

/-- An input array of the region holds after it what it held before. -/
theorem in18_1 : W18 m ρ c (Proc.devRef .tc main_arg2) = W17 m ρ c (Proc.devRef .tc main_arg2) :=
  (W18_arr m ρ c 1).trans (((dat5 (V17 m ρ) c).arrAt_in 1 rfl _).trans (A_eq5 (V17 m ρ) c 1))

/-- An input array of the region holds after it what it held before. -/
theorem in18_2 : W18 m ρ c (Proc.devRef .tc main_v76) = W17 m ρ c (Proc.devRef .tc main_v76) :=
  (W18_arr m ρ c 2).trans (((dat5 (V17 m ρ) c).arrAt_in 2 rfl _).trans (A_eq5 (V17 m ρ) c 2))

/-- A buffer that no operation of the stretch writes holds after it what it held before. -/
theorem keep17 (b : Ref sig .tc) (hb : ∀ op ∈ (hostOps5_4 : List (HloOp τ sig (Elt F))), Proc.devRef .tc b ∉ op.writes) :
    W17 m ρ c (Proc.devRef .tc b) = W16 m ρ c (Proc.devRef .tc b) := StableHlo.after_of_forall_not_mem _ _ hb

/-- A buffer that no operation of the stretch writes holds after it what it held before. -/
theorem keep16 (b : Ref sig .tc) (hb : ∀ op ∈ (hostOps5_3 : List (HloOp τ sig (Elt F))), Proc.devRef .tc b ∉ op.writes) :
    W16 m ρ c (Proc.devRef .tc b) = W15 m ρ c (Proc.devRef .tc b) := StableHlo.after_of_forall_not_mem _ _ hb

/-- A buffer that no operation of the stretch writes holds after it what it held before. -/
theorem keep15 (b : Ref sig .tc) (hb : ∀ op ∈ (hostOps5_2 : List (HloOp τ sig (Elt F))), Proc.devRef .tc b ∉ op.writes) :
    W15 m ρ c (Proc.devRef .tc b) = W14 m ρ c (Proc.devRef .tc b) := StableHlo.after_of_forall_not_mem _ _ hb

/-- A buffer that no operation of the stretch writes holds after it what it held before. -/
theorem keep14 (b : Ref sig .tc) (hb : ∀ op ∈ (hostOps5_1 : List (HloOp τ sig (Elt F))), Proc.devRef .tc b ∉ op.writes) :
    W14 m ρ c (Proc.devRef .tc b) = W13 m ρ c (Proc.devRef .tc b) := StableHlo.after_of_forall_not_mem _ _ hb

/-- A buffer that no operation of the stretch writes holds after it what it held before. -/
theorem keep13 (b : Ref sig .tc) (hb : ∀ op ∈ (hostOps5 : List (HloOp τ sig (Elt F))), Proc.devRef .tc b ∉ op.writes) :
    W13 m ρ c (Proc.devRef .tc b) = W12 m ρ c (Proc.devRef .tc b) := StableHlo.after_of_forall_not_mem _ _ hb

/-- An input array of the region holds after it what it held before. -/
theorem in12_0 : W12 m ρ c (Proc.devRef .tc main_v24) = W11 m ρ c (Proc.devRef .tc main_v24) :=
  (W12_arr m ρ c 0).trans (((dat4 (V11 m ρ) c).arrAt_in 0 rfl _).trans (A_eq4 (V11 m ρ) c 0))

/-- An input array of the region holds after it what it held before. -/
theorem in12_1 : W12 m ρ c (Proc.devRef .tc main_v31) = W11 m ρ c (Proc.devRef .tc main_v31) :=
  (W12_arr m ρ c 1).trans (((dat4 (V11 m ρ) c).arrAt_in 1 rfl _).trans (A_eq4 (V11 m ρ) c 1))

/-- A buffer that no operation of the stretch writes holds after it what it held before. -/
theorem keep11 (b : Ref sig .tc) (hb : ∀ op ∈ (hostOps4 : List (HloOp τ sig (Elt F))), Proc.devRef .tc b ∉ op.writes) :
    W11 m ρ c (Proc.devRef .tc b) = W10 m ρ c (Proc.devRef .tc b) := StableHlo.after_of_forall_not_mem _ _ hb

/-- An input array of the region holds after it what it held before. -/
theorem in10_0 : W10 m ρ c (Proc.devRef .tc main_v9) = W9 m ρ c (Proc.devRef .tc main_v9) :=
  (W10_arr m ρ c 0).trans (((dat3 (V9 m ρ) c).arrAt_in 0 rfl _).trans (A_eq3 (V9 m ρ) c 0))

/-- An input array of the region holds after it what it held before. -/
theorem in10_1 : W10 m ρ c (Proc.devRef .tc main_v12) = W9 m ρ c (Proc.devRef .tc main_v12) :=
  (W10_arr m ρ c 1).trans (((dat3 (V9 m ρ) c).arrAt_in 1 rfl _).trans (A_eq3 (V9 m ρ) c 1))

/-- An input array of the region holds after it what it held before. -/
theorem in10_2 : W10 m ρ c (Proc.devRef .tc main_v14) = W9 m ρ c (Proc.devRef .tc main_v14) :=
  (W10_arr m ρ c 2).trans (((dat3 (V9 m ρ) c).arrAt_in 2 rfl _).trans (A_eq3 (V9 m ρ) c 2))

/-- A buffer that no operation of the stretch writes holds after it what it held before. -/
theorem keep9 (b : Ref sig .tc) (hb : ∀ op ∈ (hostOps3_2 : List (HloOp τ sig (Elt F))), Proc.devRef .tc b ∉ op.writes) :
    W9 m ρ c (Proc.devRef .tc b) = W8 m ρ c (Proc.devRef .tc b) := StableHlo.after_of_forall_not_mem _ _ hb

/-- A buffer that no operation of the stretch writes holds after it what it held before. -/
theorem keep8 (b : Ref sig .tc) (hb : ∀ op ∈ (hostOps3_1 : List (HloOp τ sig (Elt F))), Proc.devRef .tc b ∉ op.writes) :
    W8 m ρ c (Proc.devRef .tc b) = W7 m ρ c (Proc.devRef .tc b) := StableHlo.after_of_forall_not_mem _ _ hb

/-- A buffer that no operation of the stretch writes holds after it what it held before. -/
theorem keep7 (b : Ref sig .tc) (hb : ∀ op ∈ (hostOps3 : List (HloOp τ sig (Elt F))), Proc.devRef .tc b ∉ op.writes) :
    W7 m ρ c (Proc.devRef .tc b) = W6 m ρ c (Proc.devRef .tc b) := StableHlo.after_of_forall_not_mem _ _ hb

/-- An input array of the region holds after it what it held before. -/
theorem in6_0 : W6 m ρ c (Proc.devRef .tc main_v7) = W5 m ρ c (Proc.devRef .tc main_v7) :=
  (W6_arr m ρ c 0).trans (((dat2 (V5 m ρ) c).arrAt_in 0 rfl _).trans (A_eq2 (V5 m ρ) c 0))

/-- An input array of the region holds after it what it held before. -/
theorem in6_1 : W6 m ρ c (Proc.devRef .tc main_arg12) = W5 m ρ c (Proc.devRef .tc main_arg12) :=
  (W6_arr m ρ c 1).trans (((dat2 (V5 m ρ) c).arrAt_in 1 rfl _).trans (A_eq2 (V5 m ρ) c 1))

/-- An input array of the region holds after it what it held before. -/
theorem in6_2 : W6 m ρ c (Proc.devRef .tc main_v8) = W5 m ρ c (Proc.devRef .tc main_v8) :=
  (W6_arr m ρ c 2).trans (((dat2 (V5 m ρ) c).arrAt_in 2 rfl _).trans (A_eq2 (V5 m ρ) c 2))

/-- A buffer that no operation of the stretch writes holds after it what it held before. -/
theorem keep5 (b : Ref sig .tc) (hb : ∀ op ∈ (hostOps2 : List (HloOp τ sig (Elt F))), Proc.devRef .tc b ∉ op.writes) :
    W5 m ρ c (Proc.devRef .tc b) = W4 m ρ c (Proc.devRef .tc b) := StableHlo.after_of_forall_not_mem _ _ hb

/-- An input array of the region holds after it what it held before. -/
theorem in4_0 : W4 m ρ c (Proc.devRef .tc main_v5) = W3 m ρ c (Proc.devRef .tc main_v5) :=
  (W4_arr m ρ c 0).trans (((dat1 (V3 m ρ) c).arrAt_in 0 rfl _).trans (A_eq1 (V3 m ρ) c 0))

/-- An input array of the region holds after it what it held before. -/
theorem in4_1 : W4 m ρ c (Proc.devRef .tc main_arg10) = W3 m ρ c (Proc.devRef .tc main_arg10) :=
  (W4_arr m ρ c 1).trans (((dat1 (V3 m ρ) c).arrAt_in 1 rfl _).trans (A_eq1 (V3 m ρ) c 1))

/-- An input array of the region holds after it what it held before. -/
theorem in4_2 : W4 m ρ c (Proc.devRef .tc main_v6) = W3 m ρ c (Proc.devRef .tc main_v6) :=
  (W4_arr m ρ c 2).trans (((dat1 (V3 m ρ) c).arrAt_in 2 rfl _).trans (A_eq1 (V3 m ρ) c 2))

/-- A buffer that no operation of the stretch writes holds after it what it held before. -/
theorem keep3 (b : Ref sig .tc) (hb : ∀ op ∈ (hostOps1 : List (HloOp τ sig (Elt F))), Proc.devRef .tc b ∉ op.writes) :
    W3 m ρ c (Proc.devRef .tc b) = W2 m ρ c (Proc.devRef .tc b) := StableHlo.after_of_forall_not_mem _ _ hb

/-- An input array of the region holds after it what it held before. -/
theorem in2_0 : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))

/-- An input array of the region holds after it what it held before. -/
theorem in2_1 : W2 m ρ c (Proc.devRef .tc main_arg8) = W1 m ρ c (Proc.devRef .tc main_arg8) :=
  (W2_arr m ρ c 1).trans (((dat0 (V1 m ρ) c).arrAt_in 1 rfl _).trans (A_eq0 (V1 m ρ) c 1))

/-- An input array of the region holds after it what it held before. -/
theorem in2_2 : W2 m ρ c (Proc.devRef .tc main_v4) = W1 m ρ c (Proc.devRef .tc main_v4) :=
  (W2_arr m ρ c 2).trans (((dat0 (V1 m ρ) c).arrAt_in 2 rfl _).trans (A_eq0 (V1 m ρ) c 2))

/-- A buffer that no operation of the stretch writes holds after it what it held before. -/
theorem keep1 (b : Ref sig .tc) (hb : ∀ op ∈ (hostOps0 : List (HloOp τ sig (Elt F))), Proc.devRef .tc b ∉ op.writes) :
    W1 m ρ c (Proc.devRef .tc b) = W0 m ρ c (Proc.devRef .tc b) := StableHlo.after_of_forall_not_mem _ _ hb

/-- No operation of a literal stretch writes the buffer: operation by operation, the references differ. -/
macro "keep_side" : tactic => `(tactic| focus (
    refine List.forall_iff_forall_mem.mp ?_
    simp only [hostOps0, hostOps1, hostOps2, hostOps3, hostOps3_1, hostOps3_2, hostOps4, hostOps5, hostOps5_1, hostOps5_2,
      hostOps5_3, hostOps5_4, hostOps6, hostOps7, hostOps8, hostOps9, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (refine StableHlo.devRef_ne_of_ne ?_; decide)))

set_option hygiene false in
/-- Carry every read of the buffer `b` in the goal back, boundary by boundary, to where it was written
    (the context's `m`, `ρ`, `c` name the launch memory, the generator registers and the core). -/
macro "carry " b:term : tactic => `(tactic| (
  try (rw [keep25 m ρ c $b]; rotate_left; keep_side)
  try (rw [W24_of_ne m ρ c $b]; rotate_left; decide)
  try rw [in24_0 m ρ c]
  try rw [in24_1 m ρ c]
  try rw [in24_2 m ρ c]
  try (rw [keep23 m ρ c $b]; rotate_left; keep_side)
  try (rw [W22_of_ne m ρ c $b]; rotate_left; decide)
  try rw [in22_0 m ρ c]
  try rw [in22_1 m ρ c]
  try (rw [keep21 m ρ c $b]; rotate_left; keep_side)
  try (rw [W20_of_ne m ρ c $b]; rotate_left; decide)
  try rw [in20_0 m ρ c]
  try rw [in20_1 m ρ c]
  try rw [in20_2 m ρ c]
  try (rw [keep19 m ρ c $b]; rotate_left; keep_side)
  try (rw [W18_of_ne m ρ c $b]; rotate_left; decide)
  try rw [in18_0 m ρ c]
  try rw [in18_1 m ρ c]
  try rw [in18_2 m ρ c]
  try (rw [keep17 m ρ c $b]; rotate_left; keep_side)
  try (rw [keep16 m ρ c $b]; rotate_left; keep_side)
  try (rw [keep15 m ρ c $b]; rotate_left; keep_side)
  try (rw [keep14 m ρ c $b]; rotate_left; keep_side)
  try (rw [keep13 m ρ c $b]; rotate_left; keep_side)
  try (rw [W12_of_ne m ρ c $b]; rotate_left; decide)
  try rw [in12_0 m ρ c]
  try rw [in12_1 m ρ c]
  try (rw [keep11 m ρ c $b]; rotate_left; keep_side)
  try (rw [W10_of_ne m ρ c $b]; rotate_left; decide)
  try rw [in10_0 m ρ c]
  try rw [in10_1 m ρ c]
  try rw [in10_2 m ρ c]
  try (rw [keep9 m ρ c $b]; rotate_left; keep_side)
  try (rw [keep8 m ρ c $b]; rotate_left; keep_side)
  try (rw [keep7 m ρ c $b]; rotate_left; keep_side)
  try (rw [W6_of_ne m ρ c $b]; rotate_left; decide)
  try rw [in6_0 m ρ c]
  try rw [in6_1 m ρ c]
  try rw [in6_2 m ρ c]
  try (rw [keep5 m ρ c $b]; rotate_left; keep_side)
  try (rw [W4_of_ne m ρ c $b]; rotate_left; decide)
  try rw [in4_0 m ρ c]
  try rw [in4_1 m ρ c]
  try rw [in4_2 m ρ c]
  try (rw [keep3 m ρ c $b]; rotate_left; keep_side)
  try (rw [W2_of_ne m ρ c $b]; rotate_left; decide)
  try rw [in2_0 m ρ c]
  try rw [in2_1 m ρ c]
  try rw [in2_2 m ρ c]
  try (rw [keep1 m ρ c $b]; rotate_left; keep_side)))

end Cert.KernelIdeal.KVal

end
-- ==== Proof.KH1.lean ====
/-
  The kernel program's host stretches before the edge-score kernel, read back: the edges' endpoints cut out of
  the edge list, the perceptron's bias vectors reshaped to one-row arrays, the parsing matrix max(2·parsing, 0),
  a zero bias row, and the logits' and the per-node products' transposes gathered along the edges. Each buffer is
  stated at the boundary right after the stretch that writes it, as a function of the launch memory and of the
  kernel regions' outputs it reads.
-/
import proofs.«109417_j84524956385822_2_alg».proof.Proof.KTools
import proofs.«109417_j84524956385822_2_alg».proof.Proof.Spec
import proofs.«109417_j84524956385822_2_alg».proof.Proof.Gen.ReferenceIdeal

set_option maxRecDepth 16384

noncomputable section

namespace Cert.KernelIdeal.KVal

open Cert.KernelIdeal Cert.KernelIdeal.Gen Idealize.ShloMosaic Idealize.ShloMosaic.StableHlo
open Cert.Gcn

variable (m : (ℓ : Loc nD τ sig) → Buf (Elt Ideal) ℓ) (ρ : Dev nD → PrngReg) (c : Dev nD)

/-- The edges' sources. -/
theorem v1_at1 : W1 m ρ c (Proc.devRef .tc main_v1) = Spec.row (m ((c.tc : Thread nD τ).loc main_arg1)) := by
  show StableHlo.after hostOps0 (W0 m ρ c) (Proc.devRef .tc main_v1) = _
  after_results
  rfl

/-- The edges' targets. -/
theorem v3_at1 : W1 m ρ c (Proc.devRef .tc main_v3) = Spec.col (m ((c.tc : Thread nD τ).loc main_arg1)) := by
  show StableHlo.after hostOps0 (W0 m ρ c) (Proc.devRef .tc main_v3) = _
  after_results
  rfl

/-- The first bias vector as one row. -/
theorem v4_at1 : W1 m ρ c (Proc.devRef .tc main_v4)
    = shapeCast S1x512 (m ((c.tc : Thread nD τ).loc main_arg9)) Facts₀.shapeCasts_S512_S1x512 := by
  show StableHlo.after hostOps0 (W0 m ρ c) (Proc.devRef .tc main_v4) = _
  after_results
  rfl

/-- The second bias vector as one row. -/
theorem v6_at3 : W3 m ρ c (Proc.devRef .tc main_v6)
    = shapeCast S1x64 (m ((c.tc : Thread nD τ).loc main_arg11)) Facts₀.shapeCasts_S64_S1x64 := by
  show StableHlo.after hostOps1 (W2 m ρ c) (Proc.devRef .tc main_v6) = _
  after_results
  carry main_arg11
  rfl

/-- The third bias vector as one row. -/
theorem v8_at5 : W5 m ρ c (Proc.devRef .tc main_v8)
    = shapeCast S1x7 (m ((c.tc : Thread nD τ).loc main_arg13)) Facts₀.shapeCasts_S7_S1x7 := by
  show StableHlo.after hostOps2 (W4 m ρ c) (Proc.devRef .tc main_v8) = _
  after_results
  carry main_arg13
  rfl

/-- The parsing matrix max(2 · parsing, 0). -/
theorem v12_at8 : W8 m ρ c (Proc.devRef .tc main_v12) = Spec.pars (m ((c.tc : Thread nD τ).loc main_arg14)) := by
  show StableHlo.after hostOps3_1 (StableHlo.after hostOps3 (W6 m ρ c)) (Proc.devRef .tc main_v12) = _
  after_results
  carry main_arg14
  rfl

/-- The zero bias row of seven entries. -/
theorem v14_at9 : W9 m ρ c (Proc.devRef .tc main_v14)
    = shapeCast S1x7 (broadcastInDim S7 ![] Facts₀.bcast_S_S7 (constant (F := Ideal) S_ .f32 0x00000000#32)) Facts₀.shapeCasts_S7_S1x7 := by
  show StableHlo.after hostOps3_2 (W8 m ρ c) (Proc.devRef .tc main_v14) = _
  after_results
  rfl

/-- The transposed logits gathered at the edges' sources. -/
theorem v24_at11 : W11 m ρ c (Proc.devRef .tc main_v24)
    = Host.gather gather_S7x50000_S800000x1_S7x800000_0_1_n_n_1_1_71
        (transpose S7x50000 [1, 0] (W6 m ρ c (Proc.devRef .tc main_v9)) Facts₀.transposes_S50000x7_S7x50000_1_0)
        (Spec.startE (Spec.row (m ((c.tc : Thread nD τ).loc main_arg1)))) := by
  show StableHlo.after hostOps4 (W10 m ρ c) (Proc.devRef .tc main_v24) = _
  after_results
  carry main_v9
  carry main_v1
  rw [v1_at1]
  rfl

/-- The transposed per-node products gathered at the edges' targets. -/
theorem v31_at11 : W11 m ρ c (Proc.devRef .tc main_v31)
    = Host.gather gather_S7x50000_S800000x1_S7x800000_0_1_n_n_1_1_71
        (transpose S7x50000 [1, 0] (W10 m ρ c (Proc.devRef .tc main_v15)) Facts₀.transposes_S50000x7_S7x50000_1_0)
        (Spec.startE (Spec.col (m ((c.tc : Thread nD τ).loc main_arg1)))) := by
  show StableHlo.after hostOps4 (W10 m ρ c) (Proc.devRef .tc main_v31) = _
  after_results_simp
  carry main_v3
  rw [v3_at1]
  rfl

end Cert.KernelIdeal.KVal

end
-- ==== Proof.KH2.lean ====
/-
  The kernel program's host stretches between the edge-score kernel and the first convolution's linear kernel,
  read back in small steps: the raw edge weights as a vector; their mean; their unbiased variance; the weights
  (centred, scaled by the square root of 1e-4 over the variance, shifted by one) with a self loop of weight one
  per node; the endpoints with loops; the weighted in-degrees and their inverse square roots; and the symmetric
  normalisation — each a stage of the specification applied to the launch memory's edge list and to the
  edge-score kernel's output.
-/
import proofs.«109417_j84524956385822_2_alg».proof.Proof.KH1

set_option maxRecDepth 16384

noncomputable section

namespace Cert.KernelIdeal.KVal

open Cert.KernelIdeal Cert.KernelIdeal.Gen Idealize.ShloMosaic Idealize.ShloMosaic.StableHlo
open Cert.Gcn

variable (m : (ℓ : Loc nD τ sig) → Buf (Elt Ideal) ℓ) (ρ : Dev nD → PrngReg) (c : Dev nD)

/-- The raw edge weights as a vector: the edge-score region's one-row output, reshaped. -/
abbrev RAW : Spec.Fv S800000 :=
  shapeCast S800000 (W12 m ρ c (Proc.devRef .tc main_v32)) Facts₀.shapeCasts_S1x800000_S800000
/-- The sources with one self loop per node. -/
abbrev SRC : Spec.Iv S850000 := Spec.loops (Spec.row (m ((c.tc : Thread nD τ).loc main_arg1)))
/-- The targets with one self loop per node. -/
abbrev TGT : Spec.Iv S850000 := Spec.loops (Spec.col (m ((c.tc : Thread nD τ).loc main_arg1)))
/-- The weights with loops. -/
abbrev EAUG : Spec.Fv S850000 := Spec.eaug (Spec.ew (RAW m ρ c))
/-- The symmetric normalisation of the weights with loops. -/
abbrev NORM : Spec.Fv S850000 := Spec.norm (EAUG m ρ c) (SRC m c) (TGT m c)

/-- Finish reading buffers inside a concatenation's operand list, where one rewriting pass does not enter:
    operation by operation, a buffer's contents after an operation are its function's value at its own result
    buffer and what was there at any other. -/
macro "after_rw" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

section Lists
variable {F : FTy → Type} [FloatOps F]

/-- The variance function's operations, each at its own buffers: the same list as the program's inlined call. -/
abbrev varOps : List (HloOp τ sig (Elt F)) :=
  [ StableHlo.nullary main_call1_cst (constant S_ .f32 0x00000000#32),
    StableHlo.binary main_v33 main_call1_cst main_call1_v0 ((fun x v => Host.reduceAdd x v Facts₀.reducesTo_S800000_S_d0 Facts₀.h_S_) : (⟨S800000, .f32⟩ : BufTy).Contents (Elt F) → (⟨S_, .f32⟩ : BufTy).Contents (Elt F) → (⟨S_, .f32⟩ : BufTy).Contents (Elt F)),
    StableHlo.unary main_call1_v0 main_call1_v1 ((broadcastInDim S1 ![] Facts₀.bcast_S_S1) : (⟨S_, .f32⟩ : BufTy).Contents (Elt F) → (⟨S1, .f32⟩ : BufTy).Contents (Elt F)),
    StableHlo.nullary main_call1_cst_0 (constant S_ .f32 0x49435000#32),
    StableHlo.unary main_call1_cst_0 main_call1_v2 ((broadcastInDim S1 ![] Facts₀.bcast_S_S1) : (⟨S_, .f32⟩ : BufTy).Contents (Elt F) → (⟨S1, .f32⟩ : BufTy).Contents (Elt F)),
    StableHlo.binary main_call1_v1 main_call1_v2 main_call1_v3 ((Host.divf) : (⟨S1, .f32⟩ : BufTy).Contents (Elt F) → (⟨S1, .f32⟩ : BufTy).Contents (Elt F) → (⟨S1, .f32⟩ : BufTy).Contents (Elt F)),
    StableHlo.unary main_call1_v3 main_call1_v4 ((broadcastInDim S800000 ![0] Facts₀.bcast_S1_S800000_0) : (⟨S1, .f32⟩ : BufTy).Contents (Elt F) → (⟨S800000, .f32⟩ : BufTy).Contents (Elt F)),
    StableHlo.binary main_v33 main_call1_v4 main_call1_v5 ((subf) : (⟨S800000, .f32⟩ : BufTy).Contents (Elt F) → (⟨S800000, .f32⟩ : BufTy).Contents (Elt F) → (⟨S800000, .f32⟩ : BufTy).Contents (Elt F)),
    StableHlo.binary main_call1_v5 main_call1_v5 main_call1_v6 ((mulf) : (⟨S800000, .f32⟩ : BufTy).Contents (Elt F) → (⟨S800000, .f32⟩ : BufTy).Contents (Elt F) → (⟨S800000, .f32⟩ : BufTy).Contents (Elt F)),
    StableHlo.unary main_c_6 main_call1_v7 ((sitofp .f32) : (⟨S_, .i32⟩ : BufTy).Contents (Elt F) → (⟨S_, .f32⟩ : BufTy).Contents (Elt F)),
    StableHlo.nullary main_call1_cst_1 (constant S_ .f32 0x49435000#32),
    StableHlo.binary main_call1_cst_1 main_call1_v7 main_call1_v8 ((subf) : (⟨S_, .f32⟩ : BufTy).Contents (Elt F) → (⟨S_, .f32⟩ : BufTy).Contents (Elt F) → (⟨S_, .f32⟩ : BufTy).Contents (Elt F)),
    StableHlo.nullary main_call1_cst_2 (constant S_ .f32 0x00000000#32),
    StableHlo.binary main_call1_v6 main_call1_cst_2 main_call1_v9 ((fun x v => Host.reduceAdd x v Facts₀.reducesTo_S800000_S_d0 Facts₀.h_S_) : (⟨S800000, .f32⟩ : BufTy).Contents (Elt F) → (⟨S_, .f32⟩ : BufTy).Contents (Elt F) → (⟨S_, .f32⟩ : BufTy).Contents (Elt F)),
    StableHlo.binary main_call1_v9 main_call1_v8 main_call1_v10 ((Host.divf) : (⟨S_, .f32⟩ : BufTy).Contents (Elt F) → (⟨S_, .f32⟩ : BufTy).Contents (Elt F) → (⟨S_, .f32⟩ : BufTy).Contents (Elt F)),
    StableHlo.nullary main_call1_cst_3 (constant S_ .f32 0x00000000#32),
    StableHlo.binary main_call1_v8 main_call1_cst_3 main_call1_v11 ((cmpf .ogt) : (⟨S_, .f32⟩ : BufTy).Contents (Elt F) → (⟨S_, .f32⟩ : BufTy).Contents (Elt F) → (⟨S_, .i1⟩ : BufTy).Contents (Elt F)),
    StableHlo.nullary main_call1_cst_4 (constant S_ .f32 0x7FC00000#32),
    StableHlo.unary main_call1_cst_4 main_call1_call0_v0 ((id) : (⟨S_, .f32⟩ : BufTy).Contents (Elt F) → (⟨S_, .f32⟩ : BufTy).Contents (Elt F)),
    StableHlo.ternary main_call1_v11 main_call1_v10 main_call1_call0_v0 main_v36 ((select) : (⟨S_, .i1⟩ : BufTy).Contents (Elt F) → (⟨S_, .f32⟩ : BufTy).Contents (Elt F) → (⟨S_, .f32⟩ : BufTy).Contents (Elt F) → (⟨S_, .f32⟩ : BufTy).Contents (Elt F)) ]

theorem varOps_eq : (hostOps5_1 : List (HloOp τ sig (Elt F))) = varOps := rfl

/-- The selection function's operations, each at its own buffers. -/
abbrev whereOps : List (HloOp τ sig (Elt F)) :=
  [ StableHlo.unary main_cst_13 main_call2_v0 ((id) : (⟨S_, .f32⟩ : BufTy).Contents (Elt F) → (⟨S_, .f32⟩ : BufTy).Contents (Elt F)),
    StableHlo.unary main_call2_v0 main_call2_v1 ((broadcastInDim S50000 ![] Facts₀.bcast_S_S50000) : (⟨S_, .f32⟩ : BufTy).Contents (Elt F) → (⟨S50000, .f32⟩ : BufTy).Contents (Elt F)),
    StableHlo.ternary main_v54 main_v57 main_call2_v1 main_v58 ((select) : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

theorem whereOps_eq : (hostOps5_3 : List (HloOp τ sig (Elt F))) = whereOps := rfl

end Lists

/-- The raw weights as a vector. -/
theorem v33_at13 : W13 m ρ c (Proc.devRef .tc main_v33) = RAW m ρ c := by
  show StableHlo.after hostOps5 (W12 m ρ c) (Proc.devRef .tc main_v33) = _
  after_results
  rfl

/-- Their mean. -/
theorem v35_at13 : W13 m ρ c (Proc.devRef .tc main_v35) = Spec.mean (RAW m ρ c) := by
  show StableHlo.after hostOps5 (W12 m ρ c) (Proc.devRef .tc main_v35) = _
  after_results
  rfl

/-- The integer one (the variance's degrees-of-freedom correction). -/
theorem c6_at13 : W13 m ρ c (Proc.devRef .tc main_c_6) = constantI S_ 32 1#32 := by
  show StableHlo.after hostOps5 (W12 m ρ c) (Proc.devRef .tc main_c_6) = _
  after_results

set_option maxHeartbeats 2000000 in
/-- Their unbiased variance. -/
theorem v36_at14 : W14 m ρ c (Proc.devRef .tc main_v36) = Spec.var (RAW m ρ c) := by
  show StableHlo.after hostOps5_1 (W13 m ρ c) (Proc.devRef .tc main_v36) = _
  rw [varOps_eq]
  generalize hV : W13 m ρ c = V
  after_results_simp
  subst hV
  rw [v33_at13, c6_at13]
  rfl

/-- The sources with loops. -/
theorem v46_at15 : W15 m ρ c (Proc.devRef .tc main_v46) = SRC m c := by
  show StableHlo.after hostOps5_2 (W14 m ρ c) (Proc.devRef .tc main_v46) = _
  generalize hV : W14 m ρ c = V
  after_results_simp
  after_rw
  subst hV
  carry main_v1
  rw [v1_at1]
  rfl

/-- The targets with loops. -/
theorem v47_at15 : W15 m ρ c (Proc.devRef .tc main_v47) = TGT m c := by
  show StableHlo.after hostOps5_2 (W14 m ρ c) (Proc.devRef .tc main_v47) = _
  generalize hV : W14 m ρ c = V
  after_results_simp
  after_rw
  subst hV
  carry main_v3
  rw [v3_at1]
  rfl

/-- The edge weights with weight one on every loop. -/
theorem v49_at15 : W15 m ρ c (Proc.devRef .tc main_v49) = EAUG m ρ c := by
  show StableHlo.after hostOps5_2 (W14 m ρ c) (Proc.devRef .tc main_v49) = _
  generalize hV : W14 m ρ c = V
  after_results_simp
  after_rw
  subst hV
  carry main_v33
  carry main_v35
  rw [v33_at13, v35_at13, v36_at14]
  rfl

/-- The weighted in-degrees. -/
abbrev DEG : Spec.Fv S50000 := Spec.deg (EAUG m ρ c) (TGT m c)

set_option maxHeartbeats 2000000 in
theorem v52_at15 : W15 m ρ c (Proc.devRef .tc main_v52) = DEG m ρ c := by
  show StableHlo.after hostOps5_2 (W14 m ρ c) (Proc.devRef .tc main_v52) = _
  generalize hV : W14 m ρ c = V
  after_results_simp
  after_rw
  subst hV
  carry main_v33
  carry main_v35
  carry main_v3
  rw [v33_at13, v35_at13, v36_at14, v3_at1]
  rfl

set_option maxHeartbeats 2000000 in
/-- Which degrees are positive. -/
theorem v54_at15 : W15 m ρ c (Proc.devRef .tc main_v54)
    = cmpf .ogt (DEG m ρ c) (broadcastInDim S50000 ![] Facts₀.bcast_S_S50000 (constant (F := Ideal) S_ .f32 0x00000000#32)) := by
  show StableHlo.after hostOps5_2 (W14 m ρ c) (Proc.devRef .tc main_v54) = _
  generalize hV : W14 m ρ c = V
  after_results_simp
  after_rw
  subst hV
  carry main_v33
  carry main_v35
  carry main_v3
  rw [v33_at13, v35_at13, v36_at14, v3_at1]
  rfl

set_option maxHeartbeats 2000000 in
/-- One over the square roots of the degrees kept away from zero. -/
theorem v57_at15 : W15 m ρ c (Proc.devRef .tc main_v57)
    = Host.rsqrt (maximumf (DEG m ρ c) (broadcastInDim S50000 ![] Facts₀.bcast_S_S50000 (constant (F := Ideal) S_ .f32 0x2B8CBCCC#32))) := by
  show StableHlo.after hostOps5_2 (W14 m ρ c) (Proc.devRef .tc main_v57) = _
  generalize hV : W14 m ρ c = V
  after_results_simp
  after_rw
  subst hV
  carry main_v33
  carry main_v35
  carry main_v3
  rw [v33_at13, v35_at13, v36_at14, v3_at1]
  rfl

/-- The scalar zero the selection falls back to. -/
theorem cst13_at15 : W15 m ρ c (Proc.devRef .tc main_cst_13) = constant (F := Ideal) S_ .f32 0x00000000#32 := by
  show StableHlo.after hostOps5_2 (W14 m ρ c) (Proc.devRef .tc main_cst_13) = _
  generalize hV : W14 m ρ c = V
  after_results_simp

set_option maxHeartbeats 2000000 in
/-- One over the square root of a positive degree, zero otherwise. -/
theorem v58_at16 : W16 m ρ c (Proc.devRef .tc main_v58) = Spec.dinv (DEG m ρ c) := by
  show StableHlo.after hostOps5_3 (W15 m ρ c) (Proc.devRef .tc main_v58) = _
  rw [whereOps_eq]
  generalize hV : W15 m ρ c = V
  after_results
  subst hV
  rw [v54_at15, v57_at15, cst13_at15]
  rfl

set_option maxHeartbeats 2000000 in
/-- The symmetric normalisation. -/
theorem v74_at17 : W17 m ρ c (Proc.devRef .tc main_v74) = NORM m ρ c := by
  show StableHlo.after hostOps5_4 (W16 m ρ c) (Proc.devRef .tc main_v74) = _
  generalize hV : W16 m ρ c = V
  after_results_simp
  after_rw
  subst hV
  carry main_v46
  carry main_v47
  carry main_v49
  rw [v58_at16, v46_at15, v47_at15, v49_at15]
  rfl

/-- The zero bias row of 256 entries. -/
theorem v76_at17 : W17 m ρ c (Proc.devRef .tc main_v76)
    = shapeCast S1x256 (broadcastInDim S256 ![] Facts₀.bcast_S_S256 (constant (F := Ideal) S_ .f32 0x00000000#32)) Facts₀.shapeCasts_S256_S1x256 := by
  show StableHlo.after hostOps5_4 (W16 m ρ c) (Proc.devRef .tc main_v76) = _
  generalize hV : W16 m ρ c = V
  after_results_simp
  rfl

end Cert.KernelIdeal.KVal

end
-- ==== Proof.KH3.lean ====
/-
  The kernel program's host stretches around the three graph convolutions, read back: each gathers the rows of a
  linear kernel's output at the edges' sources (through a narrowing and a widening of the float format, the
  identity on the extended reals), scales them by the normalised weights, sums them at the targets and adds the
  layer's bias — the specification's convolution of that kernel's output; and the zero bias rows between them.
-/
import proofs.«109417_j84524956385822_2_alg».proof.Proof.KH2

set_option maxRecDepth 16384

noncomputable section

namespace Cert.KernelIdeal.KVal

open Cert.KernelIdeal Cert.KernelIdeal.Gen Idealize.ShloMosaic Idealize.ShloMosaic.StableHlo
open Cert.Gcn

variable (m : (ℓ : Loc nD τ sig) → Buf (Elt Ideal) ℓ) (ρ : Dev nD → PrngReg) (c : Dev nD)

set_option maxHeartbeats 4000000 in
/-- The first convolution: of the first linear kernel's output, with bias b1. -/
theorem v95_at19 : W19 m ρ c (Proc.devRef .tc main_v95)
    = Spec.conv256 (W18 m ρ c (Proc.devRef .tc main_v77)) (NORM m ρ c) (SRC m c) (TGT m c) (m ((c.tc : Thread nD τ).loc main_arg3)) := by
  show StableHlo.after hostOps6 (W18 m ρ c) (Proc.devRef .tc main_v95) = _
  after_results_simp
  carry main_v46
  carry main_v47
  carry main_v74
  carry main_arg3
  rw [v46_at15, v47_at15, v74_at17]
  rfl

/-- The zero bias row of 256 entries, again. -/
theorem v97_at19 : W19 m ρ c (Proc.devRef .tc main_v97)
    = shapeCast S1x256 (broadcastInDim S256 ![] Facts₀.bcast_S_S256 (constant (F := Ideal) S_ .f32 0x00000000#32)) Facts₀.shapeCasts_S256_S1x256 := by
  show StableHlo.after hostOps6 (W18 m ρ c) (Proc.devRef .tc main_v97) = _
  after_results_simp
  rfl

set_option maxHeartbeats 4000000 in
/-- The second convolution: of the second linear kernel's output, with bias b2. -/
theorem v116_at21 : W21 m ρ c (Proc.devRef .tc main_v116)
    = Spec.conv256 (W20 m ρ c (Proc.devRef .tc main_v98)) (NORM m ρ c) (SRC m c) (TGT m c) (m ((c.tc : Thread nD τ).loc main_arg5)) := by
  show StableHlo.after hostOps7 (W20 m ρ c) (Proc.devRef .tc main_v116) = _
  after_results_simp
  carry main_v46
  carry main_v47
  carry main_v74
  carry main_arg5
  rw [v46_at15, v47_at15, v74_at17]
  rfl

/-- The zero bias row of seven entries, again. -/
theorem v119_at23 : W23 m ρ c (Proc.devRef .tc main_v119)
    = shapeCast S1x7 (broadcastInDim S7 ![] Facts₀.bcast_S_S7 (constant (F := Ideal) S_ .f32 0x00000000#32)) Facts₀.shapeCasts_S7_S1x7 := by
  show StableHlo.after hostOps8 (W22 m ρ c) (Proc.devRef .tc main_v119) = _
  after_results
  rfl

set_option maxHeartbeats 4000000 in
/-- The third convolution: of the third linear kernel's output, with bias b3 — the program's result. -/
theorem v138_at25 : W25 m ρ c (Proc.devRef .tc main_v138)
    = Spec.conv7 (W24 m ρ c (Proc.devRef .tc main_v120)) (NORM m ρ c) (SRC m c) (TGT m c) (m ((c.tc : Thread nD τ).loc main_arg7)) := by
  show StableHlo.after hostOps9 (W24 m ρ c) (Proc.devRef .tc main_v138) = _
  after_results_simp
  carry main_v46
  carry main_v47
  carry main_v74
  carry main_arg7
  rw [v46_at15, v47_at15, v74_at17]
  rfl

end Cert.KernelIdeal.KVal

end
-- ==== Proof.Sums.lean ====
/-
  The kernels' bodies as whole-array functions of their operands, entry by entry, on the extended reals.
  A linear layer is rows times columns plus a one-row bias laid along every row; the edge score is the sum
  over the seven classes of a product of two gathered tables; the residual step is max(a, 0) + b.
-/
import Idealize.ShloMosaic.PureOps.Ideal.Laws
import Idealize.ShloMosaic.Lib.ValueIdx

noncomputable section

namespace Cert.Gcn

open Idealize.ShloMosaic Idealize.ShloMosaic.ValueIdx

/-- Entry (p, q) of a · w plus the bias row's entry q. -/
def lin {M K N : ℕ} (a : FVec Ideal ⟨2, ![M, K]⟩ .f32) (w : FVec Ideal ⟨2, ![K, N]⟩ .f32)
    (b : FVec Ideal ⟨2, ![1, N]⟩ .f32) : FVec Ideal ⟨2, ![M, N]⟩ .f32 :=
  fun i => (∑ k : Fin K, a (ix2 (i 0) k) * w (ix2 k (i 1))) + b (ix2 0 (i 1))

/-- The same followed by the maximum with zero. -/
def linRelu {M K N : ℕ} (a : FVec Ideal ⟨2, ![M, K]⟩ .f32) (w : FVec Ideal ⟨2, ![K, N]⟩ .f32)
    (b : FVec Ideal ⟨2, ![1, N]⟩ .f32) : FVec Ideal ⟨2, ![M, N]⟩ .f32 :=
  fun i => max (lin a w b i) 0

/-- The linear layer applied to max(a, 0). -/
def reluLin {M K N : ℕ} (a : FVec Ideal ⟨2, ![M, K]⟩ .f32) (w : FVec Ideal ⟨2, ![K, N]⟩ .f32)
    (b : FVec Ideal ⟨2, ![1, N]⟩ .f32) : FVec Ideal ⟨2, ![M, N]⟩ .f32 :=
  lin (fun j => max (a j) 0) w b

/-- Column e of the one-row result: the sum over the C rows of s(c, e) · q(c, e). -/
def colDot {C E : ℕ} (s q : FVec Ideal ⟨2, ![C, E]⟩ .f32) : FVec Ideal ⟨2, ![1, E]⟩ .f32 :=
  fun i => ∑ c : Fin C, s (ix2 c (i 1)) * q (ix2 c (i 1))

/-- max(a, 0) + b, entry by entry. -/
def reluAdd {M N : ℕ} (a b : FVec Ideal ⟨2, ![M, N]⟩ .f32) : FVec Ideal ⟨2, ![M, N]⟩ .f32 :=
  fun i => max (a i) 0 + b i

end Cert.Gcn

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.LinHost.lean ====
/-
  The host's linear layers against the whole-array forms, on the extended reals.

  The host writes  x · W + b  as a dot_general plus the bias vector placed on axis 1 of a one-row array and that
  row spread down every row; the other program reshapes the bias vector to one row and reads the row at (0, q).
  Entry (p, q) of either is  ∑ₖ x(p, k) · W(k, q) + b(q).  A maximum with the splat of the zero pattern is the
  maximum with 0; a bias row of zeros adds nothing. General in the three extents; every shape fact is a variable.
-/
import proofs.«109417_j84524956385822_2_alg».proof.Proof.Sums
import proofs.«109417_j84524956385822_2_alg».proof.Proof.LibPlainDot
import Idealize.ShloMosaic.Lib.ValueLayout
import Idealize.ShloMosaic.Lib.KernelVsHost
import Idealize.ShloMosaic.Lib.IdealHost

noncomputable section

namespace Cert.Gcn.LinHost

open Idealize.ShloMosaic Idealize.ShloMosaic.ValueIdx

variable {M K N : ℕ}

/-- The splat of the zero pattern reads 0 everywhere. -/
theorem zero_splat_apply {T : Shape} (h0 : (⟨0, ![]⟩ : Shape).BroadcastsInDim T ![]) (j : T.Idx) :
    broadcastInDim T ![] h0 (constant (F := Ideal) ⟨0, ![]⟩ .f32 0x00000000#32) j = 0 := by
  rw [broadcastInDim_scalar_apply, constant_apply, Ideal.ofBits_zero_f32]

/-- The maximum with the splat of the zero pattern is the maximum with 0, entry by entry. -/
theorem relu_splat {T : Shape} (h0 : (⟨0, ![]⟩ : Shape).BroadcastsInDim T ![]) (a : FVec Ideal T .f32) :
    maximumf a (broadcastInDim T ![] h0 (constant (F := Ideal) ⟨0, ![]⟩ .f32 0x00000000#32)) = fun j => max (a j) 0 := by
  funext j
  rw [maximumf_apply, zero_splat_apply]

/-- The bias vector placed on axis 1 of a one-row array and spread down M rows: entry (p, q) is b(q). -/
theorem bias_host_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_oneRow_apply]
  refine broadcastInDim_apply ![1] h1 b (ix2 (0 : Fin 1) q) (ix1 q) fun a => ?_
  match a with
  | ⟨0, _⟩ =>
    show q.val = if N = 1 then 0 else q.val
    split
    · have := q.isLt; omega
    · rfl

/-- (1) The host's linear layer is the whole-array form at the bias reshaped to one row. -/
theorem lin_host (d : DotDims ⟨2, ![M, K]⟩ ⟨2, ![K, N]⟩ ⟨2, ![M, N]⟩) (hd : d = DotDims.plain M K N)
    (a : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (Host.dotGeneral d none a w) (broadcastInDim ⟨2, ![M, N]⟩ ![0, 1] h2 (broadcastInDim ⟨2, ![1, N]⟩ ![1] h1 b))
      = Cert.Gcn.lin a w (shapeCast ⟨2, ![1, N]⟩ b hc) := by
  funext i
  obtain ⟨p, q, rfl⟩ : ∃ (p : Fin M) (q : Fin N), i = ix2 p q := ⟨i 0, i 1, eq_ix2 i⟩
  rw [addf_apply, bias_host_apply]
  show _ = (∑ k : Fin K, a (ix2 p k) * w (ix2 k q)) + shapeCast ⟨2, ![1, N]⟩ b hc (ix2 (0 : Fin 1) q)
  rw [shapeCast_a_1a_apply]
  exact congrArg (· + b (ix1 q)) (dotGeneral_plain_apply d hd none .single a w p q)

/-- (2) The same followed by the maximum with the splat of zero. -/
theorem linRelu_host (d : DotDims ⟨2, ![M, K]⟩ ⟨2, ![K, N]⟩ ⟨2, ![M, N]⟩) (hd : d = DotDims.plain M K N)
    (a : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩)
    (h0 : (⟨0, ![]⟩ : Shape).BroadcastsInDim ⟨2, ![M, N]⟩ ![]) :
    maximumf
        (addf (Host.dotGeneral d none a w) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = Cert.Gcn.linRelu a w (shapeCast ⟨2, ![1, N]⟩ b hc) := by
  rw [lin_host d hd a w b h1 h2 hc, relu_splat]
  rfl

/-- (3) With a bias row of zeros the whole-array form is the host's product. -/
theorem lin_zero (d : DotDims ⟨2, ![M, K]⟩ ⟨2, ![K, N]⟩ ⟨2, ![M, N]⟩) (hd : d = DotDims.plain M K N)
    (a : FVec Ideal ⟨2, ![M, K]⟩ .f32) (w : FVec Ideal ⟨2, ![K, N]⟩ .f32) (z : FVec Ideal ⟨2, ![1, N]⟩ .f32)
    (hz : ∀ j, z j = 0) :
    Cert.Gcn.lin a w z = Host.dotGeneral d none a w := by
  funext i
  obtain ⟨p, q, rfl⟩ : ∃ (p : Fin M) (q : Fin N), i = ix2 p q := ⟨i 0, i 1, eq_ix2 i⟩
  show (∑ k : Fin K, a (ix2 p k) * w (ix2 k q)) + z (ix2 (0 : Fin 1) q) = _
  rw [hz, add_zero]
  exact (dotGeneral_plain_apply d hd none .single a w p q).symm

/-- (4) With a bias row of zeros the layer applied to max(a, 0) is the host's product of max(a, splat 0). -/
theorem reluLin_zero (d : DotDims ⟨2, ![M, K]⟩ ⟨2, ![K, N]⟩ ⟨2, ![M, N]⟩) (hd : d = DotDims.plain M K N)
    (a : FVec Ideal ⟨2, ![M, K]⟩ .f32) (w : FVec Ideal ⟨2, ![K, N]⟩ .f32) (z : FVec Ideal ⟨2, ![1, N]⟩ .f32)
    (hz : ∀ j, z j = 0) (h0 : (⟨0, ![]⟩ : Shape).BroadcastsInDim ⟨2, ![M, K]⟩ ![]) :
    Cert.Gcn.reluLin a w z
      = Host.dotGeneral d none
          (maximumf a (broadcastInDim ⟨2, ![M, K]⟩ ![] h0 (constant (F := Ideal) ⟨0, ![]⟩ .f32 0x00000000#32))) w := by
  rw [relu_splat]
  exact lin_zero d hd (fun j => max (a j) 0) w z hz

/-- (5) max(a, 0) + b is the host's sum of max(a, splat 0) and b. -/
theorem reluAdd_host (a b : FVec Ideal ⟨2, ![M, N]⟩ .f32) (h0 : (⟨0, ![]⟩ : Shape).BroadcastsInDim ⟨2, ![M, N]⟩ ![]) :
    Cert.Gcn.reluAdd a b
      = addf (maximumf a (broadcastInDim ⟨2, ![M, N]⟩ ![] h0 (constant (F := Ideal) ⟨0, ![]⟩ .f32 0x00000000#32))) b := by
  rw [relu_splat]
  rfl

/-- (6) A splat of the zero pattern over a vector, reshaped to one row, is zero at every entry. -/
theorem zrow_zero (h : (⟨0, ![]⟩ : Shape).BroadcastsInDim ⟨1, ![N]⟩ ![]) (hc : (⟨1, ![N]⟩ : Shape).ShapeCasts ⟨2, ![1, N]⟩) :
    ∀ j, shapeCast ⟨2, ![1, N]⟩ (broadcastInDim ⟨1, ![N]⟩ ![] h (constant (F := Ideal) ⟨0, ![]⟩ .f32 0x00000000#32)) hc j = 0 := by
  intro j
  obtain ⟨u, q, rfl⟩ : ∃ (u : Fin 1) (q : Fin N), j = ix2 u q := ⟨j 0, j 1, eq_ix2 j⟩
  rw [shapeCast_a_1a_apply, zero_splat_apply]

end Cert.Gcn.LinHost

end
-- ==== Proof.LibRowGatherScatter.lean ====
/-
  A gather of rows and an accumulating scatter of rows, read at an entry.

  `x[rows]` for a matrix `x : [N, C]` and row numbers `rows : [R, 1]` lowers to a gather whose result
  `[R, C]` holds, at `(e, c)`, the entry `(ρ e, c)` of `x`, where `ρ e` is the row number `rows[e, 0]`
  read as a signed integer and clamped into `[0, N − 1]`: the column is kept, the row is looked up.

  `segment_sum(upd, rows)` for updates `upd : [R, C]` lowers to an accumulating scatter into `[N, C]`:
  update `(e, c)` lands on entry `(rows[e, 0], c)` when that row number, read signed and NOT clamped,
  lies in `[0, N)`, and is dropped otherwise. So entry `(v, k)` of the result is the operand's entry plus
  the sum, over the update rows `e` whose row number is `v`, of `upd (e, k)`.
-/
import Idealize.ShloMosaic.Lib.ValueIdx
import Idealize.ShloMosaic.PureOps.Ideal
import Idealize.ShloMosaic.PureOps.Ideal.Laws

noncomputable section

namespace RowOps

open Idealize.ShloMosaic Idealize.ShloMosaic.ValueIdx

/-- The entry `[e, 0]` of a column of `R` row numbers. -/
abbrev col0 {R : Nat} (e : Fin R) : (⟨2, ![R, 1]⟩ : Shape).Idx := ix2 e (⟨0, Nat.one_pos⟩ : Fin 1)

/-! ## Rows gathered -/

section Gather
variable {α : Type}

/-- The dimension numbers of `x[rows]`: operand `[N, C]`, start indices `[R, 1]`, result `[R, C]`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row of the operand that result row `e` reads: its row number read signed, clamped into `[0, N − 1]`. -/
def gatheredRow {N R w : Nat} (hN : 0 < N) (idx : IVec ⟨2, ![R, 1]⟩ w) (e : Fin R) : Fin N :=
  ⟨min (idx (col0 e)).toInt.toNat (N - 1), by omega⟩

/-- THE ROW GATHER READ AT `(e, c)`: entry `c` of the looked-up row. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c) = x (ix2 (gatheredRow hN idx e) c) := by
  unfold Host.gather
  congr 1
  have h0 : ((rowGatherDims N R C wf).operandIdx (ix2 e c) idx (0 : Fin 2)).val = (gatheredRow hN idx e).val := by
    show (rowGatherDims N R C wf).start (ix2 e c) idx (0 : Fin 2) + (rowGatherDims N R C wf).batchCoord (ix2 e c) (0 : Fin 2)
        + (rowGatherDims N R C wf).offCoord (ix2 e c) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = col0 e := by
      funext b; refine Fin.ext ?_
      match b with
      | ⟨0, _⟩ => rfl
      | ⟨1, _⟩ => rfl
    rw [hsi]
    rfl
  have h1 : ((rowGatherDims N R C wf).operandIdx (ix2 e c) idx (1 : Fin 2)).val = c.val := by
    show (rowGatherDims N R C wf).start (ix2 e c) idx (1 : Fin 2) + (rowGatherDims N R C wf).batchCoord (ix2 e c) (1 : Fin 2)
        + (rowGatherDims N R C wf).offCoord (ix2 e c) (1 : Fin 2) = _
    rw [GatherDims.batchCoord_eq_zero _ _ _ List.not_mem_nil, Nat.add_zero]
    have hn : (1 : Fin 2) ∉ (rowGatherDims N R C wf).startIndexMap := fun h =>
      absurd (List.mem_singleton.mp h) (by decide : ¬ (1 : Fin 2) = 0)
    have hk : (1 : Fin 2) ∈ (rowGatherDims N R C wf).sKept :=
      (GatherDims.mem_sKept _ _).mpr ⟨fun h => absurd (List.mem_singleton.mp h) (by decide : ¬ (1 : Fin 2) = 0),
        List.not_mem_nil⟩
    unfold GatherDims.start GatherDims.offCoord
    rw [dif_neg hn, dif_pos hk, Nat.zero_add]
    rfl
  funext a
  refine Fin.ext ?_
  match a with
  | ⟨0, _⟩ => exact h0
  | ⟨1, _⟩ => exact h1

end Gather

/-! ## Rows scattered and accumulated -/

section Scatter

/-- The dimension numbers of `segment_sum` over rows: operand `[N, C]`, scatter indices `[R, 1]`, updates `[R, C]`. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)
  (idx : IVec ⟨2, ![R, 1]⟩ w)

/-- On the row axis the window of update `(e, c)` starts at its row number, read signed. -/
theorem start_row (e : Fin R) (c : Fin C) :
    (rowScatterDims N R C wf).start (ix2 e c) idx (0 : Fin 2) = (idx (col0 e)).toInt := by
  unfold ScatterDims.start
  rw [dif_pos (show (0 : Fin 2) ∈ (rowScatterDims N R C wf).scatterDimsToOperandDims from List.mem_singleton.mpr rfl)]
  have hsi : (rowScatterDims N R C wf).siIdx (ix2 e c)
      ⟨List.idxOf (0 : Fin 2) (rowScatterDims N R C wf).scatterDimsToOperandDims,
        List.idxOf_lt_length_iff.2 (List.mem_singleton.mpr rfl)⟩ = col0 e := by
    funext b; refine Fin.ext ?_
    match b with
    | ⟨0, _⟩ => rfl
    | ⟨1, _⟩ => rfl
  rw [hsi]

/-- On the column axis it starts at zero. -/
theorem start_col (e : Fin R) (c : Fin C) : (rowScatterDims N R C wf).start (ix2 e c) idx (1 : Fin 2) = 0 := by
  unfold ScatterDims.start
  rw [dif_neg (fun h => absurd (List.mem_singleton.mp h) (by decide : ¬ (1 : Fin 2) = 0))]

/-- The row axis is inserted: the window has no extent there. -/
theorem window_row (e : Fin R) (c : Fin C) : (rowScatterDims N R C wf).window (ix2 e c) (0 : Fin 2) = 0 := by
  unfold ScatterDims.window
  rw [dif_neg]
  intro h
  exact (List.mem_filter.mp h).2 |> fun h' => by simp at h'

/-- On the column axis the window coordinate is the update's column. -/
theorem window_col (e : Fin R) (c : Fin C) : (rowScatterDims N R C wf).window (ix2 e c) (1 : Fin 2) = c.val := by
  unfold ScatterDims.window
  rw [dif_pos (show (1 : Fin 2) ∈ (rowScatterDims N R C wf).sKept from
    List.mem_filter.mpr ⟨List.mem_finRange _, by simp⟩)]
  rfl

/-- WHERE UPDATE `(e, c)` LANDS: on `(v, k)` exactly when its row number is `v` and its column is `k`. -/
theorem resultIdx?_rows (e : Fin R) (c : Fin C) (v : Fin N) (k : Fin C) :
    (rowScatterDims N R C wf).resultIdx? (ix2 e c) idx = some (ix2 v k)
      ↔ (idx (col0 e)).toInt = (v.val : Int) ∧ c = k := by
  have hs0 := start_row wf idx e c
  have hs1 := start_col wf idx e c
  have hw0 := window_row wf e c
  have hw1 := window_col wf e c
  unfold ScatterDims.resultIdx?
  split
  · rename_i h
    rw [Option.some.injEq]
    constructor
    · intro hf
      have h0 := congrArg Fin.val (congrFun hf (0 : Fin 2))
      have h1 := congrArg Fin.val (congrFun hf (1 : Fin 2))
      have hp := (h (0 : Fin 2)).1
      simp only [hs0, hw0, hs1, hw1] at h0 h1 hp
      refine ⟨?_, Fin.ext ?_⟩
      · have : ((idx (col0 e)).toInt + ((0 : Nat) : Int)).toNat = v.val := h0
        omega
      · have : ((0 : Int) + (c.val : Int)).toNat = k.val := h1
        omega
    · rintro ⟨hv, rfl⟩
      funext a
      refine Fin.ext ?_
      match a with
      | ⟨0, _⟩ =>
        show ((rowScatterDims N R C wf).start (ix2 e c) idx (0 : Fin 2)
          + ((rowScatterDims N R C wf).window (ix2 e c) (0 : Fin 2) : Int)).toNat = v.val
        rw [hs0, hw0, hv]; simp
      | ⟨1, _⟩ =>
        show ((rowScatterDims N R C wf).start (ix2 e c) idx (1 : Fin 2)
          + ((rowScatterDims N R C wf).window (ix2 e c) (1 : Fin 2) : Int)).toNat = c.val
        rw [hs1, hw1]; simp
  · rename_i h
    constructor
    · intro hf; cases hf
    · rintro ⟨hv, rfl⟩
      refine (h fun a => ?_).elim
      match a with
      | ⟨0, _⟩ =>
        show 0 ≤ (rowScatterDims N R C wf).start (ix2 e c) idx (0 : Fin 2)
            + ((rowScatterDims N R C wf).window (ix2 e c) (0 : Fin 2) : Int)
          ∧ (rowScatterDims N R C wf).start (ix2 e c) idx (0 : Fin 2)
            + ((rowScatterDims N R C wf).window (ix2 e c) (0 : Fin 2) : Int) < (N : Int)
        rw [hs0, hw0, hv]
        have := v.isLt
        omega
      | ⟨1, _⟩ =>
        show 0 ≤ (rowScatterDims N R C wf).start (ix2 e c) idx (1 : Fin 2)
            + ((rowScatterDims N R C wf).window (ix2 e c) (1 : Fin 2) : Int)
          ∧ (rowScatterDims N R C wf).start (ix2 e c) idx (1 : Fin 2)
            + ((rowScatterDims N R C wf).window (ix2 e c) (1 : Fin 2) : Int) < (C : Int)
        rw [hs1, hw1]
        have := c.isLt
        omega

/-- The update rows whose row number is `v`. -/
def rowsOnto (v : Fin N) : Finset (Fin R) := Finset.univ.filter fun e => (idx (col0 e)).toInt = (v.val : Int)

/-- THE ROW SCATTER READ AT `(v, k)`, at the ideal instance: the operand's entry plus the sum, over the update
    rows whose row number is `v`, of their entry in column `k`. -/
theorem scatterAdd_rows_apply {φ : FTy} (x : FVec Ideal ⟨2, ![N, C]⟩ φ) (upd : FVec Ideal ⟨2, ![R, C]⟩ φ)
    (v : Fin N) (k : Fin C) :
    Host.scatterAdd (rowScatterDims N R C wf) x idx upd (ix2 v k)
      = x (ix2 v k) + ∑ e ∈ rowsOnto idx v, upd (ix2 e k) := by
  show Ideal.hostScatterAdd (rowScatterDims N R C wf) x idx upd (ix2 v k) = _
  unfold Ideal.hostScatterAdd rowsOnto
  congr 1
  rw [Finset.sum_filter, sum_idx2, Finset.sum_filter]
  refine Finset.sum_congr rfl fun e _ => ?_
  simp only [resultIdx?_rows wf idx e _ v k]
  by_cases hv : (idx (col0 e)).toInt = (v.val : Int)
  · simp only [hv, true_and, if_true]
    rw [Finset.sum_ite_eq' Finset.univ k fun c => upd (ix2 e c)]
    simp
  · simp only [hv, false_and, if_false]
    exact Finset.sum_const_zero

end Scatter

end RowOps

end
-- ==== Proof.LibColGather.lean ====
/-
  A gather of columns, read at an entry.

  For a matrix `x : [C, N]` and column numbers `cols : [R, 1]`, the gather that keeps every row and looks the
  column up (offset axis 0, collapsed axis 1, start index map [1], slices of C by 1) has a result `[C, R]`
  holding, at `(c, e)`, the entry `(c, ρ e)` of `x`, where `ρ e` is the column number `cols[e, 0]` read as a
  signed integer and clamped into `[0, N − 1]`. The clamp is the one a gather of ROWS of the transposed matrix
  `[N, C]` applies to the same number, so the two gathers read the same entries of the same table.
-/
import Idealize.ShloMosaic.Lib.ValueIdx
import Idealize.ShloMosaic.PureOps.Ideal
import proofs.«109417_j84524956385822_2_alg».proof.Proof.LibRowGatherScatter

noncomputable section

namespace ColOps

open Idealize.ShloMosaic Idealize.ShloMosaic.ValueIdx

section Gather
variable {α : Type}

/-- The dimension numbers of the column gather: operand `[C, N]`, start indices `[R, 1]`, result `[C, R]`. -/
abbrev colGatherDims (C N R : Nat)
    (wf : GatherDims.WF ⟨2, ![C, N]⟩ ⟨2, ![R, 1]⟩ ⟨2, ![C, R]⟩ [0] [1] [] [1] [] 1 ![C, 1]) :
    GatherDims ⟨2, ![C, N]⟩ ⟨2, ![R, 1]⟩ ⟨2, ![C, R]⟩ where
  offsetDims := [0]
  collapsedSliceDims := [1]
  operandBatchingDims := []
  startIndicesBatchingDims := []
  startIndexMap := [1]
  indexVectorDim := 1
  sliceSizes := ![C, 1]
  wf := wf

/-- THE COLUMN GATHER READ AT `(c, e)`: entry `c` of the looked-up column, the column number read signed and
    clamped into `[0, N − 1]` exactly as the row gather of the transposed table clamps it. -/
theorem gather_cols_apply {C N R w : Nat} (hN : 0 < N)
    (wf : GatherDims.WF ⟨2, ![C, N]⟩ ⟨2, ![R, 1]⟩ ⟨2, ![C, R]⟩ [0] [1] [] [1] [] 1 ![C, 1])
    (x : (⟨2, ![C, N]⟩ : Shape).Idx → α) (idx : IVec ⟨2, ![R, 1]⟩ w) (c : Fin C) (e : Fin R) :
    Host.gather (colGatherDims C N R wf) x idx (ix2 c e) = x (ix2 c (RowOps.gatheredRow hN idx e)) := by
  unfold Host.gather
  congr 1
  have h1 : ((colGatherDims C N R wf).operandIdx (ix2 c e) idx (1 : Fin 2)).val = (RowOps.gatheredRow hN idx e).val := by
    show (colGatherDims C N R wf).start (ix2 c e) idx (1 : Fin 2) + (colGatherDims C N R wf).batchCoord (ix2 c e) (1 : Fin 2)
        + (colGatherDims C N R wf).offCoord (ix2 c e) (1 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (1 : Fin 2) ∈ (colGatherDims C N R wf).startIndexMap from List.mem_singleton.mpr rfl)]
    have hsi : (colGatherDims C N R wf).siIdx (ix2 c e) ⟨List.idxOf (1 : Fin 2) (colGatherDims C N R wf).startIndexMap,
        List.idxOf_lt_length_iff.2 (List.mem_singleton.mpr rfl)⟩ = RowOps.col0 e := by
      funext b; refine Fin.ext ?_
      match b with
      | ⟨0, _⟩ => rfl
      | ⟨1, _⟩ => rfl
    rw [hsi]
    rfl
  have h0 : ((colGatherDims C N R wf).operandIdx (ix2 c e) idx (0 : Fin 2)).val = c.val := by
    show (colGatherDims C N R wf).start (ix2 c e) idx (0 : Fin 2) + (colGatherDims C N R wf).batchCoord (ix2 c e) (0 : Fin 2)
        + (colGatherDims C N R wf).offCoord (ix2 c e) (0 : Fin 2) = _
    rw [GatherDims.batchCoord_eq_zero _ _ _ List.not_mem_nil, Nat.add_zero]
    have hn : (0 : Fin 2) ∉ (colGatherDims C N R wf).startIndexMap := fun h =>
      absurd (List.mem_singleton.mp h) (by decide : ¬ (0 : Fin 2) = 1)
    have hk : (0 : Fin 2) ∈ (colGatherDims C N R wf).sKept :=
      (GatherDims.mem_sKept _ _).mpr ⟨fun h => absurd (List.mem_singleton.mp h) (by decide : ¬ (0 : Fin 2) = 1),
        List.not_mem_nil⟩
    unfold GatherDims.start GatherDims.offCoord
    rw [dif_neg hn, dif_pos hk, Nat.zero_add]
    rfl
  funext a
  refine Fin.ext ?_
  match a with
  | ⟨0, _⟩ => exact h0
  | ⟨1, _⟩ => exact h1

end Gather

end ColOps

end
-- ==== Proof.EdgeScore.lean ====
/-
  The edge score computed two ways, on the extended reals.

  Per node, q = logits · P (plus a bias row that is zero). One side transposes the logits and q to [7, 50000],
  gathers the COLUMNS of each at the edges' endpoints and sums the seven products down each column; the other
  gathers the ROWS of the logits at the same endpoints, multiplies the second by P, multiplies entry by entry
  and sums along each row from zero. A start index is read signed and clamped into [0, 49999] by both gathers,
  so for an edge e both read node ρ(e) and node κ(e), and both sides are
      ∑ c, logits(ρ e, c) · ∑ k, logits(κ e, k) · P(k, c)
  up to an added zero: x + 0 on one side, 0 + x on the other.
-/
import proofs.«109417_j84524956385822_2_alg».proof.KernelIdeal
import proofs.«109417_j84524956385822_2_alg».proof.ReferenceIdeal
import proofs.«109417_j84524956385822_2_alg».proof.Proof.Sums
import proofs.«109417_j84524956385822_2_alg».proof.Proof.LibPlainDot
import proofs.«109417_j84524956385822_2_alg».proof.Proof.LibRowGatherScatter
import proofs.«109417_j84524956385822_2_alg».proof.Proof.LibColGather
import Idealize.ShloMosaic.Lib.ValueLayout
import Idealize.ShloMosaic.Lib.IdealHost

noncomputable section

namespace Cert.Gcn.Edge

open Idealize.ShloMosaic Idealize.ShloMosaic.ValueIdx

-- the two programs' stated side conditions (their shapes' transpose, gather, product and reduction facts)
variable [Cert.KernelIdeal.Facts₀] [Cert.ReferenceIdeal.Facts₀]

/-- The node an edge's start index names: the index read signed and clamped into [0, 49999]. -/
abbrev node (idx : IVec ⟨2, ![800000, 1]⟩ 32) (e : Fin 800000) : Fin 50000 :=
  RowOps.gatheredRow (by decide : 0 < 50000) idx e

/-- The column gather's record is the general column gather at these extents. -/
theorem kernel_gather_eq :
    Cert.KernelIdeal.gather_S7x50000_S800000x1_S7x800000_0_1_n_n_1_1_71
      = ColOps.colGatherDims 7 50000 800000 Cert.KernelIdeal.Facts₀.gather_S7x50000_S800000x1_S7x800000_0_1_n_n_1_1_71_wf := rfl

/-- The row gather's record is the general row gather at these extents. -/
theorem ref_gather_eq :
    Cert.ReferenceIdeal.gather_S50000x7_S800000x1_S800000x7_1_0_n_n_0_1_17
      = RowOps.rowGatherDims 50000 800000 7 Cert.ReferenceIdeal.Facts₀.gather_S50000x7_S800000x1_S800000x7_1_0_n_n_0_1_17_wf := rfl

/-- A column of the transposed table gathered at an edge: entry (c, e) is the table's entry (node e, c). -/
theorem kernel_gather_apply (x : FVec Ideal ⟨2, ![50000, 7]⟩ .f32) (idx : IVec ⟨2, ![800000, 1]⟩ 32) (c : Fin 7) (e : Fin 800000) :
    Host.gather Cert.KernelIdeal.gather_S7x50000_S800000x1_S7x800000_0_1_n_n_1_1_71
        (transpose ⟨2, ![7, 50000]⟩ [1, 0] x Cert.KernelIdeal.Facts₀.transposes_S50000x7_S7x50000_1_0) idx (ix2 c e)
      = x (ix2 (node idx e) c) := by
  rw [kernel_gather_eq]
  exact (ColOps.gather_cols_apply (by decide : 0 < 50000) _ _ idx c e).trans
    (transpose_ix2_apply x Cert.KernelIdeal.Facts₀.transposes_S50000x7_S7x50000_1_0 c (node idx e))

/-- A row of the table gathered at an edge: entry (e, c) is the table's entry (node e, c). -/
theorem ref_gather_apply (x : FVec Ideal ⟨2, ![50000, 7]⟩ .f32) (idx : IVec ⟨2, ![800000, 1]⟩ 32) (e : Fin 800000) (c : Fin 7) :
    Host.gather Cert.ReferenceIdeal.gather_S50000x7_S800000x1_S800000x7_1_0_n_n_0_1_17 x idx (ix2 e c)
      = x (ix2 (node idx e) c) := by
  rw [ref_gather_eq]
  exact RowOps.gather_rows_apply (by decide : 0 < 50000) _ x idx e c

/-- The product record is the plain [800000, 7] by [7, 7] product. -/
theorem ref_dot_eq :
    Cert.ReferenceIdeal.dot_S800000x7_S7x7_S800000x7_1_0_0_1_n_n = DotDims.plain 800000 7 7 := rfl

/-- The sum along a row of an [800000, 7] array from an initial scalar, at edge e. -/
theorem ref_rowsum_apply (x : FVec Ideal ⟨2, ![800000, 7]⟩ .f32) (init : FVec Ideal ⟨0, ![]⟩ .f32) (e : Fin 800000) :
    Host.reduceAdd (F := Ideal) x init Cert.ReferenceIdeal.Facts₀.reducesTo_S800000x7_S800000_d1 Cert.ReferenceIdeal.Facts₀.h_S_ (ix1 e)
      = init (Shape.Idx.first Cert.ReferenceIdeal.Facts₀.h_S_) + ∑ c : Fin 7, x (ix2 e c) := by
  have h : (⟨2, ![800000, 7]⟩ : Shape).Reduces [1] ⟨1, ![800000]⟩ := by decide
  refine (hostReduceAdd_apply x init _ _ (ix1 e)).trans ?_
  refine (Ideal.hostReduceAdd_single Cert.ReferenceIdeal.Facts₀.reducesTo_S800000x7_S800000_d1 h x _ (ix1 e)).trans ?_
  congr 1
  show ∑ c : Fin 7, x (h.lift (ix1 e) c) = _
  refine Finset.sum_congr rfl fun c _ => congrArg x ?_
  funext a
  refine Fin.ext ?_
  match a with
  | ⟨0, _⟩ => rfl
  | ⟨1, _⟩ => rfl

/-- THE EDGE SCORE: the column sums of the gathered transposed tables are the row sums of the gathered rows. -/
theorem edge_score (lg : FVec Ideal ⟨2, ![50000, 7]⟩ .f32) (P : FVec Ideal ⟨2, ![7, 7]⟩ .f32) (z : FVec Ideal ⟨2, ![1, 7]⟩ .f32)
    (hz : ∀ j, z j = 0) (iR iC : IVec ⟨2, ![800000, 1]⟩ 32) (e : Fin 800000) :
    Cert.Gcn.colDot
        (Host.gather Cert.KernelIdeal.gather_S7x50000_S800000x1_S7x800000_0_1_n_n_1_1_71
          (transpose ⟨2, ![7, 50000]⟩ [1, 0] lg Cert.KernelIdeal.Facts₀.transposes_S50000x7_S7x50000_1_0) iR)
        (Host.gather Cert.KernelIdeal.gather_S7x50000_S800000x1_S7x800000_0_1_n_n_1_1_71
          (transpose ⟨2, ![7, 50000]⟩ [1, 0] (Cert.Gcn.lin lg P z) Cert.KernelIdeal.Facts₀.transposes_S50000x7_S7x50000_1_0) iC)
        (ix2 0 e)
      = Host.reduceAdd (F := Ideal)
          (mulf (Host.gather Cert.ReferenceIdeal.gather_S50000x7_S800000x1_S800000x7_1_0_n_n_0_1_17 lg iR)
            (Host.dotGeneral Cert.ReferenceIdeal.dot_S800000x7_S7x7_S800000x7_1_0_0_1_n_n none
              (Host.gather Cert.ReferenceIdeal.gather_S50000x7_S800000x1_S800000x7_1_0_n_n_0_1_17 lg iC) P))
          (constant (F := Ideal) ⟨0, ![]⟩ .f32 0x00000000#32)
          Cert.ReferenceIdeal.Facts₀.reducesTo_S800000x7_S800000_d1 Cert.ReferenceIdeal.Facts₀.h_S_ (ix1 e) := by
  rw [ref_rowsum_apply]
  show ∑ c : Fin 7, _ * _ = Ideal.ofBits .f32 0x00000000#32 + _
  rw [Ideal.ofBits_zero_f32, zero_add]
  refine Finset.sum_congr rfl fun c _ => ?_
  rw [mulf_apply, ref_gather_apply]
  show Host.gather _ _ iR (ix2 c e) * Host.gather _ _ iC (ix2 c e) = _
  rw [kernel_gather_apply, kernel_gather_apply]
  congr 1
  show (∑ k : Fin 7, lg (ix2 (node iC e) k) * P (ix2 k c)) + z (ix2 0 c) = _
  rw [hz, add_zero]
  refine ((dotGeneral_plain_apply _ ref_dot_eq none .single _ P e c).trans ?_).symm
  exact Finset.sum_congr rfl fun k _ => by rw [ref_gather_apply]

end Cert.Gcn.Edge

end
-- ==== Proof.EdgeSpec.lean ====
/-
  The edge score as a whole array: the one-row array of column sums, reshaped to a vector, is the
  specification's raw edge weight, entry by entry.
-/
import proofs.«109417_j84524956385822_2_alg».proof.Proof.EdgeScore
import proofs.«109417_j84524956385822_2_alg».proof.Proof.Spec

noncomputable section

namespace Cert.Gcn.Edge

open Idealize.ShloMosaic Idealize.ShloMosaic.ValueIdx

variable [Cert.KernelIdeal.Facts₀] [Cert.ReferenceIdeal.Facts₀]

/-- The column sums over the gathered transposed tables, reshaped [1, 800000] → [800000], are the raw weights. -/
theorem edge_score_spec (lg : FVec Ideal ⟨2, ![50000, 7]⟩ .f32) (P : FVec Ideal ⟨2, ![7, 7]⟩ .f32) (z : FVec Ideal ⟨2, ![1, 7]⟩ .f32)
    (hz : ∀ j, z j = 0) (sR sC : IVec ⟨1, ![800000]⟩ 32)
    (hc : (⟨2, ![1, 800000]⟩ : Shape).ShapeCasts ⟨1, ![800000]⟩) :
    shapeCast ⟨1, ![800000]⟩
        (Cert.Gcn.colDot
          (Host.gather Cert.KernelIdeal.gather_S7x50000_S800000x1_S7x800000_0_1_n_n_1_1_71
            (transpose ⟨2, ![7, 50000]⟩ [1, 0] lg Cert.KernelIdeal.Facts₀.transposes_S50000x7_S7x50000_1_0) (Cert.Gcn.Spec.startE sR))
          (Host.gather Cert.KernelIdeal.gather_S7x50000_S800000x1_S7x800000_0_1_n_n_1_1_71
            (transpose ⟨2, ![7, 50000]⟩ [1, 0] (Cert.Gcn.lin lg P z) Cert.KernelIdeal.Facts₀.transposes_S50000x7_S7x50000_1_0)
            (Cert.Gcn.Spec.startE sC)))
        hc
      = Cert.Gcn.Spec.ewraw lg P sR sC := by
  funext i
  obtain ⟨e, rfl⟩ : ∃ e : Fin 800000, i = ix1 e := ⟨i 0, eq_ix1 i⟩
  rw [shapeCast_1a_a_apply]
  exact edge_score lg P z hz (Cert.Gcn.Spec.startE sR) (Cert.Gcn.Spec.startE sC) e

end Cert.Gcn.Edge

end
-- ==== Proof.Reg0.lean ====
/-
  Region 0 of the kernel program, read as a value: the row-tiled body "x · W + b, then max with 0" writes, at each of the
  25 grid points, rows 2000·t … 2000·t + 1999 of the product of the whole [50000, 512] array with the [512, 512] weight,
  plus the one-row bias along every row, clamped below at zero. The tiles cover the array, so after the region the output
  array is that function of the three input arrays, entry by entry, on the extended reals.
-/
import proofs.«109417_j84524956385822_2_alg».proof.Proof.Gen.KernelIdeal.Frame
import proofs.«109417_j84524956385822_2_alg».proof.Proof.Sums
import proofs.«109417_j84524956385822_2_alg».proof.Proof.LibPlainDot
import Idealize.ShloMosaic.Lib.Pipeline.Value
import Idealize.ShloMosaic.Lib.ValueLayout
import Idealize.ShloMosaic.Lib.ValueIdx

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer rectangle, as the constant function. -/
theorem hz0 : (![0, 0] : Fin 2 → Nat) = fun _ => 0 := funext fun a => by fin_cases a <;> rfl

/-- The body's stored value at entry (p, q) of its block: the row of the left block times the column of the
    right block, plus the bias row's entry q, then the maximum with zero. -/
theorem pay0_apply (x0 : Vec Ideal S2000x512 .f32) (x1 : Vec Ideal S512x512 .f32) (x2 : Vec Ideal S1x512 .f32)
    (p : Fin 2000) (q : Fin 512) :
    k0_pay1 (F := Ideal) x0 x1 x2 (ix2 p q) = max ((∑ k : Fin 512, x0 (ix2 p k) * x1 (ix2 k q)) + x2 (ix2 (0 : Fin 1) q)) 0 := by
  unfold k0_pay1
  show max ((FloatOps.matmul (F := Ideal) _ none (x0 : FVec Ideal S2000x512 .f32) (x1 : FVec Ideal S512x512 .f32) (constant S2000x512 .f32 0x00000000#32) (ix2 p q) : EReal)
      + (broadcastTo S2000x512 (shapeCast S1x512 (x2 : FVec Ideal S1x512 .f32) _) _ (ix2 p q) : EReal)) (Ideal.ofBits .f32 0x00000000#32) = _
  rw [Ideal.ofBits_zero_f32]
  refine congrArg (fun z => max z 0) ?_
  refine congrArg₂ (· + ·) ?_ ?_
  · exact matmul_plain_zero_apply _ rfl none x0 x1 p q
  · refine (broadcastTo_1b_ab_apply _ _ p q).trans ?_
    rw [shapeCast_self]

/-- When the left block is rows n·2000 … n·2000 + 1999 of A0 and the other two blocks are A1 and A2 whole, the body's
    value at entry j of the block is the layer's value at the entry i of the array that j sits at. -/
theorem blk0_eq (A0 : FVec Ideal S50000x512 .f32) (A1 : FVec Ideal S512x512 .f32) (A2 : FVec Ideal S1x512 .f32)
    (x0 : Vec Ideal S2000x512 .f32) (x1 : Vec Ideal S512x512 .f32) (x2 : Vec Ideal S1x512 .f32) (n : ℕ)
    (h0 : ∀ (y : S2000x512.Idx) (i : S50000x512.Idx), (i 0).val = n * 2000 + (y 0).val → (i 1).val = (y 1).val → x0 y = A0 i)
    (h1 : ∀ y : S512x512.Idx, x1 y = A1 y) (h2 : ∀ y : S1x512.Idx, x2 y = A2 y)
    (j : S2000x512.Idx) (i : S50000x512.Idx) (hi0 : (i 0).val = n * 2000 + (j 0).val) (hi1 : (i 1).val = (j 1).val) :
    k0_pay1 (F := Ideal) x0 x1 x2 j = Cert.Gcn.linRelu A0 A1 A2 i := by
  obtain ⟨p, q, rfl⟩ : ∃ (p : Fin 2000) (q : Fin 512), j = ix2 p q := ⟨j 0, j 1, eq_ix2 j⟩
  obtain ⟨r, q', rfl⟩ : ∃ (r : Fin 50000) (q' : Fin 512), i = ix2 r q' := ⟨i 0, i 1, eq_ix2 i⟩
  have hr : r.val = n * 2000 + p.val := hi0
  obtain rfl : q' = q := Fin.ext hi1
  rw [pay0_apply]
  show _ = max ((∑ k : Fin 512, A0 (ix2 r k) * A1 (ix2 k q')) + A2 (ix2 (0 : Fin 1) q')) 0
  rw [h2]
  refine congrArg (fun z => max (z + A2 (ix2 (0 : Fin 1) q')) 0) ?_
  exact Finset.sum_congr rfl fun k _ => by rw [h0 (ix2 p k) (ix2 r k) hr rfl, h1]

variable (V : (c : Dev nD) → (b : Ref sig .tc) → Buf (Elt Ideal) ((c : Thread nD τ).loc b))

/-- The printed index maps over the grid: the row windows sit at block t, the weight and the bias at block 0. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the layer's whole-array value. -/
theorem flushed0_eq (c : Dev nD) (t : Fin cfg0.N) :
    (dat0 (F := Ideal) V c).flushed 3 t
      = ((cfg0.win 3).blk t).view.read (Elt Ideal)
          (Cert.Gcn.linRelu (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz0]
  simp only [View.ld_unit_zero (S := S2000x512) hz0, View.ld_unit_zero (S := S512x512) hz0, View.ld_unit_zero (S := S1x512) hz0]
  obtain ⟨e00, e01, e10, e11, e20, e21, e30, e31⟩ := idx0 t
  funext j
  show k0_pay1 (F := Ideal) (iblk0 V c 0 t) (iblk0 V c 1 t) (iblk0 V c 2 t) j
    = Cert.Gcn.linRelu (V c (Pipeline.arrRef spec0 0)) (V c (Pipeline.arrRef spec0 1)) (V c (Pipeline.arrRef spec0 2)) (((cfg0.win 3).blk t).view.emb j)
  refine blk0_eq (V c (Pipeline.arrRef spec0 0)) (V c (Pipeline.arrRef spec0 1)) (V c (Pipeline.arrRef spec0 2))
    (iblk0 V c 0 t) (iblk0 V c 1 t) (iblk0 V c 2 t) t.val ?_ ?_ ?_ j (((cfg0.win 3).blk t).view.emb j) ?_ ?_
  · intro y i hy0 hy1
    show V c (Pipeline.arrRef spec0 0) (((cfg0.win 0).blk t).view.emb y) = V c (Pipeline.arrRef spec0 0) i
    refine congrArg (V c (Pipeline.arrRef spec0 0)) (funext fun a => Fin.ext ?_)
    match a with
    | ⟨0, _⟩ => show win0_0.index t (0 : Fin 2) * 2000 + 1 * (y 0).val = (i 0).val; omega
    | ⟨1, _⟩ => show win0_0.index t (1 : Fin 2) * 512 + 1 * (y 1).val = (i 1).val; omega
  · intro y
    show V c (Pipeline.arrRef spec0 1) (((cfg0.win 1).blk t).view.emb y) = V c (Pipeline.arrRef spec0 1) y
    refine congrArg (V c (Pipeline.arrRef spec0 1)) (funext fun a => Fin.ext ?_)
    match a with
    | ⟨0, _⟩ => show win0_1.index t (0 : Fin 2) * 512 + 1 * (y 0).val = (y 0).val; omega
    | ⟨1, _⟩ => show win0_1.index t (1 : Fin 2) * 512 + 1 * (y 1).val = (y 1).val; omega
  · intro y
    show V c (Pipeline.arrRef spec0 2) (((cfg0.win 2).blk t).view.emb y) = V c (Pipeline.arrRef spec0 2) y
    refine congrArg (V c (Pipeline.arrRef spec0 2)) (funext fun a => Fin.ext ?_)
    match a with
    | ⟨0, _⟩ => show win0_2.index t (0 : Fin 2) * 1 + 1 * (y 0).val = (y 0).val; omega
    | ⟨1, _⟩ => show win0_2.index t (1 : Fin 2) * 512 + 1 * (y 1).val = (y 1).val; omega
  · show win0_3.index t (0 : Fin 2) * 2000 + 1 * (j 0).val = t.val * 2000 + (j 0).val; omega
  · show win0_3.index t (1 : Fin 2) * 512 + 1 * (j 1).val = (j 1).val; omega

/-- An entry of the array is in point t's block iff each coordinate is in the block's range on its axis. -/
theorem mem_blk0 (t : Fin cfg0.N) (i : S50000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v5).slice (win0_3.rect t)).set ↔ _
  rw [View.set_slice_whole, Rect.mem_set_unit]
  exact Iff.rfl

/-- Row r lies in the block of point r / 2000: the 25 row tiles cover the array. -/
theorem cover0 (i : S50000x512.Idx) : ∃ t : Fin cfg0.N, (cfg0.win 3).flush t = true ∧ i ∈ ((cfg0.win 3).blk t).view.set := by
  have hN : cfg0.N = 25 := N_0
  have hi0 : (i 0).val < 50000 := (i 0).isLt
  have hi1 : (i 1).val < 512 := (i 1).isLt
  have ht : (i 0).val / 2000 < cfg0.N := by rw [hN]; omega
  obtain ⟨-, -, -, -, -, -, e30, e31⟩ := idx0 ⟨(i 0).val / 2000, ht⟩
  refine ⟨⟨(i 0).val / 2000, ht⟩, flush0_3 _, ?_⟩
  rw [mem_blk0]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win0_3.index ⟨(i 0).val / 2000, ht⟩ (1 : Fin 2) * 512 ≤ (i 1).val ∧ (i 1).val < win0_3.index ⟨(i 0).val / 2000, ht⟩ (1 : Fin 2) * 512 + 512
    rw [e31]; omega

/-- REGION 0: the output array after the region is the layer's value of the three input arrays as the region finds them. -/
theorem reg0 (c : Dev nD) :
    (dat0 (F := Ideal) V c).arrAt 3 cfg0.N
      = Cert.Gcn.linRelu (V c (Pipeline.arrRef spec0 0)) (V c (Pipeline.arrRef spec0 1)) (V c (Pipeline.arrRef spec0 2)) :=
  (dat0 V c).arrAt_eq_of_cover 3 _ (fun t _ => flushed0_eq V c t) cover0

end Cert.KernelIdeal.RegVal
end
-- ==== Proof.Reg1.lean ====
/-
  Region 1 of the kernel program, read as a value: the row-tiled body "x · W + b, then max with 0" writes, at each of the
  25 grid points, rows 2000·t … 2000·t + 1999 of the product of the whole [50000, 512] array with the [512, 64] weight,
  plus the one-row bias along every row, clamped below at zero. The tiles cover the array, so after the region the output
  array is that function of the three input arrays, entry by entry, on the extended reals.
-/
import proofs.«109417_j84524956385822_2_alg».proof.Proof.Gen.KernelIdeal.Frame
import proofs.«109417_j84524956385822_2_alg».proof.Proof.Sums
import proofs.«109417_j84524956385822_2_alg».proof.Proof.LibPlainDot
import Idealize.ShloMosaic.Lib.Pipeline.Value
import Idealize.ShloMosaic.Lib.ValueLayout
import Idealize.ShloMosaic.Lib.ValueIdx

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer rectangle, as the constant function. -/
theorem hz1 : (![0, 0] : Fin 2 → Nat) = fun _ => 0 := funext fun a => by fin_cases a <;> rfl

/-- The body's stored value at entry (p, q) of its block: the row of the left block times the column of the
    right block, plus the bias row's entry q, then the maximum with zero. -/
theorem pay1_apply (x0 : Vec Ideal S2000x512 .f32) (x1 : Vec Ideal S512x64 .f32) (x2 : Vec Ideal S1x64 .f32)
    (p : Fin 2000) (q : Fin 64) :
    k1_pay1 (F := Ideal) x0 x1 x2 (ix2 p q) = max ((∑ k : Fin 512, x0 (ix2 p k) * x1 (ix2 k q)) + x2 (ix2 (0 : Fin 1) q)) 0 := by
  unfold k1_pay1
  show max ((FloatOps.matmul (F := Ideal) _ none (shapeCast S2000x512 (x0 : FVec Ideal S2000x512 .f32) _) (x1 : FVec Ideal S512x64 .f32) (constant S2000x64 .f32 0x00000000#32) (ix2 p q) : EReal)
      + (broadcastTo S2000x64 (shapeCast S1x64 (x2 : FVec Ideal S1x64 .f32) _) _ (ix2 p q) : EReal)) (Ideal.ofBits .f32 0x00000000#32) = _
  rw [Ideal.ofBits_zero_f32, shapeCast_self, shapeCast_self]
  refine congrArg (fun z => max z 0) ?_
  refine congrArg₂ (· + ·) ?_ ?_
  · exact matmul_plain_zero_apply _ rfl none x0 x1 p q
  · exact broadcastTo_1b_ab_apply _ _ p q

/-- When the left block is rows n·2000 … n·2000 + 1999 of A0 and the other two blocks are A1 and A2 whole, the body's
    value at entry j of the block is the layer's value at the entry i of the array that j sits at. -/
theorem blk1_eq (A0 : FVec Ideal S50000x512 .f32) (A1 : FVec Ideal S512x64 .f32) (A2 : FVec Ideal S1x64 .f32)
    (x0 : Vec Ideal S2000x512 .f32) (x1 : Vec Ideal S512x64 .f32) (x2 : Vec Ideal S1x64 .f32) (n : ℕ)
    (h0 : ∀ (y : S2000x512.Idx) (i : S50000x512.Idx), (i 0).val = n * 2000 + (y 0).val → (i 1).val = (y 1).val → x0 y = A0 i)
    (h1 : ∀ y : S512x64.Idx, x1 y = A1 y) (h2 : ∀ y : S1x64.Idx, x2 y = A2 y)
    (j : S2000x64.Idx) (i : S50000x64.Idx) (hi0 : (i 0).val = n * 2000 + (j 0).val) (hi1 : (i 1).val = (j 1).val) :
    k1_pay1 (F := Ideal) x0 x1 x2 j = Cert.Gcn.linRelu A0 A1 A2 i := by
  obtain ⟨p, q, rfl⟩ : ∃ (p : Fin 2000) (q : Fin 64), j = ix2 p q := ⟨j 0, j 1, eq_ix2 j⟩
  obtain ⟨r, q', rfl⟩ : ∃ (r : Fin 50000) (q' : Fin 64), i = ix2 r q' := ⟨i 0, i 1, eq_ix2 i⟩
  have hr : r.val = n * 2000 + p.val := hi0
  obtain rfl : q' = q := Fin.ext hi1
  rw [pay1_apply]
  show _ = max ((∑ k : Fin 512, A0 (ix2 r k) * A1 (ix2 k q')) + A2 (ix2 (0 : Fin 1) q')) 0
  rw [h2]
  refine congrArg (fun z => max (z + A2 (ix2 (0 : Fin 1) q')) 0) ?_
  exact Finset.sum_congr rfl fun k _ => by rw [h0 (ix2 p k) (ix2 r k) hr rfl, h1]

variable (V : (c : Dev nD) → (b : Ref sig .tc) → Buf (Elt Ideal) ((c : Thread nD τ).loc b))

/-- The printed index maps over the grid: the row windows sit at block t, the weight and the bias at block 0. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the layer's whole-array value. -/
theorem flushed1_eq (c : Dev nD) (t : Fin cfg1.N) :
    (dat1 (F := Ideal) V c).flushed 3 t
      = ((cfg1.win 3).blk t).view.read (Elt Ideal)
          (Cert.Gcn.linRelu (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz1]
  simp only [View.ld_unit_zero (S := S2000x512) hz1, View.ld_unit_zero (S := S512x64) hz1, View.ld_unit_zero (S := S1x64) hz1]
  obtain ⟨e00, e01, e10, e11, e20, e21, e30, e31⟩ := idx1 t
  funext j
  show k1_pay1 (F := Ideal) (iblk1 V c 0 t) (iblk1 V c 1 t) (iblk1 V c 2 t) j
    = Cert.Gcn.linRelu (V c (Pipeline.arrRef spec1 0)) (V c (Pipeline.arrRef spec1 1)) (V c (Pipeline.arrRef spec1 2)) (((cfg1.win 3).blk t).view.emb j)
  refine blk1_eq (V c (Pipeline.arrRef spec1 0)) (V c (Pipeline.arrRef spec1 1)) (V c (Pipeline.arrRef spec1 2))
    (iblk1 V c 0 t) (iblk1 V c 1 t) (iblk1 V c 2 t) t.val ?_ ?_ ?_ j (((cfg1.win 3).blk t).view.emb j) ?_ ?_
  · intro y i hy0 hy1
    show V c (Pipeline.arrRef spec1 0) (((cfg1.win 0).blk t).view.emb y) = V c (Pipeline.arrRef spec1 0) i
    refine congrArg (V c (Pipeline.arrRef spec1 0)) (funext fun a => Fin.ext ?_)
    match a with
    | ⟨0, _⟩ => show win1_0.index t (0 : Fin 2) * 2000 + 1 * (y 0).val = (i 0).val; omega
    | ⟨1, _⟩ => show win1_0.index t (1 : Fin 2) * 512 + 1 * (y 1).val = (i 1).val; omega
  · intro y
    show V c (Pipeline.arrRef spec1 1) (((cfg1.win 1).blk t).view.emb y) = V c (Pipeline.arrRef spec1 1) y
    refine congrArg (V c (Pipeline.arrRef spec1 1)) (funext fun a => Fin.ext ?_)
    match a with
    | ⟨0, _⟩ => show win1_1.index t (0 : Fin 2) * 512 + 1 * (y 0).val = (y 0).val; omega
    | ⟨1, _⟩ => show win1_1.index t (1 : Fin 2) * 64 + 1 * (y 1).val = (y 1).val; omega
  · intro y
    show V c (Pipeline.arrRef spec1 2) (((cfg1.win 2).blk t).view.emb y) = V c (Pipeline.arrRef spec1 2) y
    refine congrArg (V c (Pipeline.arrRef spec1 2)) (funext fun a => Fin.ext ?_)
    match a with
    | ⟨0, _⟩ => show win1_2.index t (0 : Fin 2) * 1 + 1 * (y 0).val = (y 0).val; omega
    | ⟨1, _⟩ => show win1_2.index t (1 : Fin 2) * 64 + 1 * (y 1).val = (y 1).val; omega
  · show win1_3.index t (0 : Fin 2) * 2000 + 1 * (j 0).val = t.val * 2000 + (j 0).val; omega
  · show win1_3.index t (1 : Fin 2) * 64 + 1 * (j 1).val = (j 1).val; omega

/-- An entry of the array is in point t's block iff each coordinate is in the block's range on its axis. -/
theorem mem_blk1 (t : Fin cfg1.N) (i : S50000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v7).slice (win1_3.rect t)).set ↔ _
  rw [View.set_slice_whole, Rect.mem_set_unit]
  exact Iff.rfl

/-- Row r lies in the block of point r / 2000: the 25 row tiles cover the array. -/
theorem cover1 (i : S50000x64.Idx) : ∃ t : Fin cfg1.N, (cfg1.win 3).flush t = true ∧ i ∈ ((cfg1.win 3).blk t).view.set := by
  have hN : cfg1.N = 25 := N_1
  have hi0 : (i 0).val < 50000 := (i 0).isLt
  have hi1 : (i 1).val < 64 := (i 1).isLt
  have ht : (i 0).val / 2000 < cfg1.N := by rw [hN]; omega
  obtain ⟨-, -, -, -, -, -, e30, e31⟩ := idx1 ⟨(i 0).val / 2000, ht⟩
  refine ⟨⟨(i 0).val / 2000, ht⟩, flush1_3 _, ?_⟩
  rw [mem_blk1]
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win1_3.index ⟨(i 0).val / 2000, ht⟩ (1 : Fin 2) * 64 ≤ (i 1).val ∧ (i 1).val < win1_3.index ⟨(i 0).val / 2000, ht⟩ (1 : Fin 2) * 64 + 64
    rw [e31]; omega

/-- REGION 1: the output array after the region is the layer's value of the three input arrays as the region finds them. -/
theorem reg1 (c : Dev nD) :
    (dat1 (F := Ideal) V c).arrAt 3 cfg1.N
      = Cert.Gcn.linRelu (V c (Pipeline.arrRef spec1 0)) (V c (Pipeline.arrRef spec1 1)) (V c (Pipeline.arrRef spec1 2)) :=
  (dat1 V c).arrAt_eq_of_cover 3 _ (fun t _ => flushed1_eq V c t) cover1

end Cert.KernelIdeal.RegVal
end
-- ==== Proof.Reg2.lean ====
/-
  Region 2 of the kernel program, read as a value: the row-tiled body "x · W + b" writes, at each of the 5 grid
  points, rows 10000·t … 10000·t + 9999 of the product of the whole [50000, 64] array with the [64, 7] weight, plus the
  one-row bias along every row. The tiles cover the array, so after the region the output array is that function of the
  three input arrays, entry by entry, on the extended reals.
-/
import proofs.«109417_j84524956385822_2_alg».proof.Proof.Gen.KernelIdeal.Frame
import proofs.«109417_j84524956385822_2_alg».proof.Proof.Sums
import proofs.«109417_j84524956385822_2_alg».proof.Proof.LibPlainDot
import Idealize.ShloMosaic.Lib.Pipeline.Value
import Idealize.ShloMosaic.Lib.ValueLayout
import Idealize.ShloMosaic.Lib.ValueIdx

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer rectangle, as the constant function. -/
theorem hz2 : (![0, 0] : Fin 2 → Nat) = fun _ => 0 := funext fun a => by fin_cases a <;> rfl

/-- The body's stored value at entry (p, q) of its block: the row of the left block times the column of the
    right block, plus the bias row's entry q. -/
theorem pay2_apply (x0 : Vec Ideal S10000x64 .f32) (x1 : Vec Ideal S64x7 .f32) (x2 : Vec Ideal S1x7 .f32)
    (p : Fin 10000) (q : Fin 7) :
    k2_pay1 (F := Ideal) x0 x1 x2 (ix2 p q) = (∑ k : Fin 64, x0 (ix2 p k) * x1 (ix2 k q)) + x2 (ix2 (0 : Fin 1) q) := by
  unfold k2_pay1
  show (FloatOps.matmul (F := Ideal) _ none (shapeCast S10000x64 (x0 : FVec Ideal S10000x64 .f32) _) (x1 : FVec Ideal S64x7 .f32) (constant S10000x7 .f32 0x00000000#32) (ix2 p q) : EReal)
      + (broadcastTo S10000x7 (shapeCast S1x7 (x2 : FVec Ideal S1x7 .f32) _) _ (ix2 p q) : EReal) = _
  rw [shapeCast_self, shapeCast_self]
  refine congrArg₂ (· + ·) ?_ ?_
  · exact matmul_plain_zero_apply _ rfl none x0 x1 p q
  · exact broadcastTo_1b_ab_apply _ _ p q

/-- When the left block is rows n·10000 … n·10000 + 9999 of A0 and the other two blocks are A1 and A2 whole, the body's
    value at entry j of the block is the layer's value at the entry i of the array that j sits at. -/
theorem blk2_eq (A0 : FVec Ideal S50000x64 .f32) (A1 : FVec Ideal S64x7 .f32) (A2 : FVec Ideal S1x7 .f32)
    (x0 : Vec Ideal S10000x64 .f32) (x1 : Vec Ideal S64x7 .f32) (x2 : Vec Ideal S1x7 .f32) (n : ℕ)
    (h0 : ∀ (y : S10000x64.Idx) (i : S50000x64.Idx), (i 0).val = n * 10000 + (y 0).val → (i 1).val = (y 1).val → x0 y = A0 i)
    (h1 : ∀ y : S64x7.Idx, x1 y = A1 y) (h2 : ∀ y : S1x7.Idx, x2 y = A2 y)
    (j : S10000x7.Idx) (i : S50000x7.Idx) (hi0 : (i 0).val = n * 10000 + (j 0).val) (hi1 : (i 1).val = (j 1).val) :
    k2_pay1 (F := Ideal) x0 x1 x2 j = Cert.Gcn.lin A0 A1 A2 i := by
  obtain ⟨p, q, rfl⟩ : ∃ (p : Fin 10000) (q : Fin 7), j = ix2 p q := ⟨j 0, j 1, eq_ix2 j⟩
  obtain ⟨r, q', rfl⟩ : ∃ (r : Fin 50000) (q' : Fin 7), i = ix2 r q' := ⟨i 0, i 1, eq_ix2 i⟩
  have hr : r.val = n * 10000 + p.val := hi0
  obtain rfl : q' = q := Fin.ext hi1
  rw [pay2_apply]
  show _ = (∑ k : Fin 64, A0 (ix2 r k) * A1 (ix2 k q')) + A2 (ix2 (0 : Fin 1) q')
  rw [h2]
  refine congrArg (fun z => z + A2 (ix2 (0 : Fin 1) q')) ?_
  exact Finset.sum_congr rfl fun k _ => by rw [h0 (ix2 p k) (ix2 r k) hr rfl, h1]

variable (V : (c : Dev nD) → (b : Ref sig .tc) → Buf (Elt Ideal) ((c : Thread nD τ).loc b))

/-- The printed index maps over the grid: the row windows sit at block t, the weight and the bias at block 0. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the layer's whole-array value. -/
theorem flushed2_eq (c : Dev nD) (t : Fin cfg2.N) :
    (dat2 (F := Ideal) V c).flushed 3 t
      = ((cfg2.win 3).blk t).view.read (Elt Ideal)
          (Cert.Gcn.lin (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz2]
  simp only [View.ld_unit_zero (S := S10000x64) hz2, View.ld_unit_zero (S := S64x7) hz2, View.ld_unit_zero (S := S1x7) hz2]
  obtain ⟨e00, e01, e10, e11, e20, e21, e30, e31⟩ := idx2 t
  funext j
  show k2_pay1 (F := Ideal) (iblk2 V c 0 t) (iblk2 V c 1 t) (iblk2 V c 2 t) j
    = Cert.Gcn.lin (V c (Pipeline.arrRef spec2 0)) (V c (Pipeline.arrRef spec2 1)) (V c (Pipeline.arrRef spec2 2)) (((cfg2.win 3).blk t).view.emb j)
  refine blk2_eq (V c (Pipeline.arrRef spec2 0)) (V c (Pipeline.arrRef spec2 1)) (V c (Pipeline.arrRef spec2 2))
    (iblk2 V c 0 t) (iblk2 V c 1 t) (iblk2 V c 2 t) t.val ?_ ?_ ?_ j (((cfg2.win 3).blk t).view.emb j) ?_ ?_
  · intro y i hy0 hy1
    show V c (Pipeline.arrRef spec2 0) (((cfg2.win 0).blk t).view.emb y) = V c (Pipeline.arrRef spec2 0) i
    refine congrArg (V c (Pipeline.arrRef spec2 0)) (funext fun a => Fin.ext ?_)
    match a with
    | ⟨0, _⟩ => show win2_0.index t (0 : Fin 2) * 10000 + 1 * (y 0).val = (i 0).val; omega
    | ⟨1, _⟩ => show win2_0.index t (1 : Fin 2) * 64 + 1 * (y 1).val = (i 1).val; omega
  · intro y
    show V c (Pipeline.arrRef spec2 1) (((cfg2.win 1).blk t).view.emb y) = V c (Pipeline.arrRef spec2 1) y
    refine congrArg (V c (Pipeline.arrRef spec2 1)) (funext fun a => Fin.ext ?_)
    match a with
    | ⟨0, _⟩ => show win2_1.index t (0 : Fin 2) * 64 + 1 * (y 0).val = (y 0).val; omega
    | ⟨1, _⟩ => show win2_1.index t (1 : Fin 2) * 7 + 1 * (y 1).val = (y 1).val; omega
  · intro y
    show V c (Pipeline.arrRef spec2 2) (((cfg2.win 2).blk t).view.emb y) = V c (Pipeline.arrRef spec2 2) y
    refine congrArg (V c (Pipeline.arrRef spec2 2)) (funext fun a => Fin.ext ?_)
    match a with
    | ⟨0, _⟩ => show win2_2.index t (0 : Fin 2) * 1 + 1 * (y 0).val = (y 0).val; omega
    | ⟨1, _⟩ => show win2_2.index t (1 : Fin 2) * 7 + 1 * (y 1).val = (y 1).val; omega
  · show win2_3.index t (0 : Fin 2) * 10000 + 1 * (j 0).val = t.val * 10000 + (j 0).val; omega
  · show win2_3.index t (1 : Fin 2) * 7 + 1 * (j 1).val = (j 1).val; omega

/-- An entry of the array is in point t's block iff each coordinate is in the block's range on its axis. -/
theorem mem_blk2 (t : Fin cfg2.N) (i : S50000x7.Idx) :
    i ∈ ((cfg2.win 3).blk t).view.set ↔ ∀ a : Fin 2, win2_3.index t a * S10000x7.size a ≤ (i a).val ∧ (i a).val < win2_3.index t a * S10000x7.size a + S10000x7.size a := by
  show i ∈ ((View.whole main_v9).slice (win2_3.rect t)).set ↔ _
  rw [View.set_slice_whole, Rect.mem_set_unit]
  exact Iff.rfl

/-- Row r lies in the block of point r / 10000: the 5 row tiles cover the array. -/
theorem cover2 (i : S50000x7.Idx) : ∃ t : Fin cfg2.N, (cfg2.win 3).flush t = true ∧ i ∈ ((cfg2.win 3).blk t).view.set := by
  have hN : cfg2.N = 5 := N_2
  have hi0 : (i 0).val < 50000 := (i 0).isLt
  have hi1 : (i 1).val < 7 := (i 1).isLt
  have ht : (i 0).val / 10000 < cfg2.N := by rw [hN]; omega
  obtain ⟨-, -, -, -, -, -, e30, e31⟩ := idx2 ⟨(i 0).val / 10000, ht⟩
  refine ⟨⟨(i 0).val / 10000, ht⟩, flush2_3 _, ?_⟩
  rw [mem_blk2]
  intro a
  match a with
  | ⟨0, _⟩ =>
    show win2_3.index ⟨(i 0).val / 10000, ht⟩ (0 : Fin 2) * 10000 ≤ (i 0).val ∧ (i 0).val < win2_3.index ⟨(i 0).val / 10000, ht⟩ (0 : Fin 2) * 10000 + 10000
    rw [e30]; show (i 0).val / 10000 * 10000 ≤ (i 0).val ∧ (i 0).val < (i 0).val / 10000 * 10000 + 10000; omega
  | ⟨1, _⟩ =>
    show win2_3.index ⟨(i 0).val / 10000, ht⟩ (1 : Fin 2) * 7 ≤ (i 1).val ∧ (i 1).val < win2_3.index ⟨(i 0).val / 10000, ht⟩ (1 : Fin 2) * 7 + 7
    rw [e31]; omega

/-- REGION 2: the output array after the region is the layer's value of the three input arrays as the region finds them. -/
theorem reg2 (c : Dev nD) :
    (dat2 (F := Ideal) V c).arrAt 3 cfg2.N
      = Cert.Gcn.lin (V c (Pipeline.arrRef spec2 0)) (V c (Pipeline.arrRef spec2 1)) (V c (Pipeline.arrRef spec2 2)) :=
  (dat2 V c).arrAt_eq_of_cover 3 _ (fun t _ => flushed2_eq V c t) cover2

end Cert.KernelIdeal.RegVal
end
-- ==== Proof.Reg3.lean ====
/-
  Region 3 of the kernel program, read as a value: the row-tiled body "x · W + b" writes, at each of the 5 grid
  points, rows 10000·t … 10000·t + 9999 of the product of the whole [50000, 7] array with the [7, 7] weight, plus the
  one-row bias along every row. The tiles cover the array, so after the region the output array is that function of the
  three input arrays, entry by entry, on the extended reals.
-/
import proofs.«109417_j84524956385822_2_alg».proof.Proof.Gen.KernelIdeal.Frame
import proofs.«109417_j84524956385822_2_alg».proof.Proof.Sums
import proofs.«109417_j84524956385822_2_alg».proof.Proof.LibPlainDot
import Idealize.ShloMosaic.Lib.Pipeline.Value
import Idealize.ShloMosaic.Lib.ValueLayout
import Idealize.ShloMosaic.Lib.ValueIdx

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer rectangle, as the constant function. -/
theorem hz3 : (![0, 0] : Fin 2 → Nat) = fun _ => 0 := funext fun a => by fin_cases a <;> rfl

/-- The body's stored value at entry (p, q) of its block: the row of the left block times the column of the
    right block, plus the bias row's entry q. -/
theorem pay3_apply (x0 : Vec Ideal S10000x7 .f32) (x1 : Vec Ideal S7x7 .f32) (x2 : Vec Ideal S1x7 .f32)
    (p : Fin 10000) (q : Fin 7) :
    k3_pay1 (F := Ideal) x0 x1 x2 (ix2 p q) = (∑ k : Fin 7, x0 (ix2 p k) * x1 (ix2 k q)) + x2 (ix2 (0 : Fin 1) q) := by
  unfold k3_pay1
  show (FloatOps.matmul (F := Ideal) _ none (shapeCast S10000x7 (x0 : FVec Ideal S10000x7 .f32) _) (shapeCast S7x7 (x1 : FVec Ideal S7x7 .f32) _) (constant S10000x7 .f32 0x00000000#32) (ix2 p q) : EReal)
      + (broadcastTo S10000x7 (shapeCast S1x7 (x2 : FVec Ideal S1x7 .f32) _) _ (ix2 p q) : EReal) = _
  rw [shapeCast_self, shapeCast_self, shapeCast_self]
  refine congrArg₂ (· + ·) ?_ ?_
  · exact matmul_plain_zero_apply _ rfl none x0 x1 p q
  · exact broadcastTo_1b_ab_apply _ _ p q

/-- When the left block is rows n·10000 … n·10000 + 9999 of A0 and the other two blocks are A1 and A2 whole, the body's
    value at entry j of the block is the layer's value at the entry i of the array that j sits at. -/
theorem blk3_eq (A0 : FVec Ideal S50000x7 .f32) (A1 : FVec Ideal S7x7 .f32) (A2 : FVec Ideal S1x7 .f32)
    (x0 : Vec Ideal S10000x7 .f32) (x1 : Vec Ideal S7x7 .f32) (x2 : Vec Ideal S1x7 .f32) (n : ℕ)
    (h0 : ∀ (y : S10000x7.Idx) (i : S50000x7.Idx), (i 0).val = n * 10000 + (y 0).val → (i 1).val = (y 1).val → x0 y = A0 i)
    (h1 : ∀ y : S7x7.Idx, x1 y = A1 y) (h2 : ∀ y : S1x7.Idx, x2 y = A2 y)
    (j : S10000x7.Idx) (i : S50000x7.Idx) (hi0 : (i 0).val = n * 10000 + (j 0).val) (hi1 : (i 1).val = (j 1).val) :
    k3_pay1 (F := Ideal) x0 x1 x2 j = Cert.Gcn.lin A0 A1 A2 i := by
  obtain ⟨p, q, rfl⟩ : ∃ (p : Fin 10000) (q : Fin 7), j = ix2 p q := ⟨j 0, j 1, eq_ix2 j⟩
  obtain ⟨r, q', rfl⟩ : ∃ (r : Fin 50000) (q' : Fin 7), i = ix2 r q' := ⟨i 0, i 1, eq_ix2 i⟩
  have hr : r.val = n * 10000 + p.val := hi0
  obtain rfl : q' = q := Fin.ext hi1
  rw [pay3_apply]
  show _ = (∑ k : Fin 7, A0 (ix2 r k) * A1 (ix2 k q')) + A2 (ix2 (0 : Fin 1) q')
  rw [h2]
  refine congrArg (fun z => z + A2 (ix2 (0 : Fin 1) q')) ?_
  exact Finset.sum_congr rfl fun k _ => by rw [h0 (ix2 p k) (ix2 r k) hr rfl, h1]

variable (V : (c : Dev nD) → (b : Ref sig .tc) → Buf (Elt Ideal) ((c : Thread nD τ).loc b))

/-- The printed index maps over the grid: the row windows sit at block t, the weight and the bias at block 0. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the layer's whole-array value. -/
theorem flushed3_eq (c : Dev nD) (t : Fin cfg3.N) :
    (dat3 (F := Ideal) V c).flushed 3 t
      = ((cfg3.win 3).blk t).view.read (Elt Ideal)
          (Cert.Gcn.lin (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz3]
  simp only [View.ld_unit_zero (S := S10000x7) hz3, View.ld_unit_zero (S := S7x7) hz3, View.ld_unit_zero (S := S1x7) hz3]
  obtain ⟨e00, e01, e10, e11, e20, e21, e30, e31⟩ := idx3 t
  funext j
  show k3_pay1 (F := Ideal) (iblk3 V c 0 t) (iblk3 V c 1 t) (iblk3 V c 2 t) j
    = Cert.Gcn.lin (V c (Pipeline.arrRef spec3 0)) (V c (Pipeline.arrRef spec3 1)) (V c (Pipeline.arrRef spec3 2)) (((cfg3.win 3).blk t).view.emb j)
  refine blk3_eq (V c (Pipeline.arrRef spec3 0)) (V c (Pipeline.arrRef spec3 1)) (V c (Pipeline.arrRef spec3 2))
    (iblk3 V c 0 t) (iblk3 V c 1 t) (iblk3 V c 2 t) t.val ?_ ?_ ?_ j (((cfg3.win 3).blk t).view.emb j) ?_ ?_
  · intro y i hy0 hy1
    show V c (Pipeline.arrRef spec3 0) (((cfg3.win 0).blk t).view.emb y) = V c (Pipeline.arrRef spec3 0) i
    refine congrArg (V c (Pipeline.arrRef spec3 0)) (funext fun a => Fin.ext ?_)
    match a with
    | ⟨0, _⟩ => show win3_0.index t (0 : Fin 2) * 10000 + 1 * (y 0).val = (i 0).val; omega
    | ⟨1, _⟩ => show win3_0.index t (1 : Fin 2) * 7 + 1 * (y 1).val = (i 1).val; omega
  · intro y
    show V c (Pipeline.arrRef spec3 1) (((cfg3.win 1).blk t).view.emb y) = V c (Pipeline.arrRef spec3 1) y
    refine congrArg (V c (Pipeline.arrRef spec3 1)) (funext fun a => Fin.ext ?_)
    match a with
    | ⟨0, _⟩ => show win3_1.index t (0 : Fin 2) * 7 + 1 * (y 0).val = (y 0).val; omega
    | ⟨1, _⟩ => show win3_1.index t (1 : Fin 2) * 7 + 1 * (y 1).val = (y 1).val; omega
  · intro y
    show V c (Pipeline.arrRef spec3 2) (((cfg3.win 2).blk t).view.emb y) = V c (Pipeline.arrRef spec3 2) y
    refine congrArg (V c (Pipeline.arrRef spec3 2)) (funext fun a => Fin.ext ?_)
    match a with
    | ⟨0, _⟩ => show win3_2.index t (0 : Fin 2) * 1 + 1 * (y 0).val = (y 0).val; omega
    | ⟨1, _⟩ => show win3_2.index t (1 : Fin 2) * 7 + 1 * (y 1).val = (y 1).val; omega
  · show win3_3.index t (0 : Fin 2) * 10000 + 1 * (j 0).val = t.val * 10000 + (j 0).val; omega
  · show win3_3.index t (1 : Fin 2) * 7 + 1 * (j 1).val = (j 1).val; omega

/-- An entry of the array is in point t's block iff each coordinate is in the block's range on its axis. -/
theorem mem_blk3 (t : Fin cfg3.N) (i : S50000x7.Idx) :
    i ∈ ((cfg3.win 3).blk t).view.set ↔ ∀ a : Fin 2, win3_3.index t a * S10000x7.size a ≤ (i a).val ∧ (i a).val < win3_3.index t a * S10000x7.size a + S10000x7.size a := by
  show i ∈ ((View.whole main_v15).slice (win3_3.rect t)).set ↔ _
  rw [View.set_slice_whole, Rect.mem_set_unit]
  exact Iff.rfl

/-- Row r lies in the block of point r / 10000: the 5 row tiles cover the array. -/
theorem cover3 (i : S50000x7.Idx) : ∃ t : Fin cfg3.N, (cfg3.win 3).flush t = true ∧ i ∈ ((cfg3.win 3).blk t).view.set := by
  have hN : cfg3.N = 5 := N_3
  have hi0 : (i 0).val < 50000 := (i 0).isLt
  have hi1 : (i 1).val < 7 := (i 1).isLt
  have ht : (i 0).val / 10000 < cfg3.N := by rw [hN]; omega
  obtain ⟨-, -, -, -, -, -, e30, e31⟩ := idx3 ⟨(i 0).val / 10000, ht⟩
  refine ⟨⟨(i 0).val / 10000, ht⟩, flush3_3 _, ?_⟩
  rw [mem_blk3]
  intro a
  match a with
  | ⟨0, _⟩ =>
    show win3_3.index ⟨(i 0).val / 10000, ht⟩ (0 : Fin 2) * 10000 ≤ (i 0).val ∧ (i 0).val < win3_3.index ⟨(i 0).val / 10000, ht⟩ (0 : Fin 2) * 10000 + 10000
    rw [e30]; show (i 0).val / 10000 * 10000 ≤ (i 0).val ∧ (i 0).val < (i 0).val / 10000 * 10000 + 10000; omega
  | ⟨1, _⟩ =>
    show win3_3.index ⟨(i 0).val / 10000, ht⟩ (1 : Fin 2) * 7 ≤ (i 1).val ∧ (i 1).val < win3_3.index ⟨(i 0).val / 10000, ht⟩ (1 : Fin 2) * 7 + 7
    rw [e31]; omega

/-- REGION 3: the output array after the region is the layer's value of the three input arrays as the region finds them. -/
theorem reg3 (c : Dev nD) :
    (dat3 (F := Ideal) V c).arrAt 3 cfg3.N
      = Cert.Gcn.lin (V c (Pipeline.arrRef spec3 0)) (V c (Pipeline.arrRef spec3 1)) (V c (Pipeline.arrRef spec3 2)) :=
  (dat3 V c).arrAt_eq_of_cover 3 _ (fun t _ => flushed3_eq V c t) cover3

end Cert.KernelIdeal.RegVal
end
-- ==== Proof.LibColReduce.lean ====
/-
  A reduction over the ROWS of an [a, b] array (axis 0), read at a column, on the extended reals: the sum of the
  column's entries, and the fold of max over them from the accumulator's value — a softmax taken down the columns of a
  score tile takes both. General in the extents and the float format.
-/
import Idealize.ShloMosaic.PureOps.Ideal.Laws
import Idealize.ShloMosaic.PureOps.Reduce
import Idealize.ShloMosaic.Lib.ValueIdx

namespace Cert.LibColReduce

open Idealize.ShloMosaic Idealize.ShloMosaic.ValueIdx

/-- Column s with row k put back is the entry (k, s). -/
theorem lift_col {a b : ℕ} (h : (⟨2, ![a, b]⟩ : Shape).Reduces [0] (⟨1, ![b]⟩ : Shape)) (s : Fin b)
    (k : Fin ((⟨2, ![a, b]⟩ : Shape).size 0)) : h.lift (ix1 s) k = ix2 (⟨k.val, k.isLt⟩ : Fin a) s := by
  funext c; apply Fin.ext
  fin_cases c <;> rfl

/-- A sum over the rows, at column s, is the sum of that column's entries. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (s : Fin b) :
    multiReduction .add [0] ⟨1, ![b]⟩ src acc h hφ hacc (ix1 s) = ∑ k : Fin a, src (ix2 k s) := by
  refine (Ideal.multiReduction_add_single src acc h hφ hacc (ix1 s)).trans ?_
  show ∑ k : Fin a, src (h.lift (ix1 s) k) = _
  exact Finset.sum_congr rfl fun k _ => congrArg src (lift_col h s k)

/-- A maximum over the rows, at column s, is the fold of max over that column's entries from the accumulator's value. -/
theorem multiReduction_maximumf_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (s : Fin b) :
    multiReduction .maximumf [0] ⟨1, ![b]⟩ src acc h hφ hacc (ix1 s)
      = Finset.fold max (Ideal.ofBits φ acc) (fun k : Fin a => src (ix2 k s)) Finset.univ := by
  refine (Ideal.multiReduction_maximumf_single src acc h hφ hacc (ix1 s)).trans ?_
  show Finset.fold max (Ideal.ofBits φ acc) (src ∘ h.lift (ix1 s)) (Finset.univ : Finset (Fin a)) = _
  exact congrArg (fun f => Finset.fold max (Ideal.ofBits φ acc) f (Finset.univ : Finset (Fin a)))
    (funext fun k => congrArg src (lift_col h s k))

end Cert.LibColReduce
-- ==== Proof.Reg4.lean ====
/-
  Region 4 of the kernel program, read as a value: the body multiplies its two [7, 80000] blocks entry by entry and sums
  the product down the seven rows, so at each of the 10 grid points it writes columns 80000·t … 80000·t + 79999 of the
  one-row array whose column e is the sum over the seven rows c of s(c, e) · q(c, e), for the two whole [7, 800000]
  arrays s and q. The column tiles cover the row, so after the region the output array is that function of the two input
  arrays, entry by entry, on the extended reals.
-/
import proofs.«109417_j84524956385822_2_alg».proof.Proof.Gen.KernelIdeal.Frame
import proofs.«109417_j84524956385822_2_alg».proof.Proof.Sums
import proofs.«109417_j84524956385822_2_alg».proof.Proof.LibPlainDot
import Idealize.ShloMosaic.Lib.Pipeline.Value
import Idealize.ShloMosaic.Lib.ValueLayout
import Idealize.ShloMosaic.Lib.ValueIdx
import proofs.«109417_j84524956385822_2_alg».proof.Proof.LibColReduce

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer rectangle, as the constant function. -/
theorem hz4 : (![0, 0] : Fin 2 → Nat) = fun _ => 0 := funext fun a => by fin_cases a <;> rfl

/-- The body's stored value at column q of its one-row block: the sum down the seven rows of the product of the two
    blocks' entries in that column. -/
theorem pay4_apply (x0 x1 : Vec Ideal S7x80000 .f32) (u : Fin 1) (q : Fin 80000) :
    k4_pay1 (F := Ideal) x0 x1 (ix2 u q) = ∑ k : Fin 7, x0 (ix2 k q) * x1 (ix2 k q) := by
  unfold k4_pay1
  show shapeCast S1x80000
      (multiReduction (F := Ideal) .add [0] S80000
        (mulf (shapeCast S7x80000 (x0 : FVec Ideal S7x80000 .f32) _) (shapeCast S7x80000 (x1 : FVec Ideal S7x80000 .f32) _))
        0x00000000#32 _ _ _) _ (ix2 u q) = _
  rw [shapeCast_self, shapeCast_self]
  refine (shapeCast_a_1a_apply _ _ u q).trans ?_
  refine (Cert.LibColReduce.multiReduction_add_col _ _ _ _ _ q).trans ?_
  rfl

/-- When the two blocks are columns n·80000 … n·80000 + 79999 of A0 and A1, the body's value at column j of the block is
    the column sum at the column i of the array that j sits at. -/
theorem blk4_eq (A0 A1 : FVec Ideal S7x800000 .f32) (x0 x1 : Vec Ideal S7x80000 .f32) (n : ℕ)
    (h0 : ∀ (y : S7x80000.Idx) (i : S7x800000.Idx), (i 0).val = (y 0).val → (i 1).val = n * 80000 + (y 1).val → x0 y = A0 i)
    (h1 : ∀ (y : S7x80000.Idx) (i : S7x800000.Idx), (i 0).val = (y 0).val → (i 1).val = n * 80000 + (y 1).val → x1 y = A1 i)
    (j : S1x80000.Idx) (i : S1x800000.Idx) (hi1 : (i 1).val = n * 80000 + (j 1).val) :
    k4_pay1 (F := Ideal) x0 x1 j = Cert.Gcn.colDot A0 A1 i := by
  obtain ⟨u, q, rfl⟩ : ∃ (u : Fin 1) (q : Fin 80000), j = ix2 u q := ⟨j 0, j 1, eq_ix2 j⟩
  obtain ⟨u', e, rfl⟩ : ∃ (u' : Fin 1) (e : Fin 800000), i = ix2 u' e := ⟨i 0, i 1, eq_ix2 i⟩
  have he : e.val = n * 80000 + q.val := hi1
  rw [pay4_apply]
  show _ = ∑ k : Fin 7, A0 (ix2 k e) * A1 (ix2 k e)
  exact Finset.sum_congr rfl fun k _ => by rw [h0 (ix2 k q) (ix2 k e) rfl he, h1 (ix2 k q) (ix2 k e) rfl he]

variable (V : (c : Dev nD) → (b : Ref sig .tc) → Buf (Elt Ideal) ((c : Thread nD τ).loc b))

/-- The printed index maps over the grid: all three windows sit at column block t. -/
theorem idx4 : ∀ t : Fin cfg4.N,
    win4_0.index t (0 : Fin 2) = 0 ∧ win4_0.index t (1 : Fin 2) = t.val
    ∧ win4_1.index t (0 : Fin 2) = 0 ∧ win4_1.index t (1 : Fin 2) = t.val
    ∧ win4_2.index t (0 : Fin 2) = 0 ∧ win4_2.index t (1 : Fin 2) = t.val :=
  (by decide +kernel : ∀ t : Fin grid4.N, _)

/-- What point t writes back is block t of the whole-array column sum. -/
theorem flushed4_eq (c : Dev nD) (t : Fin cfg4.N) :
    (dat4 (F := Ideal) V c).flushed 2 t
      = ((cfg4.win 2).blk t).view.read (Elt Ideal)
          (Cert.Gcn.colDot (V c (Pipeline.arrRef spec4 0)) (V c (Pipeline.arrRef spec4 1))) := by
  show (cfg4.win 2).cut (grid4.coords t) ((dat4 V c).after 2 t) = _
  rw [after4_2]
  unfold out4_2
  rw [View.canon_unit_zero hz4]
  simp only [View.ld_unit_zero (S := S7x80000) hz4]
  obtain ⟨e00, e01, e10, e11, e20, e21⟩ := idx4 t
  funext j
  show k4_pay1 (F := Ideal) (iblk4 V c 0 t) (iblk4 V c 1 t) j
    = Cert.Gcn.colDot (V c (Pipeline.arrRef spec4 0)) (V c (Pipeline.arrRef spec4 1)) (((cfg4.win 2).blk t).view.emb j)
  refine blk4_eq (V c (Pipeline.arrRef spec4 0)) (V c (Pipeline.arrRef spec4 1)) (iblk4 V c 0 t) (iblk4 V c 1 t) t.val
    ?_ ?_ j (((cfg4.win 2).blk t).view.emb j) ?_
  · intro y i hy0 hy1
    show V c (Pipeline.arrRef spec4 0) (((cfg4.win 0).blk t).view.emb y) = V c (Pipeline.arrRef spec4 0) i
    refine congrArg (V c (Pipeline.arrRef spec4 0)) (funext fun a => Fin.ext ?_)
    match a with
    | ⟨0, _⟩ => show win4_0.index t (0 : Fin 2) * 7 + 1 * (y 0).val = (i 0).val; omega
    | ⟨1, _⟩ => show win4_0.index t (1 : Fin 2) * 80000 + 1 * (y 1).val = (i 1).val; omega
  · intro y i hy0 hy1
    show V c (Pipeline.arrRef spec4 1) (((cfg4.win 1).blk t).view.emb y) = V c (Pipeline.arrRef spec4 1) i
    refine congrArg (V c (Pipeline.arrRef spec4 1)) (funext fun a => Fin.ext ?_)
    match a with
    | ⟨0, _⟩ => show win4_1.index t (0 : Fin 2) * 7 + 1 * (y 0).val = (i 0).val; omega
    | ⟨1, _⟩ => show win4_1.index t (1 : Fin 2) * 80000 + 1 * (y 1).val = (i 1).val; omega
  · show win4_2.index t (1 : Fin 2) * 80000 + 1 * (j 1).val = t.val * 80000 + (j 1).val; omega

/-- An entry of the array is in point t's block iff each coordinate is in the block's range on its axis. -/
theorem mem_blk4 (t : Fin cfg4.N) (i : S1x800000.Idx) :
    i ∈ ((cfg4.win 2).blk t).view.set ↔ ∀ a : Fin 2, win4_2.index t a * S1x80000.size a ≤ (i a).val ∧ (i a).val < win4_2.index t a * S1x80000.size a + S1x80000.size a := by
  show i ∈ ((View.whole main_v32).slice (win4_2.rect t)).set ↔ _
  rw [View.set_slice_whole, Rect.mem_set_unit]
  exact Iff.rfl

/-- Column e lies in the block of point e / 80000: the 10 column tiles cover the row. -/
theorem cover4 (i : S1x800000.Idx) : ∃ t : Fin cfg4.N, (cfg4.win 2).flush t = true ∧ i ∈ ((cfg4.win 2).blk t).view.set := by
  have hN : cfg4.N = 10 := N_4
  have hi0 : (i 0).val < 1 := (i 0).isLt
  have hi1 : (i 1).val < 800000 := (i 1).isLt
  have ht : (i 1).val / 80000 < cfg4.N := by rw [hN]; omega
  obtain ⟨-, -, -, -, e20, e21⟩ := idx4 ⟨(i 1).val / 80000, ht⟩
  refine ⟨⟨(i 1).val / 80000, ht⟩, flush4_2 _, ?_⟩
  rw [mem_blk4]
  intro a
  match a with
  | ⟨0, _⟩ =>
    show win4_2.index ⟨(i 1).val / 80000, ht⟩ (0 : Fin 2) * 1 ≤ (i 0).val ∧ (i 0).val < win4_2.index ⟨(i 1).val / 80000, ht⟩ (0 : Fin 2) * 1 + 1
    rw [e20]; omega
  | ⟨1, _⟩ =>
    show win4_2.index ⟨(i 1).val / 80000, ht⟩ (1 : Fin 2) * 80000 ≤ (i 1).val ∧ (i 1).val < win4_2.index ⟨(i 1).val / 80000, ht⟩ (1 : Fin 2) * 80000 + 80000
    rw [e21]; show (i 1).val / 80000 * 80000 ≤ (i 1).val ∧ (i 1).val < (i 1).val / 80000 * 80000 + 80000; omega

/-- REGION 4: the output array after the region is the column sum of the product of the two input arrays as the region finds them. -/
theorem reg4 (c : Dev nD) :
    (dat4 (F := Ideal) V c).arrAt 2 cfg4.N
      = Cert.Gcn.colDot (V c (Pipeline.arrRef spec4 0)) (V c (Pipeline.arrRef spec4 1)) :=
  (dat4 V c).arrAt_eq_of_cover 2 _ (fun t _ => flushed4_eq V c t) cover4

end Cert.KernelIdeal.RegVal
end
-- ==== Proof.Reg7.lean ====
/-
  Region 7 of the kernel program, read as a value: the row-tiled body "max(a, 0) + b" writes, at each of the 25 grid
  points, rows 2000·t … 2000·t + 1999 of that entrywise combination of the two whole [50000, 256] arrays. The tiles cover
  the array, so after the region the output array is that function of the two input arrays, entry by entry, on the
  extended reals.
-/
import proofs.«109417_j84524956385822_2_alg».proof.Proof.Gen.KernelIdeal.Frame
import proofs.«109417_j84524956385822_2_alg».proof.Proof.Sums
import proofs.«109417_j84524956385822_2_alg».proof.Proof.LibPlainDot
import Idealize.ShloMosaic.Lib.Pipeline.Value
import Idealize.ShloMosaic.Lib.ValueLayout
import Idealize.ShloMosaic.Lib.ValueIdx

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer rectangle, as the constant function. -/
theorem hz7 : (![0, 0] : Fin 2 → Nat) = fun _ => 0 := funext fun a => by fin_cases a <;> rfl

/-- The body's stored value at an entry of its block: the first block's entry raised to at least zero, plus the second's. -/
theorem pay7_apply (x0 x1 : Vec Ideal S2000x256 .f32) (j : S2000x256.Idx) :
    k7_pay1 (F := Ideal) x0 x1 j = max (x0 j) 0 + x1 j := by
  unfold k7_pay1
  show max (shapeCast S2000x256 (x0 : FVec Ideal S2000x256 .f32) _ j : EReal) (Ideal.ofBits .f32 0x00000000#32)
      + (shapeCast S2000x256 (x1 : FVec Ideal S2000x256 .f32) _ j : EReal) = _
  rw [Ideal.ofBits_zero_f32, shapeCast_self, shapeCast_self]

/-- When the two blocks' entries at j are the two arrays' entries at i, the body's value at j is the combination at i. -/
theorem blk7_eq (A0 A1 : FVec Ideal S50000x256 .f32) (x0 x1 : Vec Ideal S2000x256 .f32)
    (j : S2000x256.Idx) (i : S50000x256.Idx) (h0 : x0 j = A0 i) (h1 : x1 j = A1 i) :
    k7_pay1 (F := Ideal) x0 x1 j = Cert.Gcn.reluAdd A0 A1 i := by
  rw [pay7_apply, h0, h1]
  rfl

variable (V : (c : Dev nD) → (b : Ref sig .tc) → Buf (Elt Ideal) ((c : Thread nD τ).loc b))

/-- The printed index maps over the grid: all three windows sit at row block t. -/
theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- What point t writes back is block t of the whole-array combination. -/
theorem flushed7_eq (c : Dev nD) (t : Fin cfg7.N) :
    (dat7 (F := Ideal) V c).flushed 2 t
      = ((cfg7.win 2).blk t).view.read (Elt Ideal)
          (Cert.Gcn.reluAdd (V c (Pipeline.arrRef spec7 0)) (V c (Pipeline.arrRef spec7 1))) := by
  show (cfg7.win 2).cut (grid7.coords t) ((dat7 V c).after 2 t) = _
  rw [after7_2]
  unfold out7_2
  rw [View.canon_unit_zero hz7]
  simp only [View.ld_unit_zero (S := S2000x256) hz7]
  obtain ⟨e00, e01, e10, e11, e20, e21⟩ := idx7 t
  funext j
  show k7_pay1 (F := Ideal) (iblk7 V c 0 t) (iblk7 V c 1 t) j
    = Cert.Gcn.reluAdd (V c (Pipeline.arrRef spec7 0)) (V c (Pipeline.arrRef spec7 1)) (((cfg7.win 2).blk t).view.emb j)
  refine blk7_eq (V c (Pipeline.arrRef spec7 0)) (V c (Pipeline.arrRef spec7 1)) (iblk7 V c 0 t) (iblk7 V c 1 t)
    j (((cfg7.win 2).blk t).view.emb j) ?_ ?_
  · show V c (Pipeline.arrRef spec7 0) (((cfg7.win 0).blk t).view.emb j) = V c (Pipeline.arrRef spec7 0) (((cfg7.win 2).blk t).view.emb j)
    refine congrArg (V c (Pipeline.arrRef spec7 0)) (funext fun a => Fin.ext ?_)
    match a with
    | ⟨0, _⟩ => show win7_0.index t (0 : Fin 2) * 2000 + 1 * (j 0).val = win7_2.index t (0 : Fin 2) * 2000 + 1 * (j 0).val; omega
    | ⟨1, _⟩ => show win7_0.index t (1 : Fin 2) * 256 + 1 * (j 1).val = win7_2.index t (1 : Fin 2) * 256 + 1 * (j 1).val; omega
  · show V c (Pipeline.arrRef spec7 1) (((cfg7.win 1).blk t).view.emb j) = V c (Pipeline.arrRef spec7 1) (((cfg7.win 2).blk t).view.emb j)
    refine congrArg (V c (Pipeline.arrRef spec7 1)) (funext fun a => Fin.ext ?_)
    match a with
    | ⟨0, _⟩ => show win7_1.index t (0 : Fin 2) * 2000 + 1 * (j 0).val = win7_2.index t (0 : Fin 2) * 2000 + 1 * (j 0).val; omega
    | ⟨1, _⟩ => show win7_1.index t (1 : Fin 2) * 256 + 1 * (j 1).val = win7_2.index t (1 : Fin 2) * 256 + 1 * (j 1).val; omega

/-- An entry of the array is in point t's block iff each coordinate is in the block's range on its axis. -/
theorem mem_blk7 (t : Fin cfg7.N) (i : S50000x256.Idx) :
    i ∈ ((cfg7.win 2).blk t).view.set ↔ ∀ a : Fin 2, win7_2.index t a * S2000x256.size a ≤ (i a).val ∧ (i a).val < win7_2.index t a * S2000x256.size a + S2000x256.size a := by
  show i ∈ ((View.whole main_v117).slice (win7_2.rect t)).set ↔ _
  rw [View.set_slice_whole, Rect.mem_set_unit]
  exact Iff.rfl

/-- Row r lies in the block of point r / 2000: the 25 row tiles cover the array. -/
theorem cover7 (i : S50000x256.Idx) : ∃ t : Fin cfg7.N, (cfg7.win 2).flush t = true ∧ i ∈ ((cfg7.win 2).blk t).view.set := by
  have hN : cfg7.N = 25 := N_7
  have hi0 : (i 0).val < 50000 := (i 0).isLt
  have hi1 : (i 1).val < 256 := (i 1).isLt
  have ht : (i 0).val / 2000 < cfg7.N := by rw [hN]; omega
  obtain ⟨-, -, -, -, e20, e21⟩ := idx7 ⟨(i 0).val / 2000, ht⟩
  refine ⟨⟨(i 0).val / 2000, ht⟩, flush7_2 _, ?_⟩
  rw [mem_blk7]
  intro a
  match a with
  | ⟨0, _⟩ =>
    show win7_2.index ⟨(i 0).val / 2000, ht⟩ (0 : Fin 2) * 2000 ≤ (i 0).val ∧ (i 0).val < win7_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win7_2.index ⟨(i 0).val / 2000, ht⟩ (1 : Fin 2) * 256 ≤ (i 1).val ∧ (i 1).val < win7_2.index ⟨(i 0).val / 2000, ht⟩ (1 : Fin 2) * 256 + 256
    rw [e21]; omega

/-- REGION 7: the output array after the region is max(a, 0) + b of the two input arrays as the region finds them. -/
theorem reg7 (c : Dev nD) :
    (dat7 (F := Ideal) V c).arrAt 2 cfg7.N
      = Cert.Gcn.reluAdd (V c (Pipeline.arrRef spec7 0)) (V c (Pipeline.arrRef spec7 1)) :=
  (dat7 V c).arrAt_eq_of_cover 2 _ (fun t _ => flushed7_eq V c t) cover7

end Cert.KernelIdeal.RegVal
end
-- ==== Proof.KReg.lean ====
/-
  The kernel regions' outputs as stages of the specification, at the boundaries of the kernel program's run. Each
  region's output array is the whole-array sum form of its input arrays as the region finds them; carried back to
  where each input was written, those are the launch memory's arrays, the earlier regions' outputs and the host
  stretches' stages, and the sum form of them is the specification's stage: the perceptron's three layers, the
  per-node products with the parsing matrix, the edge scores, the three linear images and the residual sum.
-/
import proofs.«109417_j84524956385822_2_alg».proof.Proof.KH1
import proofs.«109417_j84524956385822_2_alg».proof.Proof.LinHost
import proofs.«109417_j84524956385822_2_alg».proof.Proof.EdgeSpec
import proofs.«109417_j84524956385822_2_alg».proof.Proof.Reg0
import proofs.«109417_j84524956385822_2_alg».proof.Proof.Reg1
import proofs.«109417_j84524956385822_2_alg».proof.Proof.Reg2
import proofs.«109417_j84524956385822_2_alg».proof.Proof.Reg3
import proofs.«109417_j84524956385822_2_alg».proof.Proof.Reg4
import proofs.«109417_j84524956385822_2_alg».proof.Proof.Reg7

set_option maxRecDepth 16384

noncomputable section

namespace Cert.KernelIdeal.KVal

open Cert.KernelIdeal Cert.KernelIdeal.Gen Idealize.ShloMosaic Idealize.ShloMosaic.StableHlo
open Cert.Gcn

variable (m : (ℓ : Loc nD τ sig) → Buf (Elt Ideal) ℓ) (ρ : Dev nD → PrngReg) (c : Dev nD)

/-- The first perceptron layer. -/
abbrev H1 : Spec.Fv S50000x512 :=
  Spec.h1 (m ((c.tc : Thread nD τ).loc main_arg0)) (m ((c.tc : Thread nD τ).loc main_arg8)) (m ((c.tc : Thread nD τ).loc main_arg9))
/-- The second perceptron layer. -/
abbrev H2 : Spec.Fv S50000x64 :=
  Spec.h2 (H1 m c) (m ((c.tc : Thread nD τ).loc main_arg10)) (m ((c.tc : Thread nD τ).loc main_arg11))
/-- The logits. -/
abbrev LG : Spec.Fv S50000x7 :=
  Spec.logits (H2 m c) (m ((c.tc : Thread nD τ).loc main_arg12)) (m ((c.tc : Thread nD τ).loc main_arg13))
/-- The zero bias row of seven entries. -/
abbrev Z7 : Spec.Fv S1x7 :=
  shapeCast S1x7 (broadcastInDim S7 ![] Facts₀.bcast_S_S7 (constant (F := Ideal) S_ .f32 0x00000000#32)) Facts₀.shapeCasts_S7_S1x7
/-- The per-node products of the logits with the parsing matrix. -/
abbrev LGP : Spec.Fv S50000x7 := Cert.Gcn.lin (LG m c) (Spec.pars (m ((c.tc : Thread nD τ).loc main_arg14))) Z7

/-- Region 0's output is the first perceptron layer. -/
theorem v5_at2 : W2 m ρ c (Proc.devRef .tc main_v5) = H1 m c := by
  refine (W2_arr m ρ c 3).trans ((RegVal.reg0 (V1 m ρ) c).trans ?_)
  show Cert.Gcn.linRelu (W1 m ρ c (Proc.devRef .tc main_arg0)) (W1 m ρ c (Proc.devRef .tc main_arg8)) (W1 m ρ c (Proc.devRef .tc main_v4)) = _
  carry main_arg0
  carry main_arg8
  rw [v4_at1]
  exact (LinHost.linRelu_host Cert.ReferenceIdeal.dot_S50000x512_S512x512_S50000x512_1_0_0_1_n_n rfl _ _ _ _ _ _ _).symm

/-- Region 1's output is the second perceptron layer. -/
theorem v7_at4 : W4 m ρ c (Proc.devRef .tc main_v7) = H2 m c := by
  refine (W4_arr m ρ c 3).trans ((RegVal.reg1 (V3 m ρ) c).trans ?_)
  show Cert.Gcn.linRelu (W3 m ρ c (Proc.devRef .tc main_v5)) (W3 m ρ c (Proc.devRef .tc main_arg10)) (W3 m ρ c (Proc.devRef .tc main_v6)) = _
  carry main_v5
  carry main_arg10
  rw [v5_at2, v6_at3]
  exact (LinHost.linRelu_host Cert.ReferenceIdeal.dot_S50000x512_S512x64_S50000x64_1_0_0_1_n_n rfl _ _ _ _ _ _ _).symm

/-- Region 2's output is the logits. -/
theorem v9_at6 : W6 m ρ c (Proc.devRef .tc main_v9) = LG m c := by
  refine (W6_arr m ρ c 3).trans ((RegVal.reg2 (V5 m ρ) c).trans ?_)
  show Cert.Gcn.lin (W5 m ρ c (Proc.devRef .tc main_v7)) (W5 m ρ c (Proc.devRef .tc main_arg12)) (W5 m ρ c (Proc.devRef .tc main_v8)) = _
  carry main_v7
  carry main_arg12
  rw [v7_at4, v8_at5]
  exact (LinHost.lin_host Cert.ReferenceIdeal.dot_S50000x64_S64x7_S50000x7_1_0_0_1_n_n rfl _ _ _ _ _ _).symm

/-- Region 3's output is the per-node products of the logits with the parsing matrix. -/
theorem v15_at10 : W10 m ρ c (Proc.devRef .tc main_v15) = LGP m c := by
  refine (W10_arr m ρ c 3).trans ((RegVal.reg3 (V9 m ρ) c).trans ?_)
  show Cert.Gcn.lin (W9 m ρ c (Proc.devRef .tc main_v9)) (W9 m ρ c (Proc.devRef .tc main_v12)) (W9 m ρ c (Proc.devRef .tc main_v14)) = _
  carry main_v9
  carry main_v12
  rw [v9_at6, v12_at8, v14_at9]

/-- Region 4's output is the one-row array of edge scores, over the transposed tables gathered along the edges. -/
theorem v32_at12 : W12 m ρ c (Proc.devRef .tc main_v32)
    = Cert.Gcn.colDot
        (Host.gather gather_S7x50000_S800000x1_S7x800000_0_1_n_n_1_1_71
          (transpose S7x50000 [1, 0] (LG m c) Facts₀.transposes_S50000x7_S7x50000_1_0)
          (Spec.startE (Spec.row (m ((c.tc : Thread nD τ).loc main_arg1)))))
        (Host.gather gather_S7x50000_S800000x1_S7x800000_0_1_n_n_1_1_71
          (transpose S7x50000 [1, 0] (LGP m c) Facts₀.transposes_S50000x7_S7x50000_1_0)
          (Spec.startE (Spec.col (m ((c.tc : Thread nD τ).loc main_arg1))))) := by
  refine (W12_arr m ρ c 2).trans ((RegVal.reg4 (V11 m ρ) c).trans ?_)
  show Cert.Gcn.colDot (W11 m ρ c (Proc.devRef .tc main_v24)) (W11 m ρ c (Proc.devRef .tc main_v31)) = _
  rw [v24_at11, v31_at11, v9_at6, v15_at10]

/-- Region 7's output is the residual sum. -/
theorem v117_at22 : W22 m ρ c (Proc.devRef .tc main_v117)
    = addf (Spec.relu256 (W21 m ρ c (Proc.devRef .tc main_v116))) (W19 m ρ c (Proc.devRef .tc main_v95)) := by
  refine (W22_arr m ρ c 2).trans ((RegVal.reg7 (V21 m ρ) c).trans ?_)
  show Cert.Gcn.reluAdd (W21 m ρ c (Proc.devRef .tc main_v116)) (W21 m ρ c (Proc.devRef .tc main_v95)) = _
  carry main_v95
  exact LinHost.reluAdd_host _ _ _

end Cert.KernelIdeal.KVal
end
-- ==== Proof.Reg5.lean ====
/-
  Region 5 of the kernel program, read as a value: the row-tiled body "x · W + b" writes, at each of the 25 grid
  points, rows 2000·t … 2000·t + 1999 of the product of the whole [50000, 512] array with the [512, 256] weight, plus the
  one-row bias along every row. The two operands pass through a narrowing format change first, which is the identity on the extended reals. The tiles cover the array, so after the region the output array is that function of the
  three input arrays, entry by entry, on the extended reals.
-/
import proofs.«109417_j84524956385822_2_alg».proof.Proof.Gen.KernelIdeal.Frame
import proofs.«109417_j84524956385822_2_alg».proof.Proof.Sums
import proofs.«109417_j84524956385822_2_alg».proof.Proof.LibPlainDot
import Idealize.ShloMosaic.Lib.Pipeline.Value
import Idealize.ShloMosaic.Lib.ValueLayout
import Idealize.ShloMosaic.Lib.ValueIdx

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer rectangle, as the constant function. -/
theorem hz5 : (![0, 0] : Fin 2 → Nat) = fun _ => 0 := funext fun a => by fin_cases a <;> rfl

/-- The body's stored value at entry (p, q) of its block: the row of the left block times the column of the
    right block, plus the bias row's entry q. -/
theorem pay5_apply (x0 : Vec Ideal S2000x512 .f32) (x1 : Vec Ideal S512x256 .f32) (x2 : Vec Ideal S1x256 .f32)
    (p : Fin 2000) (q : Fin 256) :
    k5_pay1 (F := Ideal) x0 x1 x2 (ix2 p q) = (∑ k : Fin 512, x0 (ix2 p k) * x1 (ix2 k q)) + x2 (ix2 (0 : Fin 1) q) := by
  unfold k5_pay1
  show (FloatOps.matmul (F := Ideal) _ none (truncf .bf16 (x0 : FVec Ideal S2000x512 .f32) _ : FVec Ideal S2000x512 .bf16) (truncf .bf16 (x1 : FVec Ideal S512x256 .f32) _ : FVec Ideal S512x256 .bf16) (constant S2000x256 .f32 0x00000000#32) (ix2 p q) : EReal)
      + (broadcastTo S2000x256 (shapeCast S1x256 (x2 : FVec Ideal S1x256 .f32) _) _ (ix2 p q) : EReal) = _
  rw [shapeCast_self]
  refine congrArg₂ (· + ·) ?_ ?_
  · exact matmul_plain_zero_apply _ rfl none (truncf .bf16 (x0 : FVec Ideal S2000x512 .f32) _ : FVec Ideal S2000x512 .bf16) (truncf .bf16 (x1 : FVec Ideal S512x256 .f32) _ : FVec Ideal S512x256 .bf16) p q
  · exact broadcastTo_1b_ab_apply _ _ p q

/-- When the left block is rows n·2000 … n·2000 + 1999 of A0 and the other two blocks are A1 and A2 whole, the body's
    value at entry j of the block is the layer's value at the entry i of the array that j sits at. -/
theorem blk5_eq (A0 : FVec Ideal S50000x512 .f32) (A1 : FVec Ideal S512x256 .f32) (A2 : FVec Ideal S1x256 .f32)
    (x0 : Vec Ideal S2000x512 .f32) (x1 : Vec Ideal S512x256 .f32) (x2 : Vec Ideal S1x256 .f32) (n : ℕ)
    (h0 : ∀ (y : S2000x512.Idx) (i : S50000x512.Idx), (i 0).val = n * 2000 + (y 0).val → (i 1).val = (y 1).val → x0 y = A0 i)
    (h1 : ∀ y : S512x256.Idx, x1 y = A1 y) (h2 : ∀ y : S1x256.Idx, x2 y = A2 y)
    (j : S2000x256.Idx) (i : S50000x256.Idx) (hi0 : (i 0).val = n * 2000 + (j 0).val) (hi1 : (i 1).val = (j 1).val) :
    k5_pay1 (F := Ideal) x0 x1 x2 j = Cert.Gcn.lin A0 A1 A2 i := by
  obtain ⟨p, q, rfl⟩ : ∃ (p : Fin 2000) (q : Fin 256), j = ix2 p q := ⟨j 0, j 1, eq_ix2 j⟩
  obtain ⟨r, q', rfl⟩ : ∃ (r : Fin 50000) (q' : Fin 256), i = ix2 r q' := ⟨i 0, i 1, eq_ix2 i⟩
  have hr : r.val = n * 2000 + p.val := hi0
  obtain rfl : q' = q := Fin.ext hi1
  rw [pay5_apply]
  show _ = (∑ k : Fin 512, A0 (ix2 r k) * A1 (ix2 k q')) + A2 (ix2 (0 : Fin 1) q')
  rw [h2]
  refine congrArg (fun z => z + A2 (ix2 (0 : Fin 1) q')) ?_
  exact Finset.sum_congr rfl fun k _ => by rw [h0 (ix2 p k) (ix2 r k) hr rfl, h1]

variable (V : (c : Dev nD) → (b : Ref sig .tc) → Buf (Elt Ideal) ((c : Thread nD τ).loc b))

/-- The printed index maps over the grid: the row windows sit at block t, the weight and the bias at block 0. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point t writes back is block t of the layer's whole-array value. -/
theorem flushed5_eq (c : Dev nD) (t : Fin cfg5.N) :
    (dat5 (F := Ideal) V c).flushed 3 t
      = ((cfg5.win 3).blk t).view.read (Elt Ideal)
          (Cert.Gcn.lin (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz5]
  simp only [View.ld_unit_zero (S := S2000x512) hz5, View.ld_unit_zero (S := S512x256) hz5, View.ld_unit_zero (S := S1x256) hz5]
  obtain ⟨e00, e01, e10, e11, e20, e21, e30, e31⟩ := idx5 t
  funext j
  show k5_pay1 (F := Ideal) (iblk5 V c 0 t) (iblk5 V c 1 t) (iblk5 V c 2 t) j
    = Cert.Gcn.lin (V c (Pipeline.arrRef spec5 0)) (V c (Pipeline.arrRef spec5 1)) (V c (Pipeline.arrRef spec5 2)) (((cfg5.win 3).blk t).view.emb j)
  refine blk5_eq (V c (Pipeline.arrRef spec5 0)) (V c (Pipeline.arrRef spec5 1)) (V c (Pipeline.arrRef spec5 2))
    (iblk5 V c 0 t) (iblk5 V c 1 t) (iblk5 V c 2 t) t.val ?_ ?_ ?_ j (((cfg5.win 3).blk t).view.emb j) ?_ ?_
  · intro y i hy0 hy1
    show V c (Pipeline.arrRef spec5 0) (((cfg5.win 0).blk t).view.emb y) = V c (Pipeline.arrRef spec5 0) i
    refine congrArg (V c (Pipeline.arrRef spec5 0)) (funext fun a => Fin.ext ?_)
    match a with
    | ⟨0, _⟩ => show win5_0.index t (0 : Fin 2) * 2000 + 1 * (y 0).val = (i 0).val; omega
    | ⟨1, _⟩ => show win5_0.index t (1 : Fin 2) * 512 + 1 * (y 1).val = (i 1).val; omega
  · intro y
    show V c (Pipeline.arrRef spec5 1) (((cfg5.win 1).blk t).view.emb y) = V c (Pipeline.arrRef spec5 1) y
    refine congrArg (V c (Pipeline.arrRef spec5 1)) (funext fun a => Fin.ext ?_)
    match a with
    | ⟨0, _⟩ => show win5_1.index t (0 : Fin 2) * 512 + 1 * (y 0).val = (y 0).val; omega
    | ⟨1, _⟩ => show win5_1.index t (1 : Fin 2) * 256 + 1 * (y 1).val = (y 1).val; omega
  · intro y
    show V c (Pipeline.arrRef spec5 2) (((cfg5.win 2).blk t).view.emb y) = V c (Pipeline.arrRef spec5 2) y
    refine congrArg (V c (Pipeline.arrRef spec5 2)) (funext fun a => Fin.ext ?_)
    match a with
    | ⟨0, _⟩ => show win5_2.index t (0 : Fin 2) * 1 + 1 * (y 0).val = (y 0).val; omega
    | ⟨1, _⟩ => show win5_2.index t (1 : Fin 2) * 256 + 1 * (y 1).val = (y 1).val; omega
  · show win5_3.index t (0 : Fin 2) * 2000 + 1 * (j 0).val = t.val * 2000 + (j 0).val; omega
  · show win5_3.index t (1 : Fin 2) * 256 + 1 * (j 1).val = (j 1).val; omega

/-- An entry of the array is in point t's block iff each coordinate is in the block's range on its axis. -/
theorem mem_blk5 (t : Fin cfg5.N) (i : S50000x256.Idx) :
    i ∈ ((cfg5.win 3).blk t).view.set ↔ ∀ a : Fin 2, win5_3.index t a * S2000x256.size a ≤ (i a).val ∧ (i a).val < win5_3.index t a * S2000x256.size a + S2000x256.size a := by
  show i ∈ ((View.whole main_v77).slice (win5_3.rect t)).set ↔ _
  rw [View.set_slice_whole, Rect.mem_set_unit]
  exact Iff.rfl

/-- Row r lies in the block of point r / 2000: the 25 row tiles cover the array. -/
theorem cover5 (i : S50000x256.Idx) : ∃ t : Fin cfg5.N, (cfg5.win 3).flush t = true ∧ i ∈ ((cfg5.win 3).blk t).view.set := by
  have hN : cfg5.N = 25 := N_5
  have hi0 : (i 0).val < 50000 := (i 0).isLt
  have hi1 : (i 1).val < 256 := (i 1).isLt
  have ht : (i 0).val / 2000 < cfg5.N := by rw [hN]; omega
  obtain ⟨-, -, -, -, -, -, e30, e31⟩ := idx5 ⟨(i 0).val / 2000, ht⟩
  refine ⟨⟨(i 0).val / 2000, ht⟩, flush5_3 _, ?_⟩
  rw [mem_blk5]
  intro a
  match a with
  | ⟨0, _⟩ =>
    show win5_3.index ⟨(i 0).val / 2000, ht⟩ (0 : Fin 2) * 2000 ≤ (i 0).val ∧ (i 0).val < win5_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win5_3.index ⟨(i 0).val / 2000, ht⟩ (1 : Fin 2) * 256 ≤ (i 1).val ∧ (i 1).val < win5_3.index ⟨(i 0).val / 2000, ht⟩ (1 : Fin 2) * 256 + 256
    rw [e31]; omega

/-- REGION 5: the output array after the region is the layer's value of the three input arrays as the region finds them. -/
theorem reg5 (c : Dev nD) :
    (dat5 (F := Ideal) V c).arrAt 3 cfg5.N
      = Cert.Gcn.lin (V c (Pipeline.arrRef spec5 0)) (V c (Pipeline.arrRef spec5 1)) (V c (Pipeline.arrRef spec5 2)) :=
  (dat5 V c).arrAt_eq_of_cover 3 _ (fun t _ => flushed5_eq V c t) cover5

end Cert.KernelIdeal.RegVal
end
-- ==== Proof.Reg6.lean ====
/-
  Region 6 of the kernel program, read as a value: the row-tiled body "max(x, 0) · W + b" writes, at each of the 10 grid
  points, rows 5000·t … 5000·t + 4999 of the product of the whole [50000, 256] array, each entry first raised to at least
  zero, with the [256, 256] weight, plus the one-row bias along every row. The two operands pass through a narrowing format
  change first, which is the identity on the extended reals. The tiles cover the array, so after the region the output
  array is that function of the three input arrays, entry by entry, on the extended reals.
-/
import proofs.«109417_j84524956385822_2_alg».proof.Proof.Gen.KernelIdeal.Frame
import proofs.«109417_j84524956385822_2_alg».proof.Proof.Sums
import proofs.«109417_j84524956385822_2_alg».proof.Proof.LibPlainDot
import Idealize.ShloMosaic.Lib.Pipeline.Value
import Idealize.ShloMosaic.Lib.ValueLayout
import Idealize.ShloMosaic.Lib.ValueIdx

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer rectangle, as the constant function. -/
theorem hz6 : (![0, 0] : Fin 2 → Nat) = fun _ => 0 := funext fun a => by fin_cases a <;> rfl

/-- The body's stored value at entry (p, q) of its block: the row of the left block, each entry first raised to at
    least zero, times the column of the right block, plus the bias row's entry q. -/
theorem pay6_apply (x0 : Vec Ideal S5000x256 .f32) (x1 : Vec Ideal S256x256 .f32) (x2 : Vec Ideal S1x256 .f32)
    (p : Fin 5000) (q : Fin 256) :
    k6_pay1 (F := Ideal) x0 x1 x2 (ix2 p q) = (∑ k : Fin 256, max (x0 (ix2 p k)) 0 * x1 (ix2 k q)) + x2 (ix2 (0 : Fin 1) q) := by
  unfold k6_pay1
  show (FloatOps.matmul (F := Ideal) _ none
        (truncf .bf16 (maximumf (shapeCast S5000x256 (x0 : FVec Ideal S5000x256 .f32) _) (broadcast S5000x256 (Ideal.ofBits .f32 0x00000000#32))) _ : FVec Ideal S5000x256 .bf16)
        (truncf .bf16 (x1 : FVec Ideal S256x256 .f32) _ : FVec Ideal S256x256 .bf16) (constant S5000x256 .f32 0x00000000#32) (ix2 p q) : EReal)
      + (broadcastTo S5000x256 (shapeCast S1x256 (x2 : FVec Ideal S1x256 .f32) _) _ (ix2 p q) : EReal) = _
  rw [shapeCast_self, shapeCast_self, Ideal.ofBits_zero_f32]
  refine congrArg₂ (· + ·) ?_ ?_
  · exact (matmul_plain_zero_apply _ rfl none _ _ p q).trans rfl
  · exact broadcastTo_1b_ab_apply _ _ p q

/-- When the left block is rows n·5000 … n·5000 + 4999 of A0 and the other two blocks are A1 and A2 whole, the body's
    value at entry j of the block is the layer's value, on max(A0, 0), at the entry i of the array that j sits at. -/
theorem blk6_eq (A0 : FVec Ideal S50000x256 .f32) (A1 : FVec Ideal S256x256 .f32) (A2 : FVec Ideal S1x256 .f32)
    (x0 : Vec Ideal S5000x256 .f32) (x1 : Vec Ideal S256x256 .f32) (x2 : Vec Ideal S1x256 .f32) (n : ℕ)
    (h0 : ∀ (y : S5000x256.Idx) (i : S50000x256.Idx), (i 0).val = n * 5000 + (y 0).val → (i 1).val = (y 1).val → x0 y = A0 i)
    (h1 : ∀ y : S256x256.Idx, x1 y = A1 y) (h2 : ∀ y : S1x256.Idx, x2 y = A2 y)
    (j : S5000x256.Idx) (i : S50000x256.Idx) (hi0 : (i 0).val = n * 5000 + (j 0).val) (hi1 : (i 1).val = (j 1).val) :
    k6_pay1 (F := Ideal) x0 x1 x2 j = Cert.Gcn.reluLin A0 A1 A2 i := by
  obtain ⟨p, q, rfl⟩ : ∃ (p : Fin 5000) (q : Fin 256), j = ix2 p q := ⟨j 0, j 1, eq_ix2 j⟩
  obtain ⟨r, q', rfl⟩ : ∃ (r : Fin 50000) (q' : Fin 256), i = ix2 r q' := ⟨i 0, i 1, eq_ix2 i⟩
  have hr : r.val = n * 5000 + p.val := hi0
  obtain rfl : q' = q := Fin.ext hi1
  rw [pay6_apply]
  show _ = (∑ k : Fin 256, max (A0 (ix2 r k)) 0 * A1 (ix2 k q')) + A2 (ix2 (0 : Fin 1) q')
  rw [h2]
  refine congrArg (fun z => z + A2 (ix2 (0 : Fin 1) q')) ?_
  exact Finset.sum_congr rfl fun k _ => by rw [h0 (ix2 p k) (ix2 r k) hr rfl, h1]

variable (V : (c : Dev nD) → (b : Ref sig .tc) → Buf (Elt Ideal) ((c : Thread nD τ).loc b))

/-- The printed index maps over the grid: the row windows sit at block t, the weight and the bias at block 0. -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point t writes back is block t of the layer's whole-array value. -/
theorem flushed6_eq (c : Dev nD) (t : Fin cfg6.N) :
    (dat6 (F := Ideal) V c).flushed 3 t
      = ((cfg6.win 3).blk t).view.read (Elt Ideal)
          (Cert.Gcn.reluLin (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz6]
  simp only [View.ld_unit_zero (S := S5000x256) hz6, View.ld_unit_zero (S := S256x256) hz6, View.ld_unit_zero (S := S1x256) hz6]
  obtain ⟨e00, e01, e10, e11, e20, e21, e30, e31⟩ := idx6 t
  funext j
  show k6_pay1 (F := Ideal) (iblk6 V c 0 t) (iblk6 V c 1 t) (iblk6 V c 2 t) j
    = Cert.Gcn.reluLin (V c (Pipeline.arrRef spec6 0)) (V c (Pipeline.arrRef spec6 1)) (V c (Pipeline.arrRef spec6 2)) (((cfg6.win 3).blk t).view.emb j)
  refine blk6_eq (V c (Pipeline.arrRef spec6 0)) (V c (Pipeline.arrRef spec6 1)) (V c (Pipeline.arrRef spec6 2))
    (iblk6 V c 0 t) (iblk6 V c 1 t) (iblk6 V c 2 t) t.val ?_ ?_ ?_ j (((cfg6.win 3).blk t).view.emb j) ?_ ?_
  · intro y i hy0 hy1
    show V c (Pipeline.arrRef spec6 0) (((cfg6.win 0).blk t).view.emb y) = V c (Pipeline.arrRef spec6 0) i
    refine congrArg (V c (Pipeline.arrRef spec6 0)) (funext fun a => Fin.ext ?_)
    match a with
    | ⟨0, _⟩ => show win6_0.index t (0 : Fin 2) * 5000 + 1 * (y 0).val = (i 0).val; omega
    | ⟨1, _⟩ => show win6_0.index t (1 : Fin 2) * 256 + 1 * (y 1).val = (i 1).val; omega
  · intro y
    show V c (Pipeline.arrRef spec6 1) (((cfg6.win 1).blk t).view.emb y) = V c (Pipeline.arrRef spec6 1) y
    refine congrArg (V c (Pipeline.arrRef spec6 1)) (funext fun a => Fin.ext ?_)
    match a with
    | ⟨0, _⟩ => show win6_1.index t (0 : Fin 2) * 256 + 1 * (y 0).val = (y 0).val; omega
    | ⟨1, _⟩ => show win6_1.index t (1 : Fin 2) * 256 + 1 * (y 1).val = (y 1).val; omega
  · intro y
    show V c (Pipeline.arrRef spec6 2) (((cfg6.win 2).blk t).view.emb y) = V c (Pipeline.arrRef spec6 2) y
    refine congrArg (V c (Pipeline.arrRef spec6 2)) (funext fun a => Fin.ext ?_)
    match a with
    | ⟨0, _⟩ => show win6_2.index t (0 : Fin 2) * 1 + 1 * (y 0).val = (y 0).val; omega
    | ⟨1, _⟩ => show win6_2.index t (1 : Fin 2) * 256 + 1 * (y 1).val = (y 1).val; omega
  · show win6_3.index t (0 : Fin 2) * 5000 + 1 * (j 0).val = t.val * 5000 + (j 0).val; omega
  · show win6_3.index t (1 : Fin 2) * 256 + 1 * (j 1).val = (j 1).val; omega

/-- An entry of the array is in point t's block iff each coordinate is in the block's range on its axis. -/
theorem mem_blk6 (t : Fin cfg6.N) (i : S50000x256.Idx) :
    i ∈ ((cfg6.win 3).blk t).view.set ↔ ∀ a : Fin 2, win6_3.index t a * S5000x256.size a ≤ (i a).val ∧ (i a).val < win6_3.index t a * S5000x256.size a + S5000x256.size a := by
  show i ∈ ((View.whole main_v98).slice (win6_3.rect t)).set ↔ _
  rw [View.set_slice_whole, Rect.mem_set_unit]
  exact Iff.rfl

/-- Row r lies in the block of point r / 5000: the 10 row tiles cover the array. -/
theorem cover6 (i : S50000x256.Idx) : ∃ t : Fin cfg6.N, (cfg6.win 3).flush t = true ∧ i ∈ ((cfg6.win 3).blk t).view.set := by
  have hN : cfg6.N = 10 := N_6
  have hi0 : (i 0).val < 50000 := (i 0).isLt
  have hi1 : (i 1).val < 256 := (i 1).isLt
  have ht : (i 0).val / 5000 < cfg6.N := by rw [hN]; omega
  obtain ⟨-, -, -, -, -, -, e30, e31⟩ := idx6 ⟨(i 0).val / 5000, ht⟩
  refine ⟨⟨(i 0).val / 5000, ht⟩, flush6_3 _, ?_⟩
  rw [mem_blk6]
  intro a
  match a with
  | ⟨0, _⟩ =>
    show win6_3.index ⟨(i 0).val / 5000, ht⟩ (0 : Fin 2) * 5000 ≤ (i 0).val ∧ (i 0).val < win6_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win6_3.index ⟨(i 0).val / 5000, ht⟩ (1 : Fin 2) * 256 ≤ (i 1).val ∧ (i 1).val < win6_3.index ⟨(i 0).val / 5000, ht⟩ (1 : Fin 2) * 256 + 256
    rw [e31]; omega

/-- REGION 6: the output array after the region is the layer's value of the three input arrays as the region finds them. -/
theorem reg6 (c : Dev nD) :
    (dat6 (F := Ideal) V c).arrAt 3 cfg6.N
      = Cert.Gcn.reluLin (V c (Pipeline.arrRef spec6 0)) (V c (Pipeline.arrRef spec6 1)) (V c (Pipeline.arrRef spec6 2)) :=
  (dat6 V c).arrAt_eq_of_cover 3 _ (fun t _ => flushed6_eq V c t) cover6

end Cert.KernelIdeal.RegVal
end
-- ==== Proof.Reg8.lean ====
/-
  Region 8 of the kernel program, read as a value: the row-tiled body "x · W + b" writes, at each of the 10 grid
  points, rows 5000·t … 5000·t + 4999 of the product of the whole [50000, 256] array with the [256, 7] weight, plus the
  one-row bias along every row. The two operands pass through a narrowing format change first, which is the identity on the extended reals. The tiles cover the array, so after the region the output array is that function of the
  three input arrays, entry by entry, on the extended reals.
-/
import proofs.«109417_j84524956385822_2_alg».proof.Proof.Gen.KernelIdeal.Frame
import proofs.«109417_j84524956385822_2_alg».proof.Proof.Sums
import proofs.«109417_j84524956385822_2_alg».proof.Proof.LibPlainDot
import Idealize.ShloMosaic.Lib.Pipeline.Value
import Idealize.ShloMosaic.Lib.ValueLayout
import Idealize.ShloMosaic.Lib.ValueIdx

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer rectangle, as the constant function. -/
theorem hz8 : (![0, 0] : Fin 2 → Nat) = fun _ => 0 := funext fun a => by fin_cases a <;> rfl

/-- The body's stored value at entry (p, q) of its block: the row of the left block times the column of the
    right block, plus the bias row's entry q. -/
theorem pay8_apply (x0 : Vec Ideal S5000x256 .f32) (x1 : Vec Ideal S256x7 .f32) (x2 : Vec Ideal S1x7 .f32)
    (p : Fin 5000) (q : Fin 7) :
    k8_pay1 (F := Ideal) x0 x1 x2 (ix2 p q) = (∑ k : Fin 256, x0 (ix2 p k) * x1 (ix2 k q)) + x2 (ix2 (0 : Fin 1) q) := by
  unfold k8_pay1
  show (FloatOps.matmul (F := Ideal) _ none (truncf .bf16 (shapeCast S5000x256 (x0 : FVec Ideal S5000x256 .f32) _) _ : FVec Ideal S5000x256 .bf16) (truncf .bf16 (x1 : FVec Ideal S256x7 .f32) _ : FVec Ideal S256x7 .bf16) (constant S5000x7 .f32 0x00000000#32) (ix2 p q) : EReal)
      + (broadcastTo S5000x7 (shapeCast S1x7 (x2 : FVec Ideal S1x7 .f32) _) _ (ix2 p q) : EReal) = _
  rw [shapeCast_self, shapeCast_self]
  refine congrArg₂ (· + ·) ?_ ?_
  · exact (matmul_plain_zero_apply _ rfl none _ _ p q).trans rfl
  · exact broadcastTo_1b_ab_apply _ _ p q

/-- When the left block is rows n·5000 … n·5000 + 4999 of A0 and the other two blocks are A1 and A2 whole, the body's
    value at entry j of the block is the layer's value at the entry i of the array that j sits at. -/
theorem blk8_eq (A0 : FVec Ideal S50000x256 .f32) (A1 : FVec Ideal S256x7 .f32) (A2 : FVec Ideal S1x7 .f32)
    (x0 : Vec Ideal S5000x256 .f32) (x1 : Vec Ideal S256x7 .f32) (x2 : Vec Ideal S1x7 .f32) (n : ℕ)
    (h0 : ∀ (y : S5000x256.Idx) (i : S50000x256.Idx), (i 0).val = n * 5000 + (y 0).val → (i 1).val = (y 1).val → x0 y = A0 i)
    (h1 : ∀ y : S256x7.Idx, x1 y = A1 y) (h2 : ∀ y : S1x7.Idx, x2 y = A2 y)
    (j : S5000x7.Idx) (i : S50000x7.Idx) (hi0 : (i 0).val = n * 5000 + (j 0).val) (hi1 : (i 1).val = (j 1).val) :
    k8_pay1 (F := Ideal) x0 x1 x2 j = Cert.Gcn.lin A0 A1 A2 i := by
  obtain ⟨p, q, rfl⟩ : ∃ (p : Fin 5000) (q : Fin 7), j = ix2 p q := ⟨j 0, j 1, eq_ix2 j⟩
  obtain ⟨r, q', rfl⟩ : ∃ (r : Fin 50000) (q' : Fin 7), i = ix2 r q' := ⟨i 0, i 1, eq_ix2 i⟩
  have hr : r.val = n * 5000 + p.val := hi0
  obtain rfl : q' = q := Fin.ext hi1
  rw [pay8_apply]
  show _ = (∑ k : Fin 256, A0 (ix2 r k) * A1 (ix2 k q')) + A2 (ix2 (0 : Fin 1) q')
  rw [h2]
  refine congrArg (fun z => z + A2 (ix2 (0 : Fin 1) q')) ?_
  exact Finset.sum_congr rfl fun k _ => by rw [h0 (ix2 p k) (ix2 r k) hr rfl, h1]

variable (V : (c : Dev nD) → (b : Ref sig .tc) → Buf (Elt Ideal) ((c : Thread nD τ).loc b))

/-- The printed index maps over the grid: the row windows sit at block t, the weight and the bias at block 0. -/
theorem idx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- What point t writes back is block t of the layer's whole-array value. -/
theorem flushed8_eq (c : Dev nD) (t : Fin cfg8.N) :
    (dat8 (F := Ideal) V c).flushed 3 t
      = ((cfg8.win 3).blk t).view.read (Elt Ideal)
          (Cert.Gcn.lin (V c (Pipeline.arrRef spec8 0)) (V c (Pipeline.arrRef spec8 1)) (V c (Pipeline.arrRef spec8 2))) := by
  show (cfg8.win 3).cut (grid8.coords t) ((dat8 V c).after 3 t) = _
  rw [after8_3]
  unfold out8_3
  rw [View.canon_unit_zero hz8]
  simp only [View.ld_unit_zero (S := S5000x256) hz8, View.ld_unit_zero (S := S256x7) hz8, View.ld_unit_zero (S := S1x7) hz8]
  obtain ⟨e00, e01, e10, e11, e20, e21, e30, e31⟩ := idx8 t
  funext j
  show k8_pay1 (F := Ideal) (iblk8 V c 0 t) (iblk8 V c 1 t) (iblk8 V c 2 t) j
    = Cert.Gcn.lin (V c (Pipeline.arrRef spec8 0)) (V c (Pipeline.arrRef spec8 1)) (V c (Pipeline.arrRef spec8 2)) (((cfg8.win 3).blk t).view.emb j)
  refine blk8_eq (V c (Pipeline.arrRef spec8 0)) (V c (Pipeline.arrRef spec8 1)) (V c (Pipeline.arrRef spec8 2))
    (iblk8 V c 0 t) (iblk8 V c 1 t) (iblk8 V c 2 t) t.val ?_ ?_ ?_ j (((cfg8.win 3).blk t).view.emb j) ?_ ?_
  · intro y i hy0 hy1
    show V c (Pipeline.arrRef spec8 0) (((cfg8.win 0).blk t).view.emb y) = V c (Pipeline.arrRef spec8 0) i
    refine congrArg (V c (Pipeline.arrRef spec8 0)) (funext fun a => Fin.ext ?_)
    match a with
    | ⟨0, _⟩ => show win8_0.index t (0 : Fin 2) * 5000 + 1 * (y 0).val = (i 0).val; omega
    | ⟨1, _⟩ => show win8_0.index t (1 : Fin 2) * 256 + 1 * (y 1).val = (i 1).val; omega
  · intro y
    show V c (Pipeline.arrRef spec8 1) (((cfg8.win 1).blk t).view.emb y) = V c (Pipeline.arrRef spec8 1) y
    refine congrArg (V c (Pipeline.arrRef spec8 1)) (funext fun a => Fin.ext ?_)
    match a with
    | ⟨0, _⟩ => show win8_1.index t (0 : Fin 2) * 256 + 1 * (y 0).val = (y 0).val; omega
    | ⟨1, _⟩ => show win8_1.index t (1 : Fin 2) * 7 + 1 * (y 1).val = (y 1).val; omega
  · intro y
    show V c (Pipeline.arrRef spec8 2) (((cfg8.win 2).blk t).view.emb y) = V c (Pipeline.arrRef spec8 2) y
    refine congrArg (V c (Pipeline.arrRef spec8 2)) (funext fun a => Fin.ext ?_)
    match a with
    | ⟨0, _⟩ => show win8_2.index t (0 : Fin 2) * 1 + 1 * (y 0).val = (y 0).val; omega
    | ⟨1, _⟩ => show win8_2.index t (1 : Fin 2) * 7 + 1 * (y 1).val = (y 1).val; omega
  · show win8_3.index t (0 : Fin 2) * 5000 + 1 * (j 0).val = t.val * 5000 + (j 0).val; omega
  · show win8_3.index t (1 : Fin 2) * 7 + 1 * (j 1).val = (j 1).val; omega

/-- An entry of the array is in point t's block iff each coordinate is in the block's range on its axis. -/
theorem mem_blk8 (t : Fin cfg8.N) (i : S50000x7.Idx) :
    i ∈ ((cfg8.win 3).blk t).view.set ↔ ∀ a : Fin 2, win8_3.index t a * S5000x7.size a ≤ (i a).val ∧ (i a).val < win8_3.index t a * S5000x7.size a + S5000x7.size a := by
  show i ∈ ((View.whole main_v120).slice (win8_3.rect t)).set ↔ _
  rw [View.set_slice_whole, Rect.mem_set_unit]
  exact Iff.rfl

/-- Row r lies in the block of point r / 5000: the 10 row tiles cover the array. -/
theorem cover8 (i : S50000x7.Idx) : ∃ t : Fin cfg8.N, (cfg8.win 3).flush t = true ∧ i ∈ ((cfg8.win 3).blk t).view.set := by
  have hN : cfg8.N = 10 := N_8
  have hi0 : (i 0).val < 50000 := (i 0).isLt
  have hi1 : (i 1).val < 7 := (i 1).isLt
  have ht : (i 0).val / 5000 < cfg8.N := by rw [hN]; omega
  obtain ⟨-, -, -, -, -, -, e30, e31⟩ := idx8 ⟨(i 0).val / 5000, ht⟩
  refine ⟨⟨(i 0).val / 5000, ht⟩, flush8_3 _, ?_⟩
  rw [mem_blk8]
  intro a
  match a with
  | ⟨0, _⟩ =>
    show win8_3.index ⟨(i 0).val / 5000, ht⟩ (0 : Fin 2) * 5000 ≤ (i 0).val ∧ (i 0).val < win8_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win8_3.index ⟨(i 0).val / 5000, ht⟩ (1 : Fin 2) * 7 ≤ (i 1).val ∧ (i 1).val < win8_3.index ⟨(i 0).val / 5000, ht⟩ (1 : Fin 2) * 7 + 7
    rw [e31]; omega

/-- REGION 8: the output array after the region is the layer's value of the three input arrays as the region finds them. -/
theorem reg8 (c : Dev nD) :
    (dat8 (F := Ideal) V c).arrAt 3 cfg8.N
      = Cert.Gcn.lin (V c (Pipeline.arrRef spec8 0)) (V c (Pipeline.arrRef spec8 1)) (V c (Pipeline.arrRef spec8 2)) :=
  (dat8 V c).arrAt_eq_of_cover 3 _ (fun t _ => flushed8_eq V c t) cover8

end Cert.KernelIdeal.RegVal
end
-- ==== Proof.KReg2.lean ====
/-
  The later kernel regions' outputs as stages of the specification: the edge scores reshaped to a vector are the
  raw edge weights; the three convolutions' linear kernels, run with a bias row of zeros, give the three linear
  images of what they are applied to.
-/
import proofs.«109417_j84524956385822_2_alg».proof.Proof.KH3
import proofs.«109417_j84524956385822_2_alg».proof.Proof.KReg
import proofs.«109417_j84524956385822_2_alg».proof.Proof.LinHost
import proofs.«109417_j84524956385822_2_alg».proof.Proof.EdgeSpec
import proofs.«109417_j84524956385822_2_alg».proof.Proof.Reg5
import proofs.«109417_j84524956385822_2_alg».proof.Proof.Reg6
import proofs.«109417_j84524956385822_2_alg».proof.Proof.Reg8

set_option maxRecDepth 16384

noncomputable section

namespace Cert.KernelIdeal.KVal

open Cert.KernelIdeal Cert.KernelIdeal.Gen Idealize.ShloMosaic Idealize.ShloMosaic.StableHlo
open Cert.Gcn

variable (m : (ℓ : Loc nD τ sig) → Buf (Elt Ideal) ℓ) (ρ : Dev nD → PrngReg) (c : Dev nD)

/-- The raw edge weights: the edge scores as a vector are the specification's raw weights. -/
theorem raw_eq : RAW m ρ c
    = Spec.ewraw (LG m c) (Spec.pars (m ((c.tc : Thread nD τ).loc main_arg14)))
        (Spec.row (m ((c.tc : Thread nD τ).loc main_arg1))) (Spec.col (m ((c.tc : Thread nD τ).loc main_arg1))) := by
  show shapeCast S800000 (W12 m ρ c (Proc.devRef .tc main_v32)) Facts₀.shapeCasts_S1x800000_S800000 = _
  rw [v32_at12]
  exact Edge.edge_score_spec (LG m c) (Spec.pars (m ((c.tc : Thread nD τ).loc main_arg14))) Z7 (LinHost.zrow_zero _ _)
    (Spec.row (m ((c.tc : Thread nD τ).loc main_arg1))) (Spec.col (m ((c.tc : Thread nD τ).loc main_arg1))) _

/-- Region 5's output is the first linear image. -/
theorem v77_at18 : W18 m ρ c (Proc.devRef .tc main_v77)
    = Spec.lin1 (m ((c.tc : Thread nD τ).loc main_arg0)) (m ((c.tc : Thread nD τ).loc main_arg2)) := by
  refine (W18_arr m ρ c 3).trans ((RegVal.reg5 (V17 m ρ) c).trans ?_)
  show Cert.Gcn.lin (W17 m ρ c (Proc.devRef .tc main_arg0)) (W17 m ρ c (Proc.devRef .tc main_arg2)) (W17 m ρ c (Proc.devRef .tc main_v76)) = _
  carry main_arg0
  carry main_arg2
  rw [v76_at17]
  exact LinHost.lin_zero Cert.ReferenceIdeal.dot_S50000x512_S512x256_S50000x256_1_0_0_1_n_n rfl _ _ _ (LinHost.zrow_zero _ _)

/-- Region 6's output is the second linear image, of the first convolution's result raised to at least zero. -/
theorem v98_at20 : W20 m ρ c (Proc.devRef .tc main_v98)
    = Spec.lin2 (Spec.relu256 (W19 m ρ c (Proc.devRef .tc main_v95))) (m ((c.tc : Thread nD τ).loc main_arg4)) := by
  refine (W20_arr m ρ c 3).trans ((RegVal.reg6 (V19 m ρ) c).trans ?_)
  show Cert.Gcn.reluLin (W19 m ρ c (Proc.devRef .tc main_v95)) (W19 m ρ c (Proc.devRef .tc main_arg4)) (W19 m ρ c (Proc.devRef .tc main_v97)) = _
  carry main_arg4
  rw [v97_at19]
  exact LinHost.reluLin_zero Cert.ReferenceIdeal.dot_S50000x256_S256x256_S50000x256_1_0_0_1_n_n rfl _ _ _ (LinHost.zrow_zero _ _) _

/-- Region 8's output is the third linear image. -/
theorem v120_at24 : W24 m ρ c (Proc.devRef .tc main_v120)
    = Spec.lin3 (W22 m ρ c (Proc.devRef .tc main_v117)) (m ((c.tc : Thread nD τ).loc main_arg6)) := by
  refine (W24_arr m ρ c 3).trans ((RegVal.reg8 (V23 m ρ) c).trans ?_)
  show Cert.Gcn.lin (W23 m ρ c (Proc.devRef .tc main_v117)) (W23 m ρ c (Proc.devRef .tc main_arg6)) (W23 m ρ c (Proc.devRef .tc main_v119)) = _
  carry main_v117
  carry main_arg6
  rw [v119_at23]
  exact LinHost.lin_zero Cert.ReferenceIdeal.dot_S50000x256_S256x7_S50000x7_1_0_0_1_n_n rfl _ _ _ (LinHost.zrow_zero _ _)

end Cert.KernelIdeal.KVal
end
-- ==== Proof.KOut.lean ====
/-
  The kernel program's result is the specification's network of its argument arrays: the third convolution of
  the third linear kernel's output, that kernel's input the residual sum of the second convolution (through
  max(·, 0)) and the first, each linear kernel the specification's linear image, the normalisation that of the
  edge weights the edge-score kernel's output reshapes to — the chain of the boundary-by-boundary equations, read
  from the last boundary back to the launch memory.
-/
import proofs.«109417_j84524956385822_2_alg».proof.Proof.KH3
import proofs.«109417_j84524956385822_2_alg».proof.Proof.KReg
import proofs.«109417_j84524956385822_2_alg».proof.Proof.KReg2

set_option maxRecDepth 16384

noncomputable section

namespace Cert.KernelIdeal.KVal

open Cert.KernelIdeal Cert.KernelIdeal.Gen Idealize.ShloMosaic Idealize.ShloMosaic.StableHlo
open Cert.Gcn

variable (m : (ℓ : Loc nD τ sig) → Buf (Elt Ideal) ℓ) (ρ : Dev nD → PrngReg) (c : Dev nD)

/-- The result buffer at the last boundary. -/
theorem out_val : W25 m ρ c (Proc.devRef .tc main_v138)
    = Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [v138_at25, v120_at24, v117_at22, v116_at21, v98_at20, v95_at19, v77_at18]
  delta NORM EAUG
  rw [raw_eq]
  rfl

end Cert.KernelIdeal.KVal

end
-- ==== Proof.lean ====
/-
  The certificate's five claims. The three frames: each program, from any memory of finite inputs, runs to the
  end without a fault and leaves its fifteen argument arrays as they were — the two kernel programs by the launch of
  their nine regions among the host stretches, the reference by the fold of its host operations. The
  idealization rewrote no operation. On the extended reals the two idealized programs, from memories that agree on
  the arguments, end with equal results: each result array is the same function of the fifteen arguments — the
  three-layer graph convolution with its learned, standardised and symmetrically normalised edge weights
  (the specification's `out`) — the reference's by reading its run back stage by stage, the kernel program's by reading
  each region's output as a whole-array sum and carrying it through the host stretches.
-/
import proofs.«109417_j84524956385822_2_alg».proof.Defs
import proofs.«109417_j84524956385822_2_alg».proof.Proof.Gen.Kernel
import proofs.«109417_j84524956385822_2_alg».proof.Proof.Gen.Kernel.Skeleton
import proofs.«109417_j84524956385822_2_alg».proof.Proof.Gen.Kernel.Launch
import proofs.«109417_j84524956385822_2_alg».proof.Proof.Gen.Kernel.Points
import proofs.«109417_j84524956385822_2_alg».proof.Proof.Gen.Kernel.Frame
import proofs.«109417_j84524956385822_2_alg».proof.Proof.Gen.KernelIdeal
import proofs.«109417_j84524956385822_2_alg».proof.Proof.Gen.KernelIdeal.Skeleton
import proofs.«109417_j84524956385822_2_alg».proof.Proof.Gen.KernelIdeal.Launch
import proofs.«109417_j84524956385822_2_alg».proof.Proof.Gen.KernelIdeal.Points
import proofs.«109417_j84524956385822_2_alg».proof.Proof.Gen.KernelIdeal.Frame
import proofs.«109417_j84524956385822_2_alg».proof.Proof.Gen.ReferenceIdeal
import proofs.«109417_j84524956385822_2_alg».proof.Proof.Gen.Pre_finite_inputs
import proofs.«109417_j84524956385822_2_alg».proof.Proof.Spec
import proofs.«109417_j84524956385822_2_alg».proof.Proof.KRun
import proofs.«109417_j84524956385822_2_alg».proof.Proof.RefFrame
import proofs.«109417_j84524956385822_2_alg».proof.Proof.RefValue
import proofs.«109417_j84524956385822_2_alg».proof.Proof.KOut
import Idealize.ShloMosaic.Adequacy
import Idealize.ShloMosaic.Init

noncomputable section

namespace Cert.Proof

open Idealize.ShloMosaic Idealize.SL.Sem

/-- On the extended reals both programs end at the network's output of the (agreeing) arguments. -/
theorem algebraic : Cert.algebraic_KernelIdeal_ReferenceIdeal := by
  intro m ρ m' ρ' _ hagree
  refine ⟨fun c => Cert.Gcn.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KVal.out_val m ρ c), (h c).2⟩)
      (Cert.KernelIdeal.KRun.run_val m ρ)
  · refine (θ_run Cert.ReferenceIdeal.defs _ _).mono (fun r h c => ⟨(h c).1.trans ?_, (h c).2⟩)
      (Cert.ReferenceIdeal.RefRun.run m' ρ')
    obtain ⟨h0, h1, h2, h3, h4, h5, h6, h7, h8, h9, h10, h11, h12, h13, h14⟩ := hagree c
    rw [h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.RefRun.frame m ρ,
  trivial,
  algebraic⟩

end Cert.Proof

end
